-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.truncf_extf.Statement Cert.KernelIdeal.S8192x4 .f32 .bf16
  ∧ IdealRules.truncf_extf.Statement Cert.KernelIdeal.S8192x1 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v147)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v147) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v161) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x2 : Shape := ⟨2, ![131072, 2]⟩
abbrev S8388608x1 : Shape := ⟨2, ![8388608, 1]⟩
abbrev S2x8388608 : Shape := ⟨2, ![2, 8388608]⟩
abbrev S131072 : Shape := ⟨1, ![131072]⟩
abbrev S_ : Shape := ⟨0, ![]⟩

class Facts : Prop where
  bcast_S_S131072x2 : S_.BroadcastsInDim S131072x2 (![] : Fin 0 → Fin S131072x2.rank)
  reducesTo_S131072x2_S_d0_1 : S131072x2.ReducesTo [0, 1] S_
  h_S_ : 0 < S_.numel
  bcast_S_S8388608x1 : S_.BroadcastsInDim S8388608x1 (![] : Fin 0 → Fin S8388608x1.rank)
  reducesTo_S8388608x1_S_d0_1 : S8388608x1.ReducesTo [0, 1] S_

variable [Facts]

def fn_part1 {F : FTy → Type} [FloatOps F] (main_v13 : IVec S_ 1) (main_v15 : IVec S8388608x1 1) (main_c_5 : IVec S_ 1) : IVec S_ 1 :=
  let main_v16 : IVec S_ 1 := (fun x v => Host.reduce IntOp.andi x v reducesTo_S8388608x1_S_d0_1 h_S_) main_v15 main_c_5
  let main_v17 : IVec S_ 1 := andi main_v13 main_v16
  main_v17

def fn {F : FTy → Type} [FloatOps F] (main_arg0 : FVec F S131072x2 .f32) (main_arg1 : FVec F S131072x2 .f32) (main_arg2 : FVec F S8388608x1 .f32) (main_arg3 : IVec S2x8388608 32) (main_arg4 : IVec S131072 32) : IVec S_ 1 :=
  let main_v0 : FVec F S131072x2 .f32 := Host.absf main_arg0
  let main_cst : FVec F S_ .f32 := constant S_ .f32 0x7F800000#32
  let main_v1 : FVec F S131072x2 .f32 := broadcastInDim S131072x2 ![] bcast_S_S131072x2 main_cst
  let main_v2 : IVec S131072x2 1 := cmpf .olt main_v0 main_v1
  let main_c : IVec S_ 1 := constantI S_ 1 1#1
  let main_v3 : IVec S_ 1 := (fun x v => Host.reduce IntOp.andi x v reducesTo_S131072x2_S_d0_1 h_S_) main_v2 main_c
  let main_v4 : FVec F S131072x2 .f32 := Host.absf main_arg1
  let main_cst_0 : FVec F S_ .f32 := constant S_ .f32 0x7F800000#32
  let main_v5 : FVec F S131072x2 .f32 := broadcastInDim S131072x2 ![] bcast_S_S131072x2 main_cst_0
  let main_v6 : IVec S131072x2 1 := cmpf .olt main_v4 main_v5
  let main_c_1 : IVec S_ 1 := constantI S_ 1 1#1
  let main_v7 : IVec S_ 1 := (fun x v => Host.reduce IntOp.andi x v reducesTo_S131072x2_S_d0_1 h_S_) main_v6 main_c_1
  let main_v8 : IVec S_ 1 := andi main_v3 main_v7
  let main_v9 : FVec F S8388608x1 .f32 := Host.absf main_arg2
  let main_cst_2 : FVec F S_ .f32 := constant S_ .f32 0x7F800000#32
  let main_v10 : FVec F S8388608x1 .f32 := broadcastInDim S8388608x1 ![] bcast_S_S8388608x1 main_cst_2
  let main_v11 : IVec S8388608x1 1 := cmpf .olt main_v9 main_v10
  let main_c_3 : IVec S_ 1 := constantI S_ 1 1#1
  let main_v12 : IVec S_ 1 := (fun x v => Host.reduce IntOp.andi x v reducesTo_S8388608x1_S_d0_1 h_S_) main_v11 main_c_3
  let main_v13 : IVec S_ 1 := andi main_v8 main_v12
  let main_cst_4 : FVec F S_ .f32 := constant S_ .f32 0x00000000#32
  let main_v14 : FVec F S8388608x1 .f32 := broadcastInDim S8388608x1 ![] bcast_S_S8388608x1 main_cst_4
  let main_v15 : IVec S8388608x1 1 := cmpf .une main_arg2 main_v14
  let main_c_5 : IVec S_ 1 := constantI S_ 1 1#1
  fn_part1 (F := F) main_v13 main_v15 main_c_5
-- ==== Kernel.lean ====
abbrev S131072x2 : Shape := ⟨2, ![131072, 2]⟩
abbrev S8388608x1 : Shape := ⟨2, ![8388608, 1]⟩
abbrev S2x8388608 : Shape := ⟨2, ![2, 8388608]⟩
abbrev S131072 : Shape := ⟨1, ![131072]⟩
abbrev S1x8388608 : Shape := ⟨2, ![1, 8388608]⟩
abbrev S8388608 : Shape := ⟨1, ![8388608]⟩
abbrev S_ : Shape := ⟨0, ![]⟩
abbrev S8388608x2 : Shape := ⟨2, ![8388608, 2]⟩
abbrev S8388608x4 : Shape := ⟨2, ![8388608, 4]⟩
abbrev S8388608x5 : Shape := ⟨2, ![8388608, 5]⟩
abbrev S2x64x4 : Shape := ⟨3, ![2, 64, 4]⟩
abbrev S8192x5 : Shape := ⟨2, ![8192, 5]⟩
abbrev S1x64x4 : Shape := ⟨3, ![1, 64, 4]⟩
abbrev S64x4 : Shape := ⟨2, ![64, 4]⟩
abbrev S8192x4 : Shape := ⟨2, ![8192, 4]⟩
abbrev S8192x1 : Shape := ⟨2, ![8192, 1]⟩
abbrev S8192x64 : Shape := ⟨2, ![8192, 64]⟩
abbrev S64x1 : Shape := ⟨2, ![64, 1]⟩
abbrev S64 : Shape := ⟨1, ![64]⟩
abbrev S2x64x1 : Shape := ⟨3, ![2, 64, 1]⟩
abbrev S8192x2 : Shape := ⟨2, ![8192, 2]⟩
abbrev S1x64x1 : Shape := ⟨3, ![1, 64, 1]⟩
abbrev S131072x1 : Shape := ⟨2, ![131072, 1]⟩

abbrev nBuf : Space → Nat
  | .hbm => 185
  | .vmem => 8
  | .smem => 0
  | _ => 0

abbrev hbmTy0_0 (i : Nat) : BufTy := match i % 128 with
  | 0 => ⟨S131072x2, .f32⟩
  | 1 => ⟨S131072x2, .f32⟩
  | 2 => ⟨S8388608x1, .f32⟩
  | 3 => ⟨S2x8388608, .i32⟩
  | 4 => ⟨S131072, .i32⟩
  | 5 => ⟨S1x8388608, .i32⟩
  | 6 => ⟨S8388608, .i32⟩
  | 7 => ⟨S1x8388608, .i32⟩
  | 8 => ⟨S8388608, .i32⟩
  | 9 => ⟨S_, .i32⟩
  | 10 => ⟨S8388608, .i32⟩
  | 11 => ⟨S8388608, .i1⟩
  | 12 => ⟨S_, .i32⟩
  | 13 => ⟨S8388608, .i32⟩
  | 14 => ⟨S8388608, .i32⟩
  | 15 => ⟨S8388608, .i32⟩
  | 16 => ⟨S8388608x1, .i32⟩
  | 17 => ⟨S8388608, .i32⟩
  | 18 => ⟨S_, .i32⟩
  | 19 => ⟨S8388608, .i32⟩
  | 20 => ⟨S8388608, .i1⟩
  | 21 => ⟨S_, .i32⟩
  | 22 => ⟨S8388608, .i32⟩
  | 23 => ⟨S8388608, .i32⟩
  | 24 => ⟨S8388608, .i32⟩
  | 25 => ⟨S8388608x1, .i32⟩
  | 26 => ⟨S8388608, .i32⟩
  | 27 => ⟨S8388608, .f32⟩
  | 28 => ⟨S_, .i32⟩
  | 29 => ⟨S8388608, .i32⟩
  | 30 => ⟨S8388608, .i1⟩
  | 31 => ⟨S_, .i32⟩
  | 32 => ⟨S8388608, .i32⟩
  | 33 => ⟨S8388608, .i32⟩
  | 34 => ⟨S8388608, .i32⟩
  | 35 => ⟨S8388608x1, .i32⟩
  | 36 => ⟨S8388608x2, .f32⟩
  | 37 => ⟨S_, .i32⟩
  | 38 => ⟨S8388608, .i32⟩
  | 39 => ⟨S8388608, .i1⟩
  | 40 => ⟨S_, .i32⟩
  | 41 => ⟨S8388608, .i32⟩
  | 42 => ⟨S8388608, .i32⟩
  | 43 => ⟨S8388608, .i32⟩
  | 44 => ⟨S8388608x1, .i32⟩
  | 45 => ⟨S8388608x2, .f32⟩
  | 46 => ⟨S_, .i32⟩
  | 47 => ⟨S8388608, .i32⟩
  | 48 => ⟨S8388608, .i1⟩
  | 49 => ⟨S_, .i32⟩
  | 50 => ⟨S8388608, .i32⟩
  | 51 => ⟨S8388608, .i32⟩
  | 52 => ⟨S8388608, .i32⟩
  | 53 => ⟨S8388608x1, .i32⟩
  | 54 => ⟨S8388608x2, .f32⟩
  | 55 => ⟨S_, .i32⟩
  | 56 => ⟨S8388608, .i32⟩
  | 57 => ⟨S8388608, .i1⟩
  | 58 => ⟨S_, .i32⟩
  | 59 => ⟨S8388608, .i32⟩
  | 60 => ⟨S8388608, .i32⟩
  | 61 => ⟨S8388608, .i32⟩
  | 62 => ⟨S8388608x1, .i32⟩
  | 63 => ⟨S8388608x2, .f32⟩
  | 64 => ⟨S8388608x2, .f32⟩
  | 65 => ⟨S8388608x2, .f32⟩
  | 66 => ⟨S_, .f32⟩
  | 67 => ⟨S8388608, .f32⟩
  | 68 => ⟨S8388608, .f32⟩
  | 69 => ⟨S8388608, .f32⟩
  | 70 => ⟨S8388608, .f32⟩
  | 71 => ⟨S8388608x2, .f32⟩
  | 72 => ⟨S8388608x1, .f32⟩
  | 73 => ⟨S8388608, .f32⟩
  | 74 => ⟨S8388608x1, .f32⟩
  | 75 => ⟨S8388608, .f32⟩
  | 76 => ⟨S8388608, .f32⟩
  | 77 => ⟨S_, .f32⟩
  | 78 => ⟨S8388608, .f32⟩
  | 79 => ⟨S8388608, .f32⟩
  | 80 => ⟨S8388608x1, .f32⟩
  | 81 => ⟨S8388608, .f32⟩
  | 82 => ⟨S8388608x1, .f32⟩
  | 83 => ⟨S8388608, .f32⟩
  | 84 => ⟨S8388608, .f32⟩
  | 85 => ⟨S_, .f32⟩
  | 86 => ⟨S8388608, .f32⟩
  | 87 => ⟨S8388608, .f32⟩
  | 88 => ⟨S8388608x1, .f32⟩
  | 89 => ⟨S8388608, .f32⟩
  | 90 => ⟨S8388608, .f32⟩
  | 91 => ⟨S_, .f32⟩
  | 92 => ⟨S8388608, .f32⟩
  | 93 => ⟨S8388608, .f32⟩
  | 94 => ⟨S8388608x1, .f32⟩
  | 95 => ⟨S8388608, .f32⟩
  | 96 => ⟨S8388608, .f32⟩
  | 97 => ⟨S_, .f32⟩
  | 98 => ⟨S8388608, .f32⟩
  | 99 => ⟨S8388608, .f32⟩
  | 100 => ⟨S8388608, .f32⟩
  | 101 => ⟨S_, .f32⟩
  | 102 => ⟨S8388608, .f32⟩
  | 103 => ⟨S_, .f32⟩
  | 104 => ⟨S8388608, .f32⟩
  | 105 => ⟨S8388608, .f32⟩
  | 106 => ⟨S8388608, .f32⟩
  | 107 => ⟨S_, .f32⟩
  | 108 => ⟨S8388608, .f32⟩
  | 109 => ⟨S8388608x1, .f32⟩
  | 110 => ⟨S8388608x1, .f32⟩
  | 111 => ⟨S8388608x1, .f32⟩
  | 112 => ⟨S8388608x1, .f32⟩
  | 113 => ⟨S8388608x4, .f32⟩
  | 114 => ⟨S8388608, .f32⟩
  | 115 => ⟨S8388608x1, .f32⟩
  | 116 => ⟨S8388608x5, .f32⟩
  | 117 => ⟨S2x64x4, .f32⟩
  | 118 => ⟨S_, .f32⟩
  | 119 => ⟨S64x4, .f32⟩
  | 120 => ⟨S64x1, .f32⟩
  | 121 => ⟨S64, .f32⟩
  | 122 => ⟨S64x1, .f32⟩
  | 123 => ⟨S64, .f32⟩
  | 124 => ⟨S64x1, .f32⟩
  | 125 => ⟨S64, .f32⟩
  | 126 => ⟨S64x1, .f32⟩
  | 127 => ⟨S64, .f32⟩
  | _ => ⟨S131072x2, .f32⟩

abbrev hbmTy0_1 (i : Nat) : BufTy := match i % 128 with
  | 0 => ⟨S64, .f32⟩
  | 1 => ⟨S_, .f32⟩
  | 2 => ⟨S64, .f32⟩
  | 3 => ⟨S64, .f32⟩
  | 4 => ⟨S64, .f32⟩
  | 5 => ⟨S_, .i32⟩
  | 6 => ⟨S8388608, .i32⟩
  | 7 => ⟨S8388608, .i1⟩
  | 8 => ⟨S_, .i32⟩
  | 9 => ⟨S8388608, .i32⟩
  | 10 => ⟨S8388608, .i32⟩
  | 11 => ⟨S8388608, .i32⟩
  | 12 => ⟨S8388608x1, .i32⟩
  | 13 => ⟨S8388608, .f32⟩
  | 14 => ⟨S_, .i32⟩
  | 15 => ⟨S8388608, .i32⟩
  | 16 => ⟨S8388608, .i1⟩
  | 17 => ⟨S_, .i32⟩
  | 18 => ⟨S8388608, .i32⟩
  | 19 => ⟨S8388608, .i32⟩
  | 20 => ⟨S8388608, .i32⟩
  | 21 => ⟨S8388608x1, .i32⟩
  | 22 => ⟨S8388608, .f32⟩
  | 23 => ⟨S8388608x1, .f32⟩
  | 24 => ⟨S8388608x2, .f32⟩
  | 25 => ⟨S8388608x2, .f32⟩
  | 26 => ⟨S8388608x1, .f32⟩
  | 27 => ⟨S8388608x2, .f32⟩
  | 28 => ⟨S8388608x2, .f32⟩
  | 29 => ⟨S8388608x2, .f32⟩
  | 30 => ⟨S8388608x2, .f32⟩
  | 31 => ⟨S_, .f32⟩
  | 32 => ⟨S8388608, .f32⟩
  | 33 => ⟨S8388608, .f32⟩
  | 34 => ⟨S8388608, .f32⟩
  | 35 => ⟨S8388608, .f32⟩
  | 36 => ⟨S8388608, .f32⟩
  | 37 => ⟨S8388608, .f32⟩
  | 38 => ⟨S8388608x1, .f32⟩
  | 39 => ⟨S8388608x2, .f32⟩
  | 40 => ⟨S2x64x1, .f32⟩
  | 41 => ⟨S_, .f32⟩
  | 42 => ⟨S64x1, .f32⟩
  | 43 => ⟨S64, .f32⟩
  | 44 => ⟨S_, .f32⟩
  | 45 => ⟨S131072, .f32⟩
  | 46 => ⟨S_, .f32⟩
  | 47 => ⟨S64, .f32⟩
  | 48 => ⟨S131072x1, .i32⟩
  | 49 => ⟨S64, .f32⟩
  | 50 => ⟨S64, .f32⟩
  | 51 => ⟨S64, .f32⟩
  | 52 => ⟨S64, .f32⟩
  | 53 => ⟨S_, .f32⟩
  | 54 => ⟨S_, .f32⟩
  | 55 => ⟨S_, .f32⟩
  | 56 => ⟨S_, .f32⟩
  | _ => ⟨S131072x2, .f32⟩

abbrev hbmTy (i : Nat) : BufTy := match i / 128 with
  | 0 => hbmTy0_0 i
  | 1 => hbmTy0_1 i
  | _ => ⟨S131072x2, .f32⟩

abbrev bufTy : (tb : Table) → Fin (tcTables nBuf tb) → BufTy
  | .hbm, ⟨i, _⟩ => hbmTy i
  | .local _ .vmem, ⟨0, _⟩ => ⟨S8192x5, .f32⟩
  | .local _ .vmem, ⟨1, _⟩ => ⟨S8192x5, .f32⟩
  | .local _ .vmem, ⟨2, _⟩ => ⟨S1x64x4, .f32⟩
  | .local _ .vmem, ⟨3, _⟩ => ⟨S1x64x4, .f32⟩
  | .local _ .vmem, ⟨4, _⟩ => ⟨S8192x2, .f32⟩
  | .local _ .vmem, ⟨5, _⟩ => ⟨S8192x2, .f32⟩
  | .local _ .vmem, ⟨6, _⟩ => ⟨S1x64x1, .f32⟩
  | .local _ .vmem, ⟨7, _⟩ => ⟨S1x64x1, .f32⟩
  | _, _ => ⟨S131072x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_c_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_3 : Ref sig .tc := ⟨.hbm, 28, rfl⟩
abbrev main_v19 : Ref sig .tc := ⟨.hbm, 29, rfl⟩
abbrev main_v20 : Ref sig .tc := ⟨.hbm, 30, rfl⟩
abbrev main_c_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c_5 : Ref sig .tc := ⟨.hbm, 37, rfl⟩
abbrev main_v26 : Ref sig .tc := ⟨.hbm, 38, rfl⟩
abbrev main_v27 : Ref sig .tc := ⟨.hbm, 39, rfl⟩
abbrev main_c_6 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_c_7 : Ref sig .tc := ⟨.hbm, 46, rfl⟩
abbrev main_v33 : Ref sig .tc := ⟨.hbm, 47, rfl⟩
abbrev main_v34 : Ref sig .tc := ⟨.hbm, 48, rfl⟩
abbrev main_c_8 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_c_9 : Ref sig .tc := ⟨.hbm, 55, rfl⟩
abbrev main_v40 : Ref sig .tc := ⟨.hbm, 56, rfl⟩
abbrev main_v41 : Ref sig .tc := ⟨.hbm, 57, rfl⟩
abbrev main_c_10 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_cst_11 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_cst_12 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_cst_13 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_cst_14 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_cst_15 : Ref sig .tc := ⟨.hbm, 101, rfl⟩
abbrev main_v79 : Ref sig .tc := ⟨.hbm, 102, rfl⟩
abbrev main_cst_16 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_cst_17 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_cst_18 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_cst_19 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_c_20 : Ref sig .tc := ⟨.hbm, 133, rfl⟩
abbrev main_v106 : Ref sig .tc := ⟨.hbm, 134, rfl⟩
abbrev main_v107 : Ref sig .tc := ⟨.hbm, 135, rfl⟩
abbrev main_c_21 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_c_22 : Ref sig .tc := ⟨.hbm, 142, rfl⟩
abbrev main_v113 : Ref sig .tc := ⟨.hbm, 143, rfl⟩
abbrev main_v114 : Ref sig .tc := ⟨.hbm, 144, rfl⟩
abbrev main_c_23 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_cst_24 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_v132 : Ref sig .tc := ⟨.hbm, 164, rfl⟩
abbrev main_v133 : Ref sig .tc := ⟨.hbm, 165, rfl⟩
abbrev main_v134 : Ref sig .tc := ⟨.hbm, 166, rfl⟩
abbrev main_v135 : Ref sig .tc := ⟨.hbm, 167, rfl⟩
abbrev main_v136 : Ref sig .tc := ⟨.hbm, 168, rfl⟩
abbrev main_cst_25 : Ref sig .tc := ⟨.hbm, 169, rfl⟩
abbrev main_v137 : Ref sig .tc := ⟨.hbm, 170, rfl⟩
abbrev main_v138 : Ref sig .tc := ⟨.hbm, 171, rfl⟩
abbrev main_cst_26 : Ref sig .tc := ⟨.hbm, 172, rfl⟩
abbrev main_v139 : Ref sig .tc := ⟨.hbm, 173, rfl⟩
abbrev main_cst_27 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_cst_28 : Ref sig .tc := ⟨.hbm, 181, rfl⟩
abbrev main_v146 : Ref sig .tc := ⟨.hbm, 182, rfl⟩
abbrev main_cst_29 : Ref sig .tc := ⟨.hbm, 183, rfl⟩
abbrev main_v147 : Ref sig .tc := ⟨.hbm, 184, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7

abbrev nD : Nat := 1
abbrev τ : Topo := Topo.v7x

variable {F : FTy → Type} [FloatOps F]

abbrev grid0 : Pipeline.Grid := ⟨2, ![2, 512], ![false, false]⟩

def cc0_transform_0 (i : grid0.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8192x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨2, ![2, 512], ![false, false]⟩

def cc1_transform_0 (i : grid1.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S8192x2 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x64x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

class Facts₀ : Prop where
  slices_S2x8388608_S1x8388608_0_0 : S2x8388608.Slices ![0, 0] S1x8388608
  shapeCasts_S1x8388608_S8388608 : S1x8388608.ShapeCasts S8388608
  slices_S2x8388608_S1x8388608_1_0 : S2x8388608.Slices ![1, 0] S1x8388608
  bcast_S_S8388608 : S_.BroadcastsInDim S8388608 (![] : Fin 0 → Fin S8388608.rank)
  bcast_S8388608_S8388608x1_0 : S8388608.BroadcastsInDim S8388608x1 (![0] : Fin 1 → Fin S8388608x1.rank)
  shapeCasts_S8388608x1_S8388608 : S8388608x1.ShapeCasts S8388608
  reducesTo_S8388608x2_S8388608_d1 : S8388608x2.ReducesTo [1] S8388608
  h_S_ : 0 < S_.numel
  slices_S8388608x2_S8388608x1_0_0 : S8388608x2.Slices ![0, 0] S8388608x1
  slices_S8388608x2_S8388608x1_0_1 : S8388608x2.Slices ![0, 1] S8388608x1
  concatenates_S8388608x1_S8388608x1_S8388608x1_S8388608x1_S8388608x4_d1 : Shape.Concatenates [S8388608x1, S8388608x1, S8388608x1, S8388608x1] S8388608x4 1
  shapeCasts_S8388608_S8388608x1 : S8388608.ShapeCasts S8388608x1
  concatenates_S8388608x4_S8388608x1_S8388608x5_d1 : Shape.Concatenates [S8388608x4, S8388608x1] S8388608x5 1
  inb_S1x64x4_S1x64x4_0_0_0 : ∀ a, (![0, 0, 0] : Fin 3 → Nat) a + S1x64x4.size a ≤ S1x64x4.size a
  h_S1x64x4 : 0 < S1x64x4.numel
  shapeCasts_S1x64x4_S64x4 : S1x64x4.ShapeCasts S64x4
  shapeCasts_S64x4_S1x64x4 : S64x4.ShapeCasts S1x64x4
  inb_S8192x5_S8192x5_0_0 : ∀ a, (![0, 0] : Fin 2 → Nat) a + S8192x5.size a ≤ S8192x5.size a
  h_S8192x5 : 0 < S8192x5.numel
  shapeCasts_S8192x5_S8192x5 : S8192x5.ShapeCasts S8192x5
  slices_S8192x5_o0_0_S8192x4 : S8192x5.Slices ![0, 0] S8192x4
  slices_S8192x5_o0_4_S8192x1 : S8192x5.Slices ![0, 4] S8192x1
  iota_S8192x64_d1_w32 : S8192x64.Iotas .tc 32 [1]
  broadcasts_S8192x1_S8192x64 : S8192x1.Broadcasts S8192x64
  natLt_1_32 : 1 < 32
  bitsLt_bf16_f32 : FTy.bits .bf16 < FTy.bits .f32
  reducesTo_S2x64x4_S64x4_d0 : S2x64x4.ReducesTo [0] S64x4
  slices_S64x4_S64x1_0_0 : S64x4.Slices ![0, 0] S64x1
  shapeCasts_S64x1_S64 : S64x1.ShapeCasts S64
  slices_S64x4_S64x1_0_1 : S64x4.Slices ![0, 1] S64x1
  slices_S64x4_S64x1_0_2 : S64x4.Slices ![0, 2] S64x1
  slices_S64x4_S64x1_0_3 : S64x4.Slices ![0, 3] S64x1
  bcast_S_S64 : S_.BroadcastsInDim S64 (![] : Fin 0 → Fin S64.rank)
  bcast_S8388608x1_S8388608x2_0_1 : S8388608x1.BroadcastsInDim S8388608x2 (![0, 1] : Fin 2 → Fin S8388608x2.rank)
  concatenates_S8388608x1_S8388608x1_S8388608x2_d1 : Shape.Concatenates [S8388608x1, S8388608x1] S8388608x2 1
  inb_S1x64x1_S1x64x1_0_0_0 : ∀ a, (![0, 0, 0] : Fin 3 → Nat) a + S1x64x1.size a ≤ S1x64x1.size a
  h_S1x64x1 : 0 < S1x64x1.numel
  shapeCasts_S1x64x1_S64x1 : S1x64x1.ShapeCasts S64x1
  shapeCasts_S64x1_S1x64x1 : S64x1.ShapeCasts S1x64x1
  inb_S8192x2_S8192x2_0_0 : ∀ a, (![0, 0] : Fin 2 → Nat) a + S8192x2.size a ≤ S8192x2.size a
  h_S8192x2 : 0 < S8192x2.numel
  shapeCasts_S8192x2_S8192x2 : S8192x2.ShapeCasts S8192x2
  slices_S8192x2_o0_0_S8192x1 : S8192x2.Slices ![0, 0] S8192x1
  slices_S8192x2_o0_1_S8192x1 : S8192x2.Slices ![0, 1] S8192x1
  reducesTo_S2x64x1_S64x1_d0 : S2x64x1.ReducesTo [0] S64x1
  bcast_S_S131072 : S_.BroadcastsInDim S131072 (![] : Fin 0 → Fin S131072.rank)
  bcast_S131072_S131072x1_0 : S131072.BroadcastsInDim S131072x1 (![0] : Fin 1 → Fin S131072x1.rank)
  reducesTo_S64_S_d0 : S64.ReducesTo [0] S_
  gather_S131072_S8388608x1_S8388608_n_0_n_n_0_1_1_wf : GatherDims.WF S131072 S8388608x1 S8388608 [] [0] [] [0] [] 1 ![1]
  gather_S131072x2_S8388608x1_S8388608x2_1_0_n_n_0_1_12_wf : GatherDims.WF S131072x2 S8388608x1 S8388608x2 [1] [0] [] [0] [] 1 ![1, 2]
  dot_S8192x64_S8192x4_S64x4_0_0_1_1_n_n_wf : DotDims.WF S8192x64 S8192x4 S64x4 [0] [0] [1] [1] [] []
  gather_S64_S8388608x1_S8388608_n_0_n_n_0_1_1_wf : GatherDims.WF S64 S8388608x1 S8388608 [] [0] [] [0] [] 1 ![1]
  dot_S8192x64_S8192x1_S64x1_0_0_1_1_n_n_wf : DotDims.WF S8192x64 S8192x1 S64x1 [0] [0] [1] [1] [] []
  scatter_S64_S131072x1_S131072_n_0_0_1_wf : ScatterDims.WF S64 S131072x1 S131072 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x5.size a ≤ S8388608x5.size a
  hwx0_0 : ∀ i : grid0.Coords, EltTy.bits .f32 = 32 ∨ (Rect.block (s := S8388608x5) S8192x5.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x4.size a ≤ S2x64x4.size a
  hwx0_1 : ∀ i : grid0.Coords, EltTy.bits .f32 = 32 ∨ (Rect.block (s := S2x64x4) S1x64x4.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x2.size a ≤ S8388608x2.size a
  hwx1_0 : ∀ i : grid1.Coords, EltTy.bits .f32 = 32 ∨ (Rect.block (s := S8388608x2) S8192x2.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x64x1.size a ≤ S2x64x1.size a
  hwx1_1 : ∀ i : grid1.Coords, EltTy.bits .f32 = 32 ∨ (Rect.block (s := S2x64x1) S1x64x1.size (cc1_transform_1 i) (hinb1_1 i)).WholeWords (EltTy.packing .f32)

variable [Facts₀]

def gather_S131072_S8388608x1_S8388608_n_0_n_n_0_1_1 : GatherDims S131072 S8388608x1 S8388608 where
  offsetDims := []
  collapsedSliceDims := [0]
  operandBatchingDims := []
  startIndicesBatchingDims := []
  startIndexMap := [0]
  indexVectorDim := 1
  sliceSizes := ![1]
  wf := gather_S131072_S8388608x1_S8388608_n_0_n_n_0_1_1_wf
def gather_S131072x2_S8388608x1_S8388608x2_1_0_n_n_0_1_12 : GatherDims S131072x2 S8388608x1 S8388608x2 where
  offsetDims := [1]
  collapsedSliceDims := [0]
  operandBatchingDims := []
  startIndicesBatchingDims := []
  startIndexMap := [0]
  indexVectorDim := 1
  sliceSizes := ![1, 2]
  wf := gather_S131072x2_S8388608x1_S8388608x2_1_0_n_n_0_1_12_wf
def dot_S8192x64_S8192x4_S64x4_0_0_1_1_n_n : DotDims S8192x64 S8192x4 S64x4 where
  lhsContracting := [0]
  rhsContracting := [0]
  lhsNonContracting := [1]
  rhsNonContracting := [1]
  lhsBatch := []
  rhsBatch := []
  wf := dot_S8192x64_S8192x4_S64x4_0_0_1_1_n_n_wf
def gather_S64_S8388608x1_S8388608_n_0_n_n_0_1_1 : GatherDims S64 S8388608x1 S8388608 where
  offsetDims := []
  collapsedSliceDims := [0]
  operandBatchingDims := []
  startIndicesBatchingDims := []
  startIndexMap := [0]
  indexVectorDim := 1
  sliceSizes := ![1]
  wf := gather_S64_S8388608x1_S8388608_n_0_n_n_0_1_1_wf
def dot_S8192x64_S8192x1_S64x1_0_0_1_1_n_n : DotDims S8192x64 S8192x1 S64x1 where
  lhsContracting := [0]
  rhsContracting := [0]
  lhsNonContracting := [1]
  rhsNonContracting := [1]
  lhsBatch := []
  rhsBatch := []
  wf := dot_S8192x64_S8192x1_S64x1_0_0_1_1_n_n_wf
def scatter_S64_S131072x1_S131072_n_0_0_1 : ScatterDims S64 S131072x1 S131072 where
  updateWindowDims := []
  insertedWindowDims := [0]
  scatterDimsToOperandDims := [0]
  indexVectorDim := 1
  wf := scatter_S64_S131072x1_S131072_n_0_0_1_wf

abbrev win0_0 : Pipeline.Window sig grid0 :=
  Pipeline.Window.ofSpec (Memref.whole main_v91) S8192x5.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v92) S1x64x4.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v135) S8192x2.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v136) S1x64x1.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S131072x2 : Shape := ⟨2, ![131072, 2]⟩
abbrev S8388608x1 : Shape := ⟨2, ![8388608, 1]⟩
abbrev S2x8388608 : Shape := ⟨2, ![2, 8388608]⟩
abbrev S131072 : Shape := ⟨1, ![131072]⟩
abbrev S1x8388608 : Shape := ⟨2, ![1, 8388608]⟩
abbrev S8388608 : Shape := ⟨1, ![8388608]⟩
abbrev S_ : Shape := ⟨0, ![]⟩
abbrev S8388608x2 : Shape := ⟨2, ![8388608, 2]⟩
abbrev S64 : Shape := ⟨1, ![64]⟩
abbrev S131072x1 : Shape := ⟨2, ![131072, 1]⟩

abbrev nBuf : Space → Nat
  | .hbm => 208
  | .vmem => 0
  | .smem => 0
  | _ => 0

abbrev hbmTy0_0 (i : Nat) : BufTy := match i % 128 with
  | 0 => ⟨S131072x2, .f32⟩
  | 1 => ⟨S131072x2, .f32⟩
  | 2 => ⟨S8388608x1, .f32⟩
  | 3 => ⟨S2x8388608, .i32⟩
  | 4 => ⟨S131072, .i32⟩
  | 5 => ⟨S1x8388608, .i32⟩
  | 6 => ⟨S8388608, .i32⟩
  | 7 => ⟨S1x8388608, .i32⟩
  | 8 => ⟨S8388608, .i32⟩
  | 9 => ⟨S_, .i32⟩
  | 10 => ⟨S8388608, .i32⟩
  | 11 => ⟨S8388608, .i1⟩
  | 12 => ⟨S_, .i32⟩
  | 13 => ⟨S8388608, .i32⟩
  | 14 => ⟨S8388608, .i32⟩
  | 15 => ⟨S8388608, .i32⟩
  | 16 => ⟨S8388608x1, .i32⟩
  | 17 => ⟨S8388608, .i32⟩
  | 18 => ⟨S8388608, .f32⟩
  | 19 => ⟨S_, .i32⟩
  | 20 => ⟨S8388608, .i32⟩
  | 21 => ⟨S8388608, .i1⟩
  | 22 => ⟨S_, .i32⟩
  | 23 => ⟨S8388608, .i32⟩
  | 24 => ⟨S8388608, .i32⟩
  | 25 => ⟨S8388608, .i32⟩
  | 26 => ⟨S8388608x1, .i32⟩
  | 27 => ⟨S8388608x2, .f32⟩
  | 28 => ⟨S_, .i32⟩
  | 29 => ⟨S8388608, .i32⟩
  | 30 => ⟨S8388608, .i1⟩
  | 31 => ⟨S_, .i32⟩
  | 32 => ⟨S8388608, .i32⟩
  | 33 => ⟨S8388608, .i32⟩
  | 34 => ⟨S8388608, .i32⟩
  | 35 => ⟨S8388608x1, .i32⟩
  | 36 => ⟨S8388608x2, .f32⟩
  | 37 => ⟨S8388608x2, .f32⟩
  | 38 => ⟨S8388608x2, .f32⟩
  | 39 => ⟨S_, .f32⟩
  | 40 => ⟨S8388608, .f32⟩
  | 41 => ⟨S8388608, .f32⟩
  | 42 => ⟨S8388608, .f32⟩
  | 43 => ⟨S8388608, .f32⟩
  | 44 => ⟨S_, .f32⟩
  | 45 => ⟨S64, .f32⟩
  | 46 => ⟨S8388608x1, .i32⟩
  | 47 => ⟨S64, .f32⟩
  | 48 => ⟨S_, .f32⟩
  | 49 => ⟨S64, .f32⟩
  | 50 => ⟨S8388608x1, .i32⟩
  | 51 => ⟨S64, .f32⟩
  | 52 => ⟨S64, .f32⟩
  | 53 => ⟨S_, .i32⟩
  | 54 => ⟨S131072, .i32⟩
  | 55 => ⟨S131072, .i1⟩
  | 56 => ⟨S_, .i32⟩
  | 57 => ⟨S131072, .i32⟩
  | 58 => ⟨S131072, .i32⟩
  | 59 => ⟨S131072, .i32⟩
  | 60 => ⟨S131072x1, .i32⟩
  | 61 => ⟨S131072, .f32⟩
  | 62 => ⟨S131072x1, .f32⟩
  | 63 => ⟨S131072x2, .f32⟩
  | 64 => ⟨S131072x2, .f32⟩
  | 65 => ⟨S_, .i32⟩
  | 66 => ⟨S8388608, .i32⟩
  | 67 => ⟨S8388608, .i1⟩
  | 68 => ⟨S_, .i32⟩
  | 69 => ⟨S8388608, .i32⟩
  | 70 => ⟨S8388608, .i32⟩
  | 71 => ⟨S8388608, .i32⟩
  | 72 => ⟨S8388608x1, .i32⟩
  | 73 => ⟨S8388608x2, .f32⟩
  | 74 => ⟨S_, .i32⟩
  | 75 => ⟨S8388608, .i32⟩
  | 76 => ⟨S8388608, .i1⟩
  | 77 => ⟨S_, .i32⟩
  | 78 => ⟨S8388608, .i32⟩
  | 79 => ⟨S8388608, .i32⟩
  | 80 => ⟨S8388608, .i32⟩
  | 81 => ⟨S8388608x1, .i32⟩
  | 82 => ⟨S8388608x2, .f32⟩
  | 83 => ⟨S8388608x2, .f32⟩
  | 84 => ⟨S8388608x2, .f32⟩
  | 85 => ⟨S_, .f32⟩
  | 86 => ⟨S8388608, .f32⟩
  | 87 => ⟨S8388608, .f32⟩
  | 88 => ⟨S8388608, .f32⟩
  | 89 => ⟨S8388608, .f32⟩
  | 90 => ⟨S8388608, .f32⟩
  | 91 => ⟨S8388608, .f32⟩
  | 92 => ⟨S_, .f32⟩
  | 93 => ⟨S64, .f32⟩
  | 94 => ⟨S8388608x1, .i32⟩
  | 95 => ⟨S64, .f32⟩
  | 96 => ⟨S_, .f32⟩
  | 97 => ⟨S131072, .f32⟩
  | 98 => ⟨S_, .f32⟩
  | 99 => ⟨S64, .f32⟩
  | 100 => ⟨S131072x1, .i32⟩
  | 101 => ⟨S64, .f32⟩
  | 102 => ⟨S64, .f32⟩
  | 103 => ⟨S64, .f32⟩
  | 104 => ⟨S_, .i32⟩
  | 105 => ⟨S8388608, .i32⟩
  | 106 => ⟨S8388608, .i1⟩
  | 107 => ⟨S_, .i32⟩
  | 108 => ⟨S8388608, .i32⟩
  | 109 => ⟨S8388608, .i32⟩
  | 110 => ⟨S8388608, .i32⟩
  | 111 => ⟨S8388608x1, .i32⟩
  | 112 => ⟨S8388608x2, .f32⟩
  | 113 => ⟨S_, .i32⟩
  | 114 => ⟨S8388608, .i32⟩
  | 115 => ⟨S8388608, .i1⟩
  | 116 => ⟨S_, .i32⟩
  | 117 => ⟨S8388608, .i32⟩
  | 118 => ⟨S8388608, .i32⟩
  | 119 => ⟨S8388608, .i32⟩
  | 120 => ⟨S8388608x1, .i32⟩
  | 121 => ⟨S8388608x2, .f32⟩
  | 122 => ⟨S_, .i32⟩
  | 123 => ⟨S8388608, .i32⟩
  | 124 => ⟨S8388608, .i1⟩
  | 125 => ⟨S_, .i32⟩
  | 126 => ⟨S8388608, .i32⟩
  | 127 => ⟨S8388608, .i32⟩
  | _ => ⟨S131072x2, .f32⟩

abbrev hbmTy0_1 (i : Nat) : BufTy := match i % 128 with
  | 0 => ⟨S8388608, .i32⟩
  | 1 => ⟨S8388608x1, .i32⟩
  | 2 => ⟨S8388608x2, .f32⟩
  | 3 => ⟨S_, .i32⟩
  | 4 => ⟨S8388608, .i32⟩
  | 5 => ⟨S8388608, .i1⟩
  | 6 => ⟨S_, .i32⟩
  | 7 => ⟨S8388608, .i32⟩
  | 8 => ⟨S8388608, .i32⟩
  | 9 => ⟨S8388608, .i32⟩
  | 10 => ⟨S8388608x1, .i32⟩
  | 11 => ⟨S8388608x2, .f32⟩
  | 12 => ⟨S8388608x1, .f32⟩
  | 13 => ⟨S8388608, .f32⟩
  | 14 => ⟨S8388608x1, .f32⟩
  | 15 => ⟨S8388608, .f32⟩
  | 16 => ⟨S8388608, .f32⟩
  | 17 => ⟨S_, .f32⟩
  | 18 => ⟨S8388608, .f32⟩
  | 19 => ⟨S8388608, .f32⟩
  | 20 => ⟨S8388608x1, .f32⟩
  | 21 => ⟨S8388608, .f32⟩
  | 22 => ⟨S8388608x1, .f32⟩
  | 23 => ⟨S8388608, .f32⟩
  | 24 => ⟨S8388608, .f32⟩
  | 25 => ⟨S8388608, .f32⟩
  | 26 => ⟨S8388608, .f32⟩
  | 27 => ⟨S_, .f32⟩
  | 28 => ⟨S8388608, .f32⟩
  | 29 => ⟨S8388608, .f32⟩
  | 30 => ⟨S8388608x1, .f32⟩
  | 31 => ⟨S8388608, .f32⟩
  | 32 => ⟨S8388608x1, .f32⟩
  | 33 => ⟨S8388608, .f32⟩
  | 34 => ⟨S8388608, .f32⟩
  | 35 => ⟨S_, .f32⟩
  | 36 => ⟨S8388608, .f32⟩
  | 37 => ⟨S8388608, .f32⟩
  | 38 => ⟨S8388608x1, .f32⟩
  | 39 => ⟨S8388608, .f32⟩
  | 40 => ⟨S8388608x1, .f32⟩
  | 41 => ⟨S8388608, .f32⟩
  | 42 => ⟨S8388608, .f32⟩
  | 43 => ⟨S8388608, .f32⟩
  | 44 => ⟨S8388608, .f32⟩
  | 45 => ⟨S_, .f32⟩
  | 46 => ⟨S8388608, .f32⟩
  | 47 => ⟨S8388608, .f32⟩
  | 48 => ⟨S8388608, .f32⟩
  | 49 => ⟨S_, .f32⟩
  | 50 => ⟨S8388608, .f32⟩
  | 51 => ⟨S_, .f32⟩
  | 52 => ⟨S8388608, .f32⟩
  | 53 => ⟨S8388608, .f32⟩
  | 54 => ⟨S8388608, .f32⟩
  | 55 => ⟨S_, .f32⟩
  | 56 => ⟨S8388608, .f32⟩
  | 57 => ⟨S_, .f32⟩
  | 58 => ⟨S64, .f32⟩
  | 59 => ⟨S8388608x1, .i32⟩
  | 60 => ⟨S64, .f32⟩
  | 61 => ⟨S_, .f32⟩
  | 62 => ⟨S64, .f32⟩
  | 63 => ⟨S8388608x1, .i32⟩
  | 64 => ⟨S64, .f32⟩
  | 65 => ⟨S_, .f32⟩
  | 66 => ⟨S64, .f32⟩
  | 67 => ⟨S64, .f32⟩
  | 68 => ⟨S64, .f32⟩
  | 69 => ⟨S_, .f32⟩
  | 70 => ⟨S64, .f32⟩
  | 71 => ⟨S64, .f32⟩
  | 72 => ⟨S_, .f32⟩
  | 73 => ⟨S64, .f32⟩
  | 74 => ⟨S64, .f32⟩
  | 75 => ⟨S64, .f32⟩
  | 76 => ⟨S_, .f32⟩
  | 77 => ⟨S_, .f32⟩
  | 78 => ⟨S_, .f32⟩
  | 79 => ⟨S_, .f32⟩
  | _ => ⟨S131072x2, .f32⟩

abbrev hbmTy (i : Nat) : BufTy := match i / 128 with
  | 0 => hbmTy0_0 i
  | 1 => hbmTy0_1 i
  | _ => ⟨S131072x2, .f32⟩

abbrev bufTy : (tb : Table) → Fin (tcTables nBuf tb) → BufTy
  | .hbm, ⟨i, _⟩ => hbmTy i
  | _, _ => ⟨S131072x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_1 : Ref sig .tc := ⟨.hbm, 19, rfl⟩
abbrev main_v12 : Ref sig .tc := ⟨.hbm, 20, rfl⟩
abbrev main_v13 : Ref sig .tc := ⟨.hbm, 21, rfl⟩
abbrev main_c_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_3 : Ref sig .tc := ⟨.hbm, 28, rfl⟩
abbrev main_v19 : Ref sig .tc := ⟨.hbm, 29, rfl⟩
abbrev main_v20 : Ref sig .tc := ⟨.hbm, 30, rfl⟩
abbrev main_c_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_6 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_c_7 : Ref sig .tc := ⟨.hbm, 53, rfl⟩
abbrev main_v39 : Ref sig .tc := ⟨.hbm, 54, rfl⟩
abbrev main_v40 : Ref sig .tc := ⟨.hbm, 55, rfl⟩
abbrev main_c_8 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_c_9 : Ref sig .tc := ⟨.hbm, 65, rfl⟩
abbrev main_v49 : Ref sig .tc := ⟨.hbm, 66, rfl⟩
abbrev main_v50 : Ref sig .tc := ⟨.hbm, 67, rfl⟩
abbrev main_c_10 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_c_11 : Ref sig .tc := ⟨.hbm, 74, rfl⟩
abbrev main_v56 : Ref sig .tc := ⟨.hbm, 75, rfl⟩
abbrev main_v57 : Ref sig .tc := ⟨.hbm, 76, rfl⟩
abbrev main_c_12 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_cst_13 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_cst_14 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_cst_15 : Ref sig .tc := ⟨.hbm, 96, rfl⟩
abbrev main_v74 : Ref sig .tc := ⟨.hbm, 97, rfl⟩
abbrev main_cst_16 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_c_17 : Ref sig .tc := ⟨.hbm, 104, rfl⟩
abbrev main_v80 : Ref sig .tc := ⟨.hbm, 105, rfl⟩
abbrev main_v81 : Ref sig .tc := ⟨.hbm, 106, rfl⟩
abbrev main_c_18 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_c_19 : Ref sig .tc := ⟨.hbm, 113, rfl⟩
abbrev main_v87 : Ref sig .tc := ⟨.hbm, 114, rfl⟩
abbrev main_v88 : Ref sig .tc := ⟨.hbm, 115, rfl⟩
abbrev main_c_20 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_c_21 : Ref sig .tc := ⟨.hbm, 122, rfl⟩
abbrev main_v94 : Ref sig .tc := ⟨.hbm, 123, rfl⟩
abbrev main_v95 : Ref sig .tc := ⟨.hbm, 124, rfl⟩
abbrev main_c_22 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_c_23 : Ref sig .tc := ⟨.hbm, 131, rfl⟩
abbrev main_v101 : Ref sig .tc := ⟨.hbm, 132, rfl⟩
abbrev main_v102 : Ref sig .tc := ⟨.hbm, 133, rfl⟩
abbrev main_c_24 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_cst_25 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_cst_26 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_cst_27 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_cst_28 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_cst_29 : Ref sig .tc := ⟨.hbm, 177, rfl⟩
abbrev main_v141 : Ref sig .tc := ⟨.hbm, 178, rfl⟩
abbrev main_cst_30 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_cst_31 : Ref sig .tc := ⟨.hbm, 183, rfl⟩
abbrev main_v145 : Ref sig .tc := ⟨.hbm, 184, rfl⟩
abbrev main_cst_32 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_cst_33 : Ref sig .tc := ⟨.hbm, 189, rfl⟩
abbrev main_v149 : Ref sig .tc := ⟨.hbm, 190, rfl⟩
abbrev main_v150 : Ref sig .tc := ⟨.hbm, 191, rfl⟩
abbrev main_v151 : Ref sig .tc := ⟨.hbm, 192, rfl⟩
abbrev main_cst_34 : Ref sig .tc := ⟨.hbm, 193, rfl⟩
abbrev main_v152 : Ref sig .tc := ⟨.hbm, 194, rfl⟩
abbrev main_v153 : Ref sig .tc := ⟨.hbm, 195, rfl⟩
abbrev main_v154 : Ref sig .tc := ⟨.hbm, 196, rfl⟩
abbrev main_cst_35 : Ref sig .tc := ⟨.hbm, 197, rfl⟩
abbrev main_v155 : Ref sig .tc := ⟨.hbm, 198, rfl⟩
abbrev main_v156 : Ref sig .tc := ⟨.hbm, 199, rfl⟩
abbrev main_cst_36 : Ref sig .tc := ⟨.hbm, 200, rfl⟩
abbrev main_v157 : Ref sig .tc := ⟨.hbm, 201, rfl⟩
abbrev main_v158 : Ref sig .tc := ⟨.hbm, 202, rfl⟩
abbrev main_v159 : Ref sig .tc := ⟨.hbm, 203, rfl⟩
abbrev main_cst_37 : Ref sig .tc := ⟨.hbm, 204, rfl⟩
abbrev main_v160 : Ref sig .tc := ⟨.hbm, 205, rfl⟩
abbrev main_cst_38 : Ref sig .tc := ⟨.hbm, 206, rfl⟩
abbrev main_v161 : Ref sig .tc := ⟨.hbm, 207, rfl⟩

abbrev nD : Nat := 1
abbrev τ : Topo := Topo.v7x

variable {F : FTy → Type} [FloatOps F]

class Facts₀ : Prop where
  slices_S2x8388608_S1x8388608_0_0 : S2x8388608.Slices ![0, 0] S1x8388608
  shapeCasts_S1x8388608_S8388608 : S1x8388608.ShapeCasts S8388608
  slices_S2x8388608_S1x8388608_1_0 : S2x8388608.Slices ![1, 0] S1x8388608
  bcast_S_S8388608 : S_.BroadcastsInDim S8388608 (![] : Fin 0 → Fin S8388608.rank)
  bcast_S8388608_S8388608x1_0 : S8388608.BroadcastsInDim S8388608x1 (![0] : Fin 1 → Fin S8388608x1.rank)
  shapeCasts_S8388608x1_S8388608 : S8388608x1.ShapeCasts S8388608
  reducesTo_S8388608x2_S8388608_d1 : S8388608x2.ReducesTo [1] S8388608
  h_S_ : 0 < S_.numel
  bcast_S_S64 : S_.BroadcastsInDim S64 (![] : Fin 0 → Fin S64.rank)
  bcast_S_S131072 : S_.BroadcastsInDim S131072 (![] : Fin 0 → Fin S131072.rank)
  bcast_S131072_S131072x1_0 : S131072.BroadcastsInDim S131072x1 (![0] : Fin 1 → Fin S131072x1.rank)
  bcast_S131072x1_S131072x2_0_1 : S131072x1.BroadcastsInDim S131072x2 (![0, 1] : Fin 2 → Fin S131072x2.rank)
  slices_S8388608x2_S8388608x1_0_0 : S8388608x2.Slices ![0, 0] S8388608x1
  slices_S8388608x2_S8388608x1_0_1 : S8388608x2.Slices ![0, 1] S8388608x1
  reducesTo_S64_S_d0 : S64.ReducesTo [0] S_
  gather_S131072_S8388608x1_S8388608_n_0_n_n_0_1_1_wf : GatherDims.WF S131072 S8388608x1 S8388608 [] [0] [] [0] [] 1 ![1]
  gather_S131072x2_S8388608x1_S8388608x2_1_0_n_n_0_1_12_wf : GatherDims.WF S131072x2 S8388608x1 S8388608x2 [1] [0] [] [0] [] 1 ![1, 2]
  scatter_S64_S8388608x1_S8388608_n_0_0_1_wf : ScatterDims.WF S64 S8388608x1 S8388608 [] [0] [0] 1
  gather_S64_S131072x1_S131072_n_0_n_n_0_1_1_wf : GatherDims.WF S64 S131072x1 S131072 [] [0] [] [0] [] 1 ![1]
  scatter_S64_S131072x1_S131072_n_0_0_1_wf : ScatterDims.WF S64 S131072x1 S131072 [] [0] [0] 1

variable [Facts₀]

def gather_S131072_S8388608x1_S8388608_n_0_n_n_0_1_1 : GatherDims S131072 S8388608x1 S8388608 where
  offsetDims := []
  collapsedSliceDims := [0]
  operandBatchingDims := []
  startIndicesBatchingDims := []
  startIndexMap := [0]
  indexVectorDim := 1
  sliceSizes := ![1]
  wf := gather_S131072_S8388608x1_S8388608_n_0_n_n_0_1_1_wf
def gather_S131072x2_S8388608x1_S8388608x2_1_0_n_n_0_1_12 : GatherDims S131072x2 S8388608x1 S8388608x2 where
  offsetDims := [1]
  collapsedSliceDims := [0]
  operandBatchingDims := []
  startIndicesBatchingDims := []
  startIndexMap := [0]
  indexVectorDim := 1
  sliceSizes := ![1, 2]
  wf := gather_S131072x2_S8388608x1_S8388608x2_1_0_n_n_0_1_12_wf
def scatter_S64_S8388608x1_S8388608_n_0_0_1 : ScatterDims S64 S8388608x1 S8388608 where
  updateWindowDims := []
  insertedWindowDims := [0]
  scatterDimsToOperandDims := [0]
  indexVectorDim := 1
  wf := scatter_S64_S8388608x1_S8388608_n_0_0_1_wf
def gather_S64_S131072x1_S131072_n_0_n_n_0_1_1 : GatherDims S64 S131072x1 S131072 where
  offsetDims := []
  collapsedSliceDims := [0]
  operandBatchingDims := []
  startIndicesBatchingDims := []
  startIndexMap := [0]
  indexVectorDim := 1
  sliceSizes := ![1]
  wf := gather_S64_S131072x1_S131072_n_0_n_n_0_1_1_wf
def scatter_S64_S131072x1_S131072_n_0_0_1 : ScatterDims S64 S131072x1 S131072 where
  updateWindowDims := []
  insertedWindowDims := [0]
  scatterDimsToOperandDims := [0]
  indexVectorDim := 1
  wf := scatter_S64_S131072x1_S131072_n_0_0_1_wf

class Facts : Prop extends Facts₀ where

variable [Facts]
-- ==== Proof.Claims.lean ====
/-
  The two conjuncts of the certificate that need no run of the kernel.

  `frame_ReferenceIdeal`: the reference is a straight line of host operations; its generated run says every weakly fair
  execution ends with the arguments unchanged, and the frame keeps that half of the run's post.

  `preserves_Kernel_KernelIdeal`: the idealized kernel differs from the kernel as printed in one rewrite, made once in
  each of the two scatter-sum kernels: the value columns rounded to bf16 and widened back to f32 are read as the columns
  themselves.  Each conjunct is that rule's statement at the block's shape.
-/
import proofs.«159445_j35751307771970_2_alg».proof.Defs
import proofs.«159445_j35751307771970_2_alg».proof.Proof.Gen.ReferenceIdeal.Run
import proofs.«159445_j35751307771970_2_alg».proof.Proof.Gen.Pre_finite_inputs

noncomputable section

namespace Cert.Proof.Claims

open Idealize.ShloMosaic Idealize.SL.Sem

theorem frame_ri [hReferenceIdeal : Cert.ReferenceIdeal.Facts] [hPre : Cert.Pre_finite_inputs.Facts] : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal :=
  ⟨IdealRules.truncf_extf.statement _ .f32 .bf16, IdealRules.truncf_extf.statement _ .f32 .bf16⟩

end Cert.Proof.Claims

end
-- ==== Proof.KernelFr.Base.lean ====
/-
  The two scatter-sum regions of the program: what their frame proofs share.  Each region's grid is 2 cores by 512 blocks; the
  body resets its output block where the block coordinate is 0 and accumulates into it at every point.
-/
import proofs.«159445_j35751307771970_2_alg».proof.Proof.Gen.Kernel.Launch
import proofs.«159445_j35751307771970_2_alg».proof.Proof.Gen.Kernel.Skeleton
import proofs.«159445_j35751307771970_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Region 0 -/

/-- The body of region 0 resets its output: the block coordinate of the point is 0. -/
abbrev cond0 (i : grid0.Coords) : Prop := (Scalar.cmpi .ne (Scalar.extui (Scalar.cmpi .eq (BitVec.ofNat 32 (i 1).val) 0#32)) 0#32) = 1#1

/-- That is the first of each core's 512 points. -/
theorem hcond0 : ∀ t : Fin cfg0.N, cond0 (grid0.coords t) ↔ t.val % 512 = 0 :=
  (by decide +kernel : ∀ t : Fin grid0.N, cond0 (grid0.coords t) ↔ t.val % 512 = 0)

/-- One staging buffer of the output window, through which its contents are stated. -/
abbrev VO0 : View sig .tc .vmem S1x64x4 .f32 := (Memref.whole cc0_stg1_0 : Memref sig .tc .vmem S1x64x4 .f32).view

/-- The windows' current staging memrefs at a point, and their wholeness. -/
abbrev ms0_0 (t : Fin cfg0.N) : Memref sig .tc .vmem S8192x5 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x64x4 .f32 := win0_1.stage (cfg0.slots t 1)
abbrev hs0_1 (t : Fin cfg0.N) : (ms0_1 t).IsWhole := hstage0_1 ((cfg0.slots t 1).cast nbuf0_1)

/-! ## Region 1 -/

/-- The body of region 1 resets its output: the block coordinate of the point is 0. -/
abbrev cond1 (i : grid1.Coords) : Prop := (Scalar.cmpi .ne (Scalar.extui (Scalar.cmpi .eq (BitVec.ofNat 32 (i 1).val) 0#32)) 0#32) = 1#1

/-- That is the first of each core's 512 points. -/
theorem hcond1 : ∀ t : Fin cfg1.N, cond1 (grid1.coords t) ↔ t.val % 512 = 0 :=
  (by decide +kernel : ∀ t : Fin grid1.N, cond1 (grid1.coords t) ↔ t.val % 512 = 0)

/-- One staging buffer of the output window, through which its contents are stated. -/
abbrev VO1 : View sig .tc .vmem S1x64x1 .f32 := (Memref.whole cc1_stg1_0 : Memref sig .tc .vmem S1x64x1 .f32).view

/-- The windows' current staging memrefs at a point, and their wholeness. -/
abbrev ms1_0 (t : Fin cfg1.N) : Memref sig .tc .vmem S8192x2 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x64x1 .f32 := win1_1.stage (cfg1.slots t 1)
abbrev hs1_1 (t : Fin cfg1.N) : (ms1_1 t).IsWhole := hstage1_1 ((cfg1.slots t 1).cast nbuf1_1)

end Cert.Kernel.Fr

end
-- ==== Proof.KernelFr.Run0A.lean ====
/-
  Region 0's body run where the output block is reset first (block coordinate 0): on whole staging
  memrefs, the input's at its block, the body runs to the end holding the input as it was
  and the output with the body's stores written.
-/
import proofs.«159445_j35751307771970_2_alg».proof.Proof.KernelFr.Base

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_A (c : Dev nD) (i : grid0.Coords) (arg2 : Memref sig .tc .vmem S8192x5 .f32) (harg2 : arg2.IsWhole) (arg3 : Memref sig .tc .vmem S1x64x4 .f32) (harg3 : arg3.IsWhole) (hc0 : cond0 i)
    (x0 : Vec F S8192x5 .f32) :
    { L1 : List (View.Piece (Elt F) S1x64x4 .f32) //
      ∀ (E : Set ℕ) (K : PUnit → sProp 𝕄),
        iprop(owns (c : Thread nD τ) arg2 fullShare x0 ∗ (∃ d, owns (c : Thread nD τ) arg3 fullShare d)
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc0__scatter_sum_kernel i arg2 harg2 arg3 harg3) K } := by
  refine ⟨?_, fun E K => ?run⟩
  case run =>
    simp only [cc0__scatter_sum_kernel_eq_skeleton]; unfold cc0__scatter_sum_kernel_skel
    unfold owns
    iintro ⟨⟨%f0, %hf0, H0⟩, ⟨%d1, %f1, -, H1⟩, Hk⟩
    obtain rfl := harg2.eq_unread hf0
    sl_exec (disch := first | exact hc0)
    sl_step
    iapply Hk
    isplitl [H0]
    · iexists _; isplitr; · ipureintro; exact harg2.read_unread _
      iexact H0
    iexists _; iexact H1

end Cert.Kernel.Fr

end
-- ==== Proof.KernelFr.Run0B.lean ====
/-
  Region 0's body run where the output block is carried from the point before (block coordinate not 0): on whole staging
  memrefs, the input's at its block and the output's at what the point before left, the body runs to the end holding the input as it was
  and the output with the body's stores written.
-/
import proofs.«159445_j35751307771970_2_alg».proof.Proof.KernelFr.Base

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_B (c : Dev nD) (i : grid0.Coords) (arg2 : Memref sig .tc .vmem S8192x5 .f32) (harg2 : arg2.IsWhole) (arg3 : Memref sig .tc .vmem S1x64x4 .f32) (harg3 : arg3.IsWhole) (hc0 : ¬cond0 i)
    (x0 : Vec F S8192x5 .f32) (xo1 : Vec F S1x64x4 .f32) :
    { L1 : List (View.Piece (Elt F) S1x64x4 .f32) //
      ∀ (E : Set ℕ) (K : PUnit → sProp 𝕄),
        iprop(owns (c : Thread nD τ) arg2 fullShare x0 ∗ owns (c : Thread nD τ) arg3 fullShare xo1
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc0__scatter_sum_kernel i arg2 harg2 arg3 harg3) K } := by
  refine ⟨?_, fun E K => ?run⟩
  case run =>
    simp only [cc0__scatter_sum_kernel_eq_skeleton]; unfold cc0__scatter_sum_kernel_skel
    unfold owns
    iintro ⟨⟨%f0, %hf0, H0⟩, ⟨%f1, %hf1, H1⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    iexists _; iexact H1

end Cert.Kernel.Fr

end
-- ==== Proof.KernelFr.Half0.lean ====
/-
  Region 0 at the buffer contents `V` it is entered with: what its output block holds after each point — reset and first
  block at a core's first point, the running block plus the point's contribution afterwards —, the proof data, and the body
  obligation at every point.
-/
import proofs.«159445_j35751307771970_2_alg».proof.Proof.KernelFr.Run0A
import proofs.«159445_j35751307771970_2_alg».proof.Proof.KernelFr.Run0B

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The stores of a resetting point tile the output block. -/
theorem cover0_A (c : Dev nD) (i : grid0.Coords) (arg2 : Memref sig .tc .vmem S8192x5 .f32) (harg2 : arg2.IsWhole) (arg3 : Memref sig .tc .vmem S1x64x4 .f32) (harg3 : arg3.IsWhole) (hc0 : cond0 i)
    (x0 : Vec F S8192x5 .f32) (y : S1x64x4.Idx) :
    ∃ pc ∈ (kernelRun0_A c i arg2 harg2 arg3 harg3 hc0 x0).1, y ∈ pc.1.set :=
  View.cover_of_tiledL (kernelRun0_A c i arg2 harg2 arg3 harg3 hc0 x0).1 S1x64x4.size (by sl_kernel_rfl) y

/-- What a resetting point leaves in the output's staging buffer. -/
def out0_A (c : Dev nD) (i : grid0.Coords) (arg2 : Memref sig .tc .vmem S8192x5 .f32) (harg2 : arg2.IsWhole) (arg3 : Memref sig .tc .vmem S1x64x4 .f32) (harg3 : arg3.IsWhole) (hc0 : cond0 i)
    (x0 : Vec F S8192x5 .f32) : Vec F S1x64x4 .f32 :=
  VO0.read (Elt F) (VO0.writes (Elt F) VO0.junk (kernelRun0_A c i arg2 harg2 arg3 harg3 hc0 x0).1)

/-- The store of an accumulating point tiles the output block. -/
theorem cover0_B (c : Dev nD) (i : grid0.Coords) (arg2 : Memref sig .tc .vmem S8192x5 .f32) (harg2 : arg2.IsWhole) (arg3 : Memref sig .tc .vmem S1x64x4 .f32) (harg3 : arg3.IsWhole) (hc0 : ¬cond0 i)
    (x0 : Vec F S8192x5 .f32) (xo1 : Vec F S1x64x4 .f32) (y : S1x64x4.Idx) :
    ∃ pc ∈ (kernelRun0_B c i arg2 harg2 arg3 harg3 hc0 x0 xo1).1, y ∈ pc.1.set :=
  View.cover_of_tiledL (kernelRun0_B c i arg2 harg2 arg3 harg3 hc0 x0 xo1).1 S1x64x4.size (by sl_kernel_rfl) y

/-- What an accumulating point leaves in the output's staging buffer, from what the point before left. -/
def out0_B (c : Dev nD) (i : grid0.Coords) (arg2 : Memref sig .tc .vmem S8192x5 .f32) (harg2 : arg2.IsWhole) (arg3 : Memref sig .tc .vmem S1x64x4 .f32) (harg3 : arg3.IsWhole) (hc0 : ¬cond0 i)
    (x0 : Vec F S8192x5 .f32) (xo1 : Vec F S1x64x4 .f32) : Vec F S1x64x4 .f32 :=
  VO0.read (Elt F) (VO0.writes (Elt F) VO0.junk (kernelRun0_B c i arg2 harg2 arg3 harg3 hc0 x0 xo1).1)

/-- The accumulation: what the output's staging buffer holds after the body at position `n`. -/
def outsAt0 (c : Dev nD) : (n : ℕ) → n < cfg0.N → Vec F S1x64x4 .f32
  | 0, hn => out0_A c (grid0.coords ⟨0, hn⟩) (ms0_0 ⟨0, hn⟩) (hs0_0 ⟨0, hn⟩) (ms0_1 ⟨0, hn⟩) (hs0_1 ⟨0, hn⟩) ((hcond0 ⟨0, hn⟩).mpr (Nat.zero_mod _)) (iblk0 V c 0 ⟨0, hn⟩)
  | n + 1, hn =>
    if h0 : (n + 1) % 512 = 0 then
      out0_A c (grid0.coords ⟨n + 1, hn⟩) (ms0_0 ⟨n + 1, hn⟩) (hs0_0 ⟨n + 1, hn⟩) (ms0_1 ⟨n + 1, hn⟩) (hs0_1 ⟨n + 1, hn⟩) ((hcond0 ⟨n + 1, hn⟩).mpr h0) (iblk0 V c 0 ⟨n + 1, hn⟩)
    else
      out0_B c (grid0.coords ⟨n + 1, hn⟩) (ms0_0 ⟨n + 1, hn⟩) (hs0_0 ⟨n + 1, hn⟩) (ms0_1 ⟨n + 1, hn⟩) (hs0_1 ⟨n + 1, hn⟩) (fun h => h0 ((hcond0 ⟨n + 1, hn⟩).mp h)) (iblk0 V c 0 ⟨n + 1, hn⟩) (outsAt0 c n (Nat.lt_of_succ_lt hn))

theorem outsAt0_A (c : Dev nD) (t : Fin cfg0.N) (h0 : t.val % 512 = 0) :
    outsAt0 V c t.val t.isLt = out0_A c (grid0.coords t) (ms0_0 t) (hs0_0 t) (ms0_1 t) (hs0_1 t) ((hcond0 t).mpr h0) (iblk0 V c 0 t) := by
  obtain ⟨n, hn⟩ := t
  cases n with
  | zero => exact rfl
  | succ n => exact (dif_pos h0).trans rfl

theorem outsAt0_B (c : Dev nD) (t : Fin cfg0.N) (h0 : ¬t.val % 512 = 0) :
    outsAt0 V c t.val t.isLt = out0_B c (grid0.coords t) (ms0_0 t) (hs0_0 t) (ms0_1 t) (hs0_1 t) (fun h => h0 ((hcond0 t).mp h)) (iblk0 V c 0 t) (outsAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The proof data of region 0 on core `c`: its arrays as the region finds them, the input's buffer at its block after every
    point, the output's at the accumulation; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt) := by dsimp only [dat0]

theorem before0_0 (c : Dev nD) (t : Fin cfg0.N) (d) : (dat0 V c).before 0 t d = iblk0 V c 0 t :=
  before0_0_of V (dat0 V c) (A_eq0 V c 0) (after0_0 V c) t d

/-- At an accumulating point the output's staging buffer holds what the body left at the point before: it is not written back
    between two points of one core. -/
theorem before0_1_B (c : Dev nD) (t : Fin cfg0.N) (h0 : ¬t.val % 512 = 0) (d) :
    (dat0 V c).before 1 t d = (outsAt0 V c (t.val - 1) (Nat.lt_of_le_of_lt (Nat.sub_le _ _) t.isLt)) := by
  have hN : t.val < 1024 := lt_of_lt_of_eq t.isLt (show cfg0.N = 1024 from N_0)
  rw [Dat.before_out_kept _ 1 rfl t (by omega) (Bool.eq_false_iff.mpr fun h => by have := (flush0_1 _).mp h; dsimp only at this; omega)
    (fun _ => rfl) (fun _ _ => rfl)]
  dsimp only [dat0]

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t))

set_option maxHeartbeats 800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  have hN : t.val < 1024 := lt_of_lt_of_eq t.isLt (show cfg0.N = 1024 from N_0)
  by_cases h0 : t.val % 512 = 0
  · rw [outsAt0_A V c t h0]
    unfold out0_A
    iintro ⟨HΦ, Ho, ⟨%d0, H0⟩, ⟨%d1, H1⟩⟩
    iapply ((kernelRun0_A c (grid0.coords t) _ _ _ _ ((hcond0 t).mpr h0) (iblk0 V c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover0_A c _ _ _ _ _ _ _)
  · rw [outsAt0_B V c t h0]
    simp only [before0_1_B V c t h0]
    unfold out0_B
    iintro ⟨HΦ, Ho, ⟨%d0, H0⟩, ⟨%d1, H1⟩⟩
    iapply ((kernelRun0_B c (grid0.coords t) _ _ _ _ (fun h => h0 ((hcond0 t).mp h)) (iblk0 V c 0 t) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover0_B c _ _ _ _ _ _ _ _)

theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.KernelFr.Run1A.lean ====
/-
  Region 1's body run where the output block is reset first (block coordinate 0): on whole staging
  memrefs, the input's at its block, the body runs to the end holding the input as it was
  and the output with the body's stores written.
-/
import proofs.«159445_j35751307771970_2_alg».proof.Proof.KernelFr.Base

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_A (c : Dev nD) (i : grid1.Coords) (arg2 : Memref sig .tc .vmem S8192x2 .f32) (harg2 : arg2.IsWhole) (arg3 : Memref sig .tc .vmem S1x64x1 .f32) (harg3 : arg3.IsWhole) (hc0 : cond1 i)
    (x0 : Vec F S8192x2 .f32) :
    { L1 : List (View.Piece (Elt F) S1x64x1 .f32) //
      ∀ (E : Set ℕ) (K : PUnit → sProp 𝕄),
        iprop(owns (c : Thread nD τ) arg2 fullShare x0 ∗ (∃ d, owns (c : Thread nD τ) arg3 fullShare d)
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc1__scatter_sum_kernel i arg2 harg2 arg3 harg3) K } := by
  refine ⟨?_, fun E K => ?run⟩
  case run =>
    simp only [cc1__scatter_sum_kernel_eq_skeleton]; unfold cc1__scatter_sum_kernel_skel
    unfold owns
    iintro ⟨⟨%f0, %hf0, H0⟩, ⟨%d1, %f1, -, H1⟩, Hk⟩
    obtain rfl := harg2.eq_unread hf0
    sl_exec (disch := first | exact hc0)
    sl_step
    iapply Hk
    isplitl [H0]
    · iexists _; isplitr; · ipureintro; exact harg2.read_unread _
      iexact H0
    iexists _; iexact H1

end Cert.Kernel.Fr

end
-- ==== Proof.KernelFr.Run1B.lean ====
/-
  Region 1's body run where the output block is carried from the point before (block coordinate not 0): on whole staging
  memrefs, the input's at its block and the output's at what the point before left, the body runs to the end holding the input as it was
  and the output with the body's stores written.
-/
import proofs.«159445_j35751307771970_2_alg».proof.Proof.KernelFr.Base

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_B (c : Dev nD) (i : grid1.Coords) (arg2 : Memref sig .tc .vmem S8192x2 .f32) (harg2 : arg2.IsWhole) (arg3 : Memref sig .tc .vmem S1x64x1 .f32) (harg3 : arg3.IsWhole) (hc0 : ¬cond1 i)
    (x0 : Vec F S8192x2 .f32) (xo1 : Vec F S1x64x1 .f32) :
    { L1 : List (View.Piece (Elt F) S1x64x1 .f32) //
      ∀ (E : Set ℕ) (K : PUnit → sProp 𝕄),
        iprop(owns (c : Thread nD τ) arg2 fullShare x0 ∗ owns (c : Thread nD τ) arg3 fullShare xo1
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc1__scatter_sum_kernel i arg2 harg2 arg3 harg3) K } := by
  refine ⟨?_, fun E K => ?run⟩
  case run =>
    simp only [cc1__scatter_sum_kernel_eq_skeleton]; unfold cc1__scatter_sum_kernel_skel
    unfold owns
    iintro ⟨⟨%f0, %hf0, H0⟩, ⟨%f1, %hf1, H1⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    iexists _; iexact H1

end Cert.Kernel.Fr

end
-- ==== Proof.KernelFr.Half1.lean ====
/-
  Region 1 at the buffer contents `V` it is entered with: what its output block holds after each point — reset and first
  block at a core's first point, the running block plus the point's contribution afterwards —, the proof data, and the body
  obligation at every point.
-/
import proofs.«159445_j35751307771970_2_alg».proof.Proof.KernelFr.Run1A
import proofs.«159445_j35751307771970_2_alg».proof.Proof.KernelFr.Run1B

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The stores of a resetting point tile the output block. -/
theorem cover1_A (c : Dev nD) (i : grid1.Coords) (arg2 : Memref sig .tc .vmem S8192x2 .f32) (harg2 : arg2.IsWhole) (arg3 : Memref sig .tc .vmem S1x64x1 .f32) (harg3 : arg3.IsWhole) (hc0 : cond1 i)
    (x0 : Vec F S8192x2 .f32) (y : S1x64x1.Idx) :
    ∃ pc ∈ (kernelRun1_A c i arg2 harg2 arg3 harg3 hc0 x0).1, y ∈ pc.1.set :=
  View.cover_of_tiledL (kernelRun1_A c i arg2 harg2 arg3 harg3 hc0 x0).1 S1x64x1.size (by sl_kernel_rfl) y

/-- What a resetting point leaves in the output's staging buffer. -/
def out1_A (c : Dev nD) (i : grid1.Coords) (arg2 : Memref sig .tc .vmem S8192x2 .f32) (harg2 : arg2.IsWhole) (arg3 : Memref sig .tc .vmem S1x64x1 .f32) (harg3 : arg3.IsWhole) (hc0 : cond1 i)
    (x0 : Vec F S8192x2 .f32) : Vec F S1x64x1 .f32 :=
  VO1.read (Elt F) (VO1.writes (Elt F) VO1.junk (kernelRun1_A c i arg2 harg2 arg3 harg3 hc0 x0).1)

/-- The store of an accumulating point tiles the output block. -/
theorem cover1_B (c : Dev nD) (i : grid1.Coords) (arg2 : Memref sig .tc .vmem S8192x2 .f32) (harg2 : arg2.IsWhole) (arg3 : Memref sig .tc .vmem S1x64x1 .f32) (harg3 : arg3.IsWhole) (hc0 : ¬cond1 i)
    (x0 : Vec F S8192x2 .f32) (xo1 : Vec F S1x64x1 .f32) (y : S1x64x1.Idx) :
    ∃ pc ∈ (kernelRun1_B c i arg2 harg2 arg3 harg3 hc0 x0 xo1).1, y ∈ pc.1.set :=
  View.cover_of_tiledL (kernelRun1_B c i arg2 harg2 arg3 harg3 hc0 x0 xo1).1 S1x64x1.size (by sl_kernel_rfl) y

/-- What an accumulating point leaves in the output's staging buffer, from what the point before left. -/
def out1_B (c : Dev nD) (i : grid1.Coords) (arg2 : Memref sig .tc .vmem S8192x2 .f32) (harg2 : arg2.IsWhole) (arg3 : Memref sig .tc .vmem S1x64x1 .f32) (harg3 : arg3.IsWhole) (hc0 : ¬cond1 i)
    (x0 : Vec F S8192x2 .f32) (xo1 : Vec F S1x64x1 .f32) : Vec F S1x64x1 .f32 :=
  VO1.read (Elt F) (VO1.writes (Elt F) VO1.junk (kernelRun1_B c i arg2 harg2 arg3 harg3 hc0 x0 xo1).1)

/-- The accumulation: what the output's staging buffer holds after the body at position `n`. -/
def outsAt1 (c : Dev nD) : (n : ℕ) → n < cfg1.N → Vec F S1x64x1 .f32
  | 0, hn => out1_A c (grid1.coords ⟨0, hn⟩) (ms1_0 ⟨0, hn⟩) (hs1_0 ⟨0, hn⟩) (ms1_1 ⟨0, hn⟩) (hs1_1 ⟨0, hn⟩) ((hcond1 ⟨0, hn⟩).mpr (Nat.zero_mod _)) (iblk1 V c 0 ⟨0, hn⟩)
  | n + 1, hn =>
    if h0 : (n + 1) % 512 = 0 then
      out1_A c (grid1.coords ⟨n + 1, hn⟩) (ms1_0 ⟨n + 1, hn⟩) (hs1_0 ⟨n + 1, hn⟩) (ms1_1 ⟨n + 1, hn⟩) (hs1_1 ⟨n + 1, hn⟩) ((hcond1 ⟨n + 1, hn⟩).mpr h0) (iblk1 V c 0 ⟨n + 1, hn⟩)
    else
      out1_B c (grid1.coords ⟨n + 1, hn⟩) (ms1_0 ⟨n + 1, hn⟩) (hs1_0 ⟨n + 1, hn⟩) (ms1_1 ⟨n + 1, hn⟩) (hs1_1 ⟨n + 1, hn⟩) (fun h => h0 ((hcond1 ⟨n + 1, hn⟩).mp h)) (iblk1 V c 0 ⟨n + 1, hn⟩) (outsAt1 c n (Nat.lt_of_succ_lt hn))

theorem outsAt1_A (c : Dev nD) (t : Fin cfg1.N) (h0 : t.val % 512 = 0) :
    outsAt1 V c t.val t.isLt = out1_A c (grid1.coords t) (ms1_0 t) (hs1_0 t) (ms1_1 t) (hs1_1 t) ((hcond1 t).mpr h0) (iblk1 V c 0 t) := by
  obtain ⟨n, hn⟩ := t
  cases n with
  | zero => exact rfl
  | succ n => exact (dif_pos h0).trans rfl

theorem outsAt1_B (c : Dev nD) (t : Fin cfg1.N) (h0 : ¬t.val % 512 = 0) :
    outsAt1 V c t.val t.isLt = out1_B c (grid1.coords t) (ms1_0 t) (hs1_0 t) (ms1_1 t) (hs1_1 t) (fun h => h0 ((hcond1 t).mp h)) (iblk1 V c 0 t) (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The proof data of region 1 on core `c`: its arrays as the region finds them, the input's buffer at its block after every
    point, the output's at the accumulation; nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => (outsAt1 V c t.val t.isLt)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = (outsAt1 V c t.val t.isLt) := by dsimp only [dat1]

theorem before1_0 (c : Dev nD) (t : Fin cfg1.N) (d) : (dat1 V c).before 0 t d = iblk1 V c 0 t :=
  before1_0_of V (dat1 V c) (A_eq1 V c 0) (after1_0 V c) t d

/-- At an accumulating point the output's staging buffer holds what the body left at the point before: it is not written back
    between two points of one core. -/
theorem before1_1_B (c : Dev nD) (t : Fin cfg1.N) (h0 : ¬t.val % 512 = 0) (d) :
    (dat1 V c).before 1 t d = (outsAt1 V c (t.val - 1) (Nat.lt_of_le_of_lt (Nat.sub_le _ _) t.isLt)) := by
  have hN : t.val < 1024 := lt_of_lt_of_eq t.isLt (show cfg1.N = 1024 from N_1)
  rw [Dat.before_out_kept _ 1 rfl t (by omega) (Bool.eq_false_iff.mpr fun h => by have := (flush1_1 _).mp h; dsimp only at this; omega)
    (fun _ => rfl) (fun _ _ => rfl)]
  dsimp only [dat1]

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t))

set_option maxHeartbeats 800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1]
  have hN : t.val < 1024 := lt_of_lt_of_eq t.isLt (show cfg1.N = 1024 from N_1)
  by_cases h0 : t.val % 512 = 0
  · rw [outsAt1_A V c t h0]
    unfold out1_A
    iintro ⟨HΦ, Ho, ⟨%d0, H0⟩, ⟨%d1, H1⟩⟩
    iapply ((kernelRun1_A c (grid1.coords t) _ _ _ _ ((hcond1 t).mpr h0) (iblk1 V c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover1_A c _ _ _ _ _ _ _)
  · rw [outsAt1_B V c t h0]
    simp only [before1_1_B V c t h0]
    unfold out1_B
    iintro ⟨HΦ, Ho, ⟨%d0, H0⟩, ⟨%d1, H1⟩⟩
    iapply ((kernelRun1_B c (grid1.coords t) _ _ _ _ (fun h => h0 ((hcond1 t).mp h)) (iblk1 V c 0 t) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover1_B c _ _ _ _ _ _ _ _)

theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.KernelFr.Run.lean ====
/-
  The program's run from the launch to the return: host operations, region 0, host operations, region 1, host operations.
  The buffer contents at each boundary are a fold from the launch memory — a stretch of host operations applies them, a
  region leaves its arrays at what its write-backs leave and every other buffer as entered — and the arguments are
  written by nothing, so they end as launched.
-/
import proofs.«159445_j35751307771970_2_alg».proof.Proof.KernelFr.Half0
import proofs.«159445_j35751307771970_2_alg».proof.Proof.KernelFr.Half1
import Idealize.ShloMosaic.Lib.Pipeline.RegionsLoop
import Idealize.ShloMosaic.Lib.Pipeline.FrameSuffix

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the first stretch of host operations (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second stretch (region 1's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- After the last stretch: the contents at the return. -/
abbrev W5 : Dev nD → Valuation τ sig (Elt F) := fun c => StableHlo.after hostOps2 (W4 m ρ c)

/-! ### The arguments end as launched -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = m ((c : Thread nD τ).loc main_arg0) := rfl

theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = m ((c : Thread nD τ).loc main_arg1) := rfl

theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = m ((c : Thread nD τ).loc main_arg2) := rfl

theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := StableHlo.after_of_forall_not_mem (b := Proc.devRef .tc main_arg3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = m ((c : Thread nD τ).loc main_arg3) := rfl

theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := StableHlo.after_of_forall_not_mem (b := Proc.devRef .tc main_arg4) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = m ((c : Thread nD τ).loc main_arg4) := rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the return's contents, the generator register at some state. -/
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- Region 0 over the thread state: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]

theorem main_run (c : Dev nD) : main (F := F) c = Pipeline.Seg.run (segs m ρ) := (main_chain c).trans (by chain_rfl)

set_option backward.isDefEq.respectTransparency.types false in
/-- Every weakly fair execution of the program terminates, nothing faulting, with the result buffer at the fold's contents and
    the argument arrays as launched. -/
theorem run_val : θ_run defs (onTc (τ := τ) (main (F := F))) ⟨m, fun _ => 0, ρ⟩ (fun r => ∀ c : Dev nD,
      r.2.mem ((c.tc : Thread nD τ).loc main_v147) = W5 m ρ c (Proc.devRef .tc main_v147)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => ⟨h c _ (mem_uc main_v147 (by decide)),
        (h c _ (mem_uc main_arg0 (by decide))).trans (W5_main_arg0 m ρ c),
        (h c _ (mem_uc main_arg1 (by decide))).trans (W5_main_arg1 m ρ c),
        (h c _ (mem_uc main_arg2 (by decide))).trans (W5_main_arg2 m ρ c),
        (h c _ (mem_uc main_arg3 (by decide))).trans (W5_main_arg3 m ρ c),
        (h c _ (mem_uc main_arg4 (by decide))).trans (W5_main_arg4 m ρ c)⟩)

/-- The frame: the program runs to the end and keeps its arguments. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2) (run_val m ρ)

end Cert.Kernel.Fr

end
-- ==== Proof.KernelIdealFr.Base.lean ====
/-
  The two scatter-sum regions of the program: what their frame proofs share.  Each region's grid is 2 cores by 512 blocks; the
  body resets its output block where the block coordinate is 0 and accumulates into it at every point.
-/
import proofs.«159445_j35751307771970_2_alg».proof.Proof.Gen.KernelIdeal.Launch
import proofs.«159445_j35751307771970_2_alg».proof.Proof.Gen.KernelIdeal.Skeleton
import proofs.«159445_j35751307771970_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Region 0 -/

/-- The body of region 0 resets its output: the block coordinate of the point is 0. -/
abbrev cond0 (i : grid0.Coords) : Prop := (Scalar.cmpi .ne (Scalar.extui (Scalar.cmpi .eq (BitVec.ofNat 32 (i 1).val) 0#32)) 0#32) = 1#1

/-- That is the first of each core's 512 points. -/
theorem hcond0 : ∀ t : Fin cfg0.N, cond0 (grid0.coords t) ↔ t.val % 512 = 0 :=
  (by decide +kernel : ∀ t : Fin grid0.N, cond0 (grid0.coords t) ↔ t.val % 512 = 0)

/-- One staging buffer of the output window, through which its contents are stated. -/
abbrev VO0 : View sig .tc .vmem S1x64x4 .f32 := (Memref.whole cc0_stg1_0 : Memref sig .tc .vmem S1x64x4 .f32).view

/-- The windows' current staging memrefs at a point, and their wholeness. -/
abbrev ms0_0 (t : Fin cfg0.N) : Memref sig .tc .vmem S8192x5 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x64x4 .f32 := win0_1.stage (cfg0.slots t 1)
abbrev hs0_1 (t : Fin cfg0.N) : (ms0_1 t).IsWhole := hstage0_1 ((cfg0.slots t 1).cast nbuf0_1)

/-! ## Region 1 -/

/-- The body of region 1 resets its output: the block coordinate of the point is 0. -/
abbrev cond1 (i : grid1.Coords) : Prop := (Scalar.cmpi .ne (Scalar.extui (Scalar.cmpi .eq (BitVec.ofNat 32 (i 1).val) 0#32)) 0#32) = 1#1

/-- That is the first of each core's 512 points. -/
theorem hcond1 : ∀ t : Fin cfg1.N, cond1 (grid1.coords t) ↔ t.val % 512 = 0 :=
  (by decide +kernel : ∀ t : Fin grid1.N, cond1 (grid1.coords t) ↔ t.val % 512 = 0)

/-- One staging buffer of the output window, through which its contents are stated. -/
abbrev VO1 : View sig .tc .vmem S1x64x1 .f32 := (Memref.whole cc1_stg1_0 : Memref sig .tc .vmem S1x64x1 .f32).view

/-- The windows' current staging memrefs at a point, and their wholeness. -/
abbrev ms1_0 (t : Fin cfg1.N) : Memref sig .tc .vmem S8192x2 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x64x1 .f32 := win1_1.stage (cfg1.slots t 1)
abbrev hs1_1 (t : Fin cfg1.N) : (ms1_1 t).IsWhole := hstage1_1 ((cfg1.slots t 1).cast nbuf1_1)

end Cert.KernelIdeal.Fr

end
-- ==== Proof.KernelIdealFr.Run0A.lean ====
/-
  Region 0's body run where the output block is reset first (block coordinate 0): on whole staging
  memrefs, the input's at its block, the body runs to the end holding the input as it was
  and the output with the body's stores written.
-/
import proofs.«159445_j35751307771970_2_alg».proof.Proof.KernelIdealFr.Base

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_A (c : Dev nD) (i : grid0.Coords) (arg2 : Memref sig .tc .vmem S8192x5 .f32) (harg2 : arg2.IsWhole) (arg3 : Memref sig .tc .vmem S1x64x4 .f32) (harg3 : arg3.IsWhole) (hc0 : cond0 i)
    (x0 : Vec F S8192x5 .f32) :
    { L1 : List (View.Piece (Elt F) S1x64x4 .f32) //
      ∀ (E : Set ℕ) (K : PUnit → sProp 𝕄),
        iprop(owns (c : Thread nD τ) arg2 fullShare x0 ∗ (∃ d, owns (c : Thread nD τ) arg3 fullShare d)
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc0__scatter_sum_kernel i arg2 harg2 arg3 harg3) K } := by
  refine ⟨?_, fun E K => ?run⟩
  case run =>
    simp only [cc0__scatter_sum_kernel_eq_skeleton]; unfold cc0__scatter_sum_kernel_skel
    unfold owns
    iintro ⟨⟨%f0, %hf0, H0⟩, ⟨%d1, %f1, -, H1⟩, Hk⟩
    obtain rfl := harg2.eq_unread hf0
    sl_exec (disch := first | exact hc0)
    sl_step
    iapply Hk
    isplitl [H0]
    · iexists _; isplitr; · ipureintro; exact harg2.read_unread _
      iexact H0
    iexists _; iexact H1

end Cert.KernelIdeal.Fr

end
-- ==== Proof.KernelIdealFr.Run0B.lean ====
/-
  Region 0's body run where the output block is carried from the point before (block coordinate not 0): on whole staging
  memrefs, the input's at its block and the output's at what the point before left, the body runs to the end holding the input as it was
  and the output with the body's stores written.
-/
import proofs.«159445_j35751307771970_2_alg».proof.Proof.KernelIdealFr.Base

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_B (c : Dev nD) (i : grid0.Coords) (arg2 : Memref sig .tc .vmem S8192x5 .f32) (harg2 : arg2.IsWhole) (arg3 : Memref sig .tc .vmem S1x64x4 .f32) (harg3 : arg3.IsWhole) (hc0 : ¬cond0 i)
    (x0 : Vec F S8192x5 .f32) (xo1 : Vec F S1x64x4 .f32) :
    { L1 : List (View.Piece (Elt F) S1x64x4 .f32) //
      ∀ (E : Set ℕ) (K : PUnit → sProp 𝕄),
        iprop(owns (c : Thread nD τ) arg2 fullShare x0 ∗ owns (c : Thread nD τ) arg3 fullShare xo1
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc0__scatter_sum_kernel i arg2 harg2 arg3 harg3) K } := by
  refine ⟨?_, fun E K => ?run⟩
  case run =>
    simp only [cc0__scatter_sum_kernel_eq_skeleton]; unfold cc0__scatter_sum_kernel_skel
    unfold owns
    iintro ⟨⟨%f0, %hf0, H0⟩, ⟨%f1, %hf1, H1⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    iexists _; iexact H1

end Cert.KernelIdeal.Fr

end
-- ==== Proof.KernelIdealFr.Half0.lean ====
/-
  Region 0 at the buffer contents `V` it is entered with: what its output block holds after each point — reset and first
  block at a core's first point, the running block plus the point's contribution afterwards —, the proof data, and the body
  obligation at every point.
-/
import proofs.«159445_j35751307771970_2_alg».proof.Proof.KernelIdealFr.Run0A
import proofs.«159445_j35751307771970_2_alg».proof.Proof.KernelIdealFr.Run0B

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The stores of a resetting point tile the output block. -/
theorem cover0_A (c : Dev nD) (i : grid0.Coords) (arg2 : Memref sig .tc .vmem S8192x5 .f32) (harg2 : arg2.IsWhole) (arg3 : Memref sig .tc .vmem S1x64x4 .f32) (harg3 : arg3.IsWhole) (hc0 : cond0 i)
    (x0 : Vec F S8192x5 .f32) (y : S1x64x4.Idx) :
    ∃ pc ∈ (kernelRun0_A c i arg2 harg2 arg3 harg3 hc0 x0).1, y ∈ pc.1.set :=
  View.cover_of_tiledL (kernelRun0_A c i arg2 harg2 arg3 harg3 hc0 x0).1 S1x64x4.size (by sl_kernel_rfl) y

/-- What a resetting point leaves in the output's staging buffer. -/
def out0_A (c : Dev nD) (i : grid0.Coords) (arg2 : Memref sig .tc .vmem S8192x5 .f32) (harg2 : arg2.IsWhole) (arg3 : Memref sig .tc .vmem S1x64x4 .f32) (harg3 : arg3.IsWhole) (hc0 : cond0 i)
    (x0 : Vec F S8192x5 .f32) : Vec F S1x64x4 .f32 :=
  VO0.read (Elt F) (VO0.writes (Elt F) VO0.junk (kernelRun0_A c i arg2 harg2 arg3 harg3 hc0 x0).1)

/-- The store of an accumulating point tiles the output block. -/
theorem cover0_B (c : Dev nD) (i : grid0.Coords) (arg2 : Memref sig .tc .vmem S8192x5 .f32) (harg2 : arg2.IsWhole) (arg3 : Memref sig .tc .vmem S1x64x4 .f32) (harg3 : arg3.IsWhole) (hc0 : ¬cond0 i)
    (x0 : Vec F S8192x5 .f32) (xo1 : Vec F S1x64x4 .f32) (y : S1x64x4.Idx) :
    ∃ pc ∈ (kernelRun0_B c i arg2 harg2 arg3 harg3 hc0 x0 xo1).1, y ∈ pc.1.set :=
  View.cover_of_tiledL (kernelRun0_B c i arg2 harg2 arg3 harg3 hc0 x0 xo1).1 S1x64x4.size (by sl_kernel_rfl) y

/-- What an accumulating point leaves in the output's staging buffer, from what the point before left. -/
def out0_B (c : Dev nD) (i : grid0.Coords) (arg2 : Memref sig .tc .vmem S8192x5 .f32) (harg2 : arg2.IsWhole) (arg3 : Memref sig .tc .vmem S1x64x4 .f32) (harg3 : arg3.IsWhole) (hc0 : ¬cond0 i)
    (x0 : Vec F S8192x5 .f32) (xo1 : Vec F S1x64x4 .f32) : Vec F S1x64x4 .f32 :=
  VO0.read (Elt F) (VO0.writes (Elt F) VO0.junk (kernelRun0_B c i arg2 harg2 arg3 harg3 hc0 x0 xo1).1)

/-- The accumulation: what the output's staging buffer holds after the body at position `n`. -/
def outsAt0 (c : Dev nD) : (n : ℕ) → n < cfg0.N → Vec F S1x64x4 .f32
  | 0, hn => out0_A c (grid0.coords ⟨0, hn⟩) (ms0_0 ⟨0, hn⟩) (hs0_0 ⟨0, hn⟩) (ms0_1 ⟨0, hn⟩) (hs0_1 ⟨0, hn⟩) ((hcond0 ⟨0, hn⟩).mpr (Nat.zero_mod _)) (iblk0 V c 0 ⟨0, hn⟩)
  | n + 1, hn =>
    if h0 : (n + 1) % 512 = 0 then
      out0_A c (grid0.coords ⟨n + 1, hn⟩) (ms0_0 ⟨n + 1, hn⟩) (hs0_0 ⟨n + 1, hn⟩) (ms0_1 ⟨n + 1, hn⟩) (hs0_1 ⟨n + 1, hn⟩) ((hcond0 ⟨n + 1, hn⟩).mpr h0) (iblk0 V c 0 ⟨n + 1, hn⟩)
    else
      out0_B c (grid0.coords ⟨n + 1, hn⟩) (ms0_0 ⟨n + 1, hn⟩) (hs0_0 ⟨n + 1, hn⟩) (ms0_1 ⟨n + 1, hn⟩) (hs0_1 ⟨n + 1, hn⟩) (fun h => h0 ((hcond0 ⟨n + 1, hn⟩).mp h)) (iblk0 V c 0 ⟨n + 1, hn⟩) (outsAt0 c n (Nat.lt_of_succ_lt hn))

theorem outsAt0_A (c : Dev nD) (t : Fin cfg0.N) (h0 : t.val % 512 = 0) :
    outsAt0 V c t.val t.isLt = out0_A c (grid0.coords t) (ms0_0 t) (hs0_0 t) (ms0_1 t) (hs0_1 t) ((hcond0 t).mpr h0) (iblk0 V c 0 t) := by
  obtain ⟨n, hn⟩ := t
  cases n with
  | zero => exact rfl
  | succ n => exact (dif_pos h0).trans rfl

theorem outsAt0_B (c : Dev nD) (t : Fin cfg0.N) (h0 : ¬t.val % 512 = 0) :
    outsAt0 V c t.val t.isLt = out0_B c (grid0.coords t) (ms0_0 t) (hs0_0 t) (ms0_1 t) (hs0_1 t) (fun h => h0 ((hcond0 t).mp h)) (iblk0 V c 0 t) (outsAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The proof data of region 0 on core `c`: its arrays as the region finds them, the input's buffer at its block after every
    point, the output's at the accumulation; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt) := by dsimp only [dat0]

theorem before0_0 (c : Dev nD) (t : Fin cfg0.N) (d) : (dat0 V c).before 0 t d = iblk0 V c 0 t :=
  before0_0_of V (dat0 V c) (A_eq0 V c 0) (after0_0 V c) t d

/-- At an accumulating point the output's staging buffer holds what the body left at the point before: it is not written back
    between two points of one core. -/
theorem before0_1_B (c : Dev nD) (t : Fin cfg0.N) (h0 : ¬t.val % 512 = 0) (d) :
    (dat0 V c).before 1 t d = (outsAt0 V c (t.val - 1) (Nat.lt_of_le_of_lt (Nat.sub_le _ _) t.isLt)) := by
  have hN : t.val < 1024 := lt_of_lt_of_eq t.isLt (show cfg0.N = 1024 from N_0)
  rw [Dat.before_out_kept _ 1 rfl t (by omega) (Bool.eq_false_iff.mpr fun h => by have := (flush0_1 _).mp h; dsimp only at this; omega)
    (fun _ => rfl) (fun _ _ => rfl)]
  dsimp only [dat0]

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t))

set_option maxHeartbeats 800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  have hN : t.val < 1024 := lt_of_lt_of_eq t.isLt (show cfg0.N = 1024 from N_0)
  by_cases h0 : t.val % 512 = 0
  · rw [outsAt0_A V c t h0]
    unfold out0_A
    iintro ⟨HΦ, Ho, ⟨%d0, H0⟩, ⟨%d1, H1⟩⟩
    iapply ((kernelRun0_A c (grid0.coords t) _ _ _ _ ((hcond0 t).mpr h0) (iblk0 V c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover0_A c _ _ _ _ _ _ _)
  · rw [outsAt0_B V c t h0]
    simp only [before0_1_B V c t h0]
    unfold out0_B
    iintro ⟨HΦ, Ho, ⟨%d0, H0⟩, ⟨%d1, H1⟩⟩
    iapply ((kernelRun0_B c (grid0.coords t) _ _ _ _ (fun h => h0 ((hcond0 t).mp h)) (iblk0 V c 0 t) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover0_B c _ _ _ _ _ _ _ _)

theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KernelIdealFr.Run1A.lean ====
/-
  Region 1's body run where the output block is reset first (block coordinate 0): on whole staging
  memrefs, the input's at its block, the body runs to the end holding the input as it was
  and the output with the body's stores written.
-/
import proofs.«159445_j35751307771970_2_alg».proof.Proof.KernelIdealFr.Base

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_A (c : Dev nD) (i : grid1.Coords) (arg2 : Memref sig .tc .vmem S8192x2 .f32) (harg2 : arg2.IsWhole) (arg3 : Memref sig .tc .vmem S1x64x1 .f32) (harg3 : arg3.IsWhole) (hc0 : cond1 i)
    (x0 : Vec F S8192x2 .f32) :
    { L1 : List (View.Piece (Elt F) S1x64x1 .f32) //
      ∀ (E : Set ℕ) (K : PUnit → sProp 𝕄),
        iprop(owns (c : Thread nD τ) arg2 fullShare x0 ∗ (∃ d, owns (c : Thread nD τ) arg3 fullShare d)
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc1__scatter_sum_kernel i arg2 harg2 arg3 harg3) K } := by
  refine ⟨?_, fun E K => ?run⟩
  case run =>
    simp only [cc1__scatter_sum_kernel_eq_skeleton]; unfold cc1__scatter_sum_kernel_skel
    unfold owns
    iintro ⟨⟨%f0, %hf0, H0⟩, ⟨%d1, %f1, -, H1⟩, Hk⟩
    obtain rfl := harg2.eq_unread hf0
    sl_exec (disch := first | exact hc0)
    sl_step
    iapply Hk
    isplitl [H0]
    · iexists _; isplitr; · ipureintro; exact harg2.read_unread _
      iexact H0
    iexists _; iexact H1

end Cert.KernelIdeal.Fr

end
-- ==== Proof.KernelIdealFr.Run1B.lean ====
/-
  Region 1's body run where the output block is carried from the point before (block coordinate not 0): on whole staging
  memrefs, the input's at its block and the output's at what the point before left, the body runs to the end holding the input as it was
  and the output with the body's stores written.
-/
import proofs.«159445_j35751307771970_2_alg».proof.Proof.KernelIdealFr.Base

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_B (c : Dev nD) (i : grid1.Coords) (arg2 : Memref sig .tc .vmem S8192x2 .f32) (harg2 : arg2.IsWhole) (arg3 : Memref sig .tc .vmem S1x64x1 .f32) (harg3 : arg3.IsWhole) (hc0 : ¬cond1 i)
    (x0 : Vec F S8192x2 .f32) (xo1 : Vec F S1x64x1 .f32) :
    { L1 : List (View.Piece (Elt F) S1x64x1 .f32) //
      ∀ (E : Set ℕ) (K : PUnit → sProp 𝕄),
        iprop(owns (c : Thread nD τ) arg2 fullShare x0 ∗ owns (c : Thread nD τ) arg3 fullShare xo1
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc1__scatter_sum_kernel i arg2 harg2 arg3 harg3) K } := by
  refine ⟨?_, fun E K => ?run⟩
  case run =>
    simp only [cc1__scatter_sum_kernel_eq_skeleton]; unfold cc1__scatter_sum_kernel_skel
    unfold owns
    iintro ⟨⟨%f0, %hf0, H0⟩, ⟨%f1, %hf1, H1⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    iexists _; iexact H1

end Cert.KernelIdeal.Fr

end
-- ==== Proof.KernelIdealFr.Half1.lean ====
/-
  Region 1 at the buffer contents `V` it is entered with: what its output block holds after each point — reset and first
  block at a core's first point, the running block plus the point's contribution afterwards —, the proof data, and the body
  obligation at every point.
-/
import proofs.«159445_j35751307771970_2_alg».proof.Proof.KernelIdealFr.Run1A
import proofs.«159445_j35751307771970_2_alg».proof.Proof.KernelIdealFr.Run1B

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The stores of a resetting point tile the output block. -/
theorem cover1_A (c : Dev nD) (i : grid1.Coords) (arg2 : Memref sig .tc .vmem S8192x2 .f32) (harg2 : arg2.IsWhole) (arg3 : Memref sig .tc .vmem S1x64x1 .f32) (harg3 : arg3.IsWhole) (hc0 : cond1 i)
    (x0 : Vec F S8192x2 .f32) (y : S1x64x1.Idx) :
    ∃ pc ∈ (kernelRun1_A c i arg2 harg2 arg3 harg3 hc0 x0).1, y ∈ pc.1.set :=
  View.cover_of_tiledL (kernelRun1_A c i arg2 harg2 arg3 harg3 hc0 x0).1 S1x64x1.size (by sl_kernel_rfl) y

/-- What a resetting point leaves in the output's staging buffer. -/
def out1_A (c : Dev nD) (i : grid1.Coords) (arg2 : Memref sig .tc .vmem S8192x2 .f32) (harg2 : arg2.IsWhole) (arg3 : Memref sig .tc .vmem S1x64x1 .f32) (harg3 : arg3.IsWhole) (hc0 : cond1 i)
    (x0 : Vec F S8192x2 .f32) : Vec F S1x64x1 .f32 :=
  VO1.read (Elt F) (VO1.writes (Elt F) VO1.junk (kernelRun1_A c i arg2 harg2 arg3 harg3 hc0 x0).1)

/-- The store of an accumulating point tiles the output block. -/
theorem cover1_B (c : Dev nD) (i : grid1.Coords) (arg2 : Memref sig .tc .vmem S8192x2 .f32) (harg2 : arg2.IsWhole) (arg3 : Memref sig .tc .vmem S1x64x1 .f32) (harg3 : arg3.IsWhole) (hc0 : ¬cond1 i)
    (x0 : Vec F S8192x2 .f32) (xo1 : Vec F S1x64x1 .f32) (y : S1x64x1.Idx) :
    ∃ pc ∈ (kernelRun1_B c i arg2 harg2 arg3 harg3 hc0 x0 xo1).1, y ∈ pc.1.set :=
  View.cover_of_tiledL (kernelRun1_B c i arg2 harg2 arg3 harg3 hc0 x0 xo1).1 S1x64x1.size (by sl_kernel_rfl) y

/-- What an accumulating point leaves in the output's staging buffer, from what the point before left. -/
def out1_B (c : Dev nD) (i : grid1.Coords) (arg2 : Memref sig .tc .vmem S8192x2 .f32) (harg2 : arg2.IsWhole) (arg3 : Memref sig .tc .vmem S1x64x1 .f32) (harg3 : arg3.IsWhole) (hc0 : ¬cond1 i)
    (x0 : Vec F S8192x2 .f32) (xo1 : Vec F S1x64x1 .f32) : Vec F S1x64x1 .f32 :=
  VO1.read (Elt F) (VO1.writes (Elt F) VO1.junk (kernelRun1_B c i arg2 harg2 arg3 harg3 hc0 x0 xo1).1)

/-- The accumulation: what the output's staging buffer holds after the body at position `n`. -/
def outsAt1 (c : Dev nD) : (n : ℕ) → n < cfg1.N → Vec F S1x64x1 .f32
  | 0, hn => out1_A c (grid1.coords ⟨0, hn⟩) (ms1_0 ⟨0, hn⟩) (hs1_0 ⟨0, hn⟩) (ms1_1 ⟨0, hn⟩) (hs1_1 ⟨0, hn⟩) ((hcond1 ⟨0, hn⟩).mpr (Nat.zero_mod _)) (iblk1 V c 0 ⟨0, hn⟩)
  | n + 1, hn =>
    if h0 : (n + 1) % 512 = 0 then
      out1_A c (grid1.coords ⟨n + 1, hn⟩) (ms1_0 ⟨n + 1, hn⟩) (hs1_0 ⟨n + 1, hn⟩) (ms1_1 ⟨n + 1, hn⟩) (hs1_1 ⟨n + 1, hn⟩) ((hcond1 ⟨n + 1, hn⟩).mpr h0) (iblk1 V c 0 ⟨n + 1, hn⟩)
    else
      out1_B c (grid1.coords ⟨n + 1, hn⟩) (ms1_0 ⟨n + 1, hn⟩) (hs1_0 ⟨n + 1, hn⟩) (ms1_1 ⟨n + 1, hn⟩) (hs1_1 ⟨n + 1, hn⟩) (fun h => h0 ((hcond1 ⟨n + 1, hn⟩).mp h)) (iblk1 V c 0 ⟨n + 1, hn⟩) (outsAt1 c n (Nat.lt_of_succ_lt hn))

theorem outsAt1_A (c : Dev nD) (t : Fin cfg1.N) (h0 : t.val % 512 = 0) :
    outsAt1 V c t.val t.isLt = out1_A c (grid1.coords t) (ms1_0 t) (hs1_0 t) (ms1_1 t) (hs1_1 t) ((hcond1 t).mpr h0) (iblk1 V c 0 t) := by
  obtain ⟨n, hn⟩ := t
  cases n with
  | zero => exact rfl
  | succ n => exact (dif_pos h0).trans rfl

theorem outsAt1_B (c : Dev nD) (t : Fin cfg1.N) (h0 : ¬t.val % 512 = 0) :
    outsAt1 V c t.val t.isLt = out1_B c (grid1.coords t) (ms1_0 t) (hs1_0 t) (ms1_1 t) (hs1_1 t) (fun h => h0 ((hcond1 t).mp h)) (iblk1 V c 0 t) (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The proof data of region 1 on core `c`: its arrays as the region finds them, the input's buffer at its block after every
    point, the output's at the accumulation; nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => (outsAt1 V c t.val t.isLt)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = (outsAt1 V c t.val t.isLt) := by dsimp only [dat1]

theorem before1_0 (c : Dev nD) (t : Fin cfg1.N) (d) : (dat1 V c).before 0 t d = iblk1 V c 0 t :=
  before1_0_of V (dat1 V c) (A_eq1 V c 0) (after1_0 V c) t d

/-- At an accumulating point the output's staging buffer holds what the body left at the point before: it is not written back
    between two points of one core. -/
theorem before1_1_B (c : Dev nD) (t : Fin cfg1.N) (h0 : ¬t.val % 512 = 0) (d) :
    (dat1 V c).before 1 t d = (outsAt1 V c (t.val - 1) (Nat.lt_of_le_of_lt (Nat.sub_le _ _) t.isLt)) := by
  have hN : t.val < 1024 := lt_of_lt_of_eq t.isLt (show cfg1.N = 1024 from N_1)
  rw [Dat.before_out_kept _ 1 rfl t (by omega) (Bool.eq_false_iff.mpr fun h => by have := (flush1_1 _).mp h; dsimp only at this; omega)
    (fun _ => rfl) (fun _ _ => rfl)]
  dsimp only [dat1]

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t))

set_option maxHeartbeats 800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1]
  have hN : t.val < 1024 := lt_of_lt_of_eq t.isLt (show cfg1.N = 1024 from N_1)
  by_cases h0 : t.val % 512 = 0
  · rw [outsAt1_A V c t h0]
    unfold out1_A
    iintro ⟨HΦ, Ho, ⟨%d0, H0⟩, ⟨%d1, H1⟩⟩
    iapply ((kernelRun1_A c (grid1.coords t) _ _ _ _ ((hcond1 t).mpr h0) (iblk1 V c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover1_A c _ _ _ _ _ _ _)
  · rw [outsAt1_B V c t h0]
    simp only [before1_1_B V c t h0]
    unfold out1_B
    iintro ⟨HΦ, Ho, ⟨%d0, H0⟩, ⟨%d1, H1⟩⟩
    iapply ((kernelRun1_B c (grid1.coords t) _ _ _ _ (fun h => h0 ((hcond1 t).mp h)) (iblk1 V c 0 t) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover1_B c _ _ _ _ _ _ _ _)

theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KernelIdealFr.Run.lean ====
/-
  The program's run from the launch to the return: host operations, region 0, host operations, region 1, host operations.
  The buffer contents at each boundary are a fold from the launch memory — a stretch of host operations applies them, a
  region leaves its arrays at what its write-backs leave and every other buffer as entered — and the arguments are
  written by nothing, so they end as launched.
-/
import proofs.«159445_j35751307771970_2_alg».proof.Proof.KernelIdealFr.Half0
import proofs.«159445_j35751307771970_2_alg».proof.Proof.KernelIdealFr.Half1
import Idealize.ShloMosaic.Lib.Pipeline.RegionsLoop
import Idealize.ShloMosaic.Lib.Pipeline.FrameSuffix

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the first stretch of host operations (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second stretch (region 1's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- After the last stretch: the contents at the return. -/
abbrev W5 : Dev nD → Valuation τ sig (Elt F) := fun c => StableHlo.after hostOps2 (W4 m ρ c)

/-! ### The arguments end as launched -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = m ((c : Thread nD τ).loc main_arg0) := rfl

theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = m ((c : Thread nD τ).loc main_arg1) := rfl

theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = m ((c : Thread nD τ).loc main_arg2) := rfl

theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := StableHlo.after_of_forall_not_mem (b := Proc.devRef .tc main_arg3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = m ((c : Thread nD τ).loc main_arg3) := rfl

theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := StableHlo.after_of_forall_not_mem (b := Proc.devRef .tc main_arg4) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = m ((c : Thread nD τ).loc main_arg4) := rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the return's contents, the generator register at some state. -/
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- Region 0 over the thread state: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]

theorem main_run (c : Dev nD) : main (F := F) c = Pipeline.Seg.run (segs m ρ) := (main_chain c).trans (by chain_rfl)

set_option backward.isDefEq.respectTransparency.types false in
/-- Every weakly fair execution of the program terminates, nothing faulting, with the result buffer at the fold's contents and
    the argument arrays as launched. -/
theorem run_val : θ_run defs (onTc (τ := τ) (main (F := F))) ⟨m, fun _ => 0, ρ⟩ (fun r => ∀ c : Dev nD,
      r.2.mem ((c.tc : Thread nD τ).loc main_v147) = W5 m ρ c (Proc.devRef .tc main_v147)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => ⟨h c _ (mem_uc main_v147 (by decide)),
        (h c _ (mem_uc main_arg0 (by decide))).trans (W5_main_arg0 m ρ c),
        (h c _ (mem_uc main_arg1 (by decide))).trans (W5_main_arg1 m ρ c),
        (h c _ (mem_uc main_arg2 (by decide))).trans (W5_main_arg2 m ρ c),
        (h c _ (mem_uc main_arg3 (by decide))).trans (W5_main_arg3 m ρ c),
        (h c _ (mem_uc main_arg4 (by decide))).trans (W5_main_arg4 m ρ c)⟩)

/-- The frame: the program runs to the end and keeps its arguments. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2) (run_val m ρ)

end Cert.KernelIdeal.Fr

end
-- ==== Proof.LibConcat2.lean ====
/-
  A two-piece concatenation with its pieces as plain arguments.

  The printed `concatenate t a [⟨s₁, x₁⟩, ⟨s₂, x₂⟩] h` keeps each piece inside a dependent pair (the piece's shape, then
  the piece), where a rewriting pass cannot reach it. `concat2` is the same array with the pieces as arguments of their
  own; `concatenate_pair` turns the printed form into it, and `fold_pairs` is the pass that rewrites a fold of host
  operations to the operations' composed term, reaching inside the pieces of such concatenations too.
-/
import Idealize.ShloMosaic.Lib.StableHlo.Run

namespace Cert.LibConcat2

open Idealize.ShloMosaic

/-- Two pieces laid end to end along axis `ax`. -/
def concat2 {α : Type} (t : Shape) (ax : Fin t.rank) (s₁ s₂ : Shape) (a : s₁.Idx → α) (b : s₂.Idx → α)
    (h : Shape.Concatenates [s₁, s₂] t ax) : t.Idx → α :=
  concatenate t ax [⟨s₁, a⟩, ⟨s₂, b⟩] h

theorem concatenate_pair {α : Type} (t : Shape) (ax : Fin t.rank) (s₁ s₂ : Shape) (a : s₁.Idx → α) (b : s₂.Idx → α)
    (h : Shape.Concatenates [s₁, s₂] t ax) :
    concatenate t ax [⟨s₁, a⟩, ⟨s₂, b⟩] h = concat2 t ax s₁ s₂ a b h := rfl

/-- A fold of host operations at a buffer, rewritten to the operations' composed term of the contents before it, the
    pieces of two-piece concatenations included. -/
macro "fold_pairs" : tactic =>
  `(tactic| (simp (disch := decide) only [Idealize.ShloMosaic.StableHlo.after_cons, Idealize.ShloMosaic.StableHlo.after_nil,
      Idealize.ShloMosaic.StableHlo.nullary_result', Idealize.ShloMosaic.StableHlo.unary_result',
      Idealize.ShloMosaic.StableHlo.binary_result', Idealize.ShloMosaic.StableHlo.ternary_result',
      Idealize.ShloMosaic.StableHlo.quaternary_result', Idealize.ShloMosaic.StableHlo.reshape_result',
      Idealize.ShloMosaic.StableHlo.nary4_result', Idealize.ShloMosaic.StableHlo.nary_result',
      Idealize.ShloMosaic.StableHlo.unaryIndexed_result', Idealize.ShloMosaic.StableHlo.binaryIndexed_result',
      Idealize.ShloMosaic.StableHlo.nullary_result_ne', Idealize.ShloMosaic.StableHlo.unary_result_ne',
      Idealize.ShloMosaic.StableHlo.binary_result_ne', Idealize.ShloMosaic.StableHlo.ternary_result_ne',
      Idealize.ShloMosaic.StableHlo.quaternary_result_ne', Idealize.ShloMosaic.StableHlo.reshape_result_ne',
      Idealize.ShloMosaic.StableHlo.nary_result_ne', Idealize.ShloMosaic.StableHlo.unaryIndexed_result_ne',
      Idealize.ShloMosaic.StableHlo.binaryIndexed_result_ne', Cert.LibConcat2.concatenate_pair]))

end Cert.LibConcat2
-- ==== Proof.LibKeepdims.lean ====
/-
  Keepdims layouts read at an index given by coordinates.

  A reduction that keeps its axis, and the broadcast that undoes it, print as casts and broadcasts through shapes with a
  unit axis: a matrix [a, c] viewed [a, 1, c] or [a, b] viewed [a, b, 1], a vector [a] viewed as the column [a, 1] or as
  [a, 1, 1], a row [b] viewed [1, b], and each of those broadcast back along its unit axis. Each lemma says which entry
  of the operand the result holds at (p, q, r); a unit axis always reads its one entry. Generic in the extents and in
  the element type, for the vector unit's `broadcastTo` / `shapeCast` and for the host's `broadcastInDim`. Last, a
  sum along the middle axis of a rank-3 array, on the vector unit and on the host, as the sum over that coordinate.
-/
import Idealize.ShloMosaic.Lib.ValueIdx
import Idealize.ShloMosaic.Lib.Pipeline.Value
import Idealize.ShloMosaic.Lib.IdealHost
import Idealize.ShloMosaic.PureOps.Ideal.Laws

noncomputable section

open scoped BigOperators

namespace Cert.LibKeepdims

open Idealize.ShloMosaic Idealize.ShloMosaic.ValueIdx

variable {α : Type}

/-- One axis of a broadcast's index obligation: a unit axis reads entry 0, any other axis its own coordinate. -/
local macro "bcast_axis " x:term:max n:term:max : tactic =>
  `(tactic| first
    | rfl
    | (show ($x).val = if $n = 1 then 0 else ($x).val
       split
       · have := ($x).isLt; omega
       · rfl))

/-! ## The vector unit's broadcasts and casts -/

/-- `[a, 1, c]` broadcast to `[a, b, c]` reads, at `(p, q, r)`, the operand at `(p, 0, r)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ v h (ix3 p q r) = v (ix3 p (0 : Fin 1) r) := by
  refine broadcastTo_apply v h (ix3 p q r) (ix3 p (0 : Fin 1) r) fun ax => ?_
  match ax with
  | ⟨0, _⟩ => bcast_axis p a
  | ⟨1, _⟩ => rfl
  | ⟨2, _⟩ => bcast_axis r c

/-- `[a, b, 1]` broadcast to `[a, b, c]` reads, at `(p, q, r)`, the operand at `(p, q, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ v h (ix3 p q r) = v (ix3 p q (0 : Fin 1)) := by
  refine broadcastTo_apply v h (ix3 p q r) (ix3 p q (0 : Fin 1)) fun ax => ?_
  match ax with
  | ⟨0, _⟩ => bcast_axis p a
  | ⟨1, _⟩ => bcast_axis q b
  | ⟨2, _⟩ => rfl

/-- `[a, c]` cast to `[a, 1, c]` reads, at `(p, u, r)`, the operand at `(p, r)`. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (r : Fin c) :
    shapeCast ⟨3, ![a, 1, c]⟩ x h (ix3 p u r) = x (ix2 p r) :=
  shapeCast_apply x h _ _ (by
    have hu : u.val = 0 := by omega
    rw [Shape.rowMajor_val_three, Shape.rowMajor_val_two]
    show p.val * c + r.val = (p.val * 1 + u.val) * c + r.val
    rw [hu, Nat.mul_one, Nat.add_zero])

/-- `[a, b]` cast to `[a, b, 1]` reads, at `(p, q, u)`, the operand at `(p, q)`. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_three, Shape.rowMajor_val_two]
    show p.val * b + q.val = (p.val * b + q.val) * 1 + u.val
    rw [hu, Nat.mul_one, Nat.add_zero])

/-- `[a]` cast to the column `[a, 1]` reads, at `(p, u)`, the operand at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-! ## The host's broadcasts in dimensions -/

/-- A row `[b]` as `[1, b]` (dimension 1) reads, at `(u, q)`, the operand at `q`. -/
theorem broadcastInDim_b_1b_apply {b : ℕ} (h : (⟨1, ![b]⟩ : Shape).BroadcastsInDim ⟨2, ![1, b]⟩ ![1])
    (x : (⟨1, ![b]⟩ : Shape).Idx → α) (u : Fin 1) (q : Fin b) :
    broadcastInDim ⟨2, ![1, b]⟩ ![1] h x (ix2 u q) = x (ix1 q) := by
  refine broadcastInDim_apply ![1] h x (ix2 u q) (ix1 q) fun ax => ?_
  match ax with
  | ⟨0, _⟩ => bcast_axis q b

/-- A vector `[a]` as the column `[a, 1]` (dimension 0) reads, at `(p, u)`, the operand at `p`. -/
theorem broadcastInDim_a_a1_apply {a : ℕ} (h : (⟨1, ![a]⟩ : Shape).BroadcastsInDim ⟨2, ![a, 1]⟩ ![0])
    (x : (⟨1, ![a]⟩ : Shape).Idx → α) (p : Fin a) (u : Fin 1) :
    broadcastInDim ⟨2, ![a, 1]⟩ ![0] h x (ix2 p u) = x (ix1 p) := by
  refine broadcastInDim_apply ![0] h x (ix2 p u) (ix1 p) fun ax => ?_
  match ax with
  | ⟨0, _⟩ => bcast_axis p a

/-- A column `[a, 1]` broadcast to `[a, b]` reads, at `(p, q)`, the operand at `(p, 0)`. -/
theorem broadcastInDim_a1_ab_apply {a b : ℕ} (h : (⟨2, ![a, 1]⟩ : Shape).BroadcastsInDim ⟨2, ![a, b]⟩ ![0, 1])
    (x : (⟨2, ![a, 1]⟩ : Shape).Idx → α) (p : Fin a) (q : Fin b) :
    broadcastInDim ⟨2, ![a, b]⟩ ![0, 1] h x (ix2 p q) = x (ix2 p (0 : Fin 1)) := by
  refine broadcastInDim_apply ![0, 1] h x (ix2 p q) (ix2 p (0 : Fin 1)) fun ax => ?_
  match ax with
  | ⟨0, _⟩ => bcast_axis p a
  | ⟨1, _⟩ => rfl

/-- `[a, c]` as `[a, 1, c]` (dimensions 0 and 2) reads, at `(p, u, r)`, the operand at `(p, r)`. -/
theorem broadcastInDim_ac_a1c_apply {a c : ℕ} (h : (⟨2, ![a, c]⟩ : Shape).BroadcastsInDim ⟨3, ![a, 1, c]⟩ ![0, 2])
    (x : (⟨2, ![a, c]⟩ : Shape).Idx → α) (p : Fin a) (u : Fin 1) (r : Fin c) :
    broadcastInDim ⟨3, ![a, 1, c]⟩ ![0, 2] h x (ix3 p u r) = x (ix2 p r) := by
  refine broadcastInDim_apply ![0, 2] h x (ix3 p u r) (ix2 p r) fun ax => ?_
  match ax with
  | ⟨0, _⟩ => bcast_axis p a
  | ⟨1, _⟩ => bcast_axis r c

/-- A vector `[a]` as `[a, 1, 1]` (dimension 0) reads, at `(p, u, u')`, the operand at `p`. -/
theorem broadcastInDim_a_a11_apply {a : ℕ} (h : (⟨1, ![a]⟩ : Shape).BroadcastsInDim ⟨3, ![a, 1, 1]⟩ ![0])
    (x : (⟨1, ![a]⟩ : Shape).Idx → α) (p : Fin a) (u u' : Fin 1) :
    broadcastInDim ⟨3, ![a, 1, 1]⟩ ![0] h x (ix3 p u u') = x (ix1 p) := by
  refine broadcastInDim_apply ![0] h x (ix3 p u u') (ix1 p) fun ax => ?_
  match ax with
  | ⟨0, _⟩ => bcast_axis p a

/-- `[a, 1, 1]` broadcast to `[a, 1, c]` reads, at `(p, u, r)`, the operand at `(p, 0, 0)`. -/
theorem broadcastInDim_a11_a1c_apply {a c : ℕ} (h : (⟨3, ![a, 1, 1]⟩ : Shape).BroadcastsInDim ⟨3, ![a, 1, c]⟩ ![0, 1, 2])
    (x : (⟨3, ![a, 1, 1]⟩ : Shape).Idx → α) (p : Fin a) (u : Fin 1) (r : Fin c) :
    broadcastInDim ⟨3, ![a, 1, c]⟩ ![0, 1, 2] h x (ix3 p u r) = x (ix3 p (0 : Fin 1) (0 : Fin 1)) := by
  refine broadcastInDim_apply ![0, 1, 2] h x (ix3 p u r) (ix3 p (0 : Fin 1) (0 : Fin 1)) fun ax => ?_
  match ax with
  | ⟨0, _⟩ => bcast_axis p a
  | ⟨1, _⟩ => rfl
  | ⟨2, _⟩ => rfl

/-- `[a, 1, c]` broadcast to `[a, b, c]` reads, at `(p, q, r)`, the operand at `(p, 0, r)`. -/
theorem broadcastInDim_a1c_abc_apply {a b c : ℕ} (h : (⟨3, ![a, 1, c]⟩ : Shape).BroadcastsInDim ⟨3, ![a, b, c]⟩ ![0, 1, 2])
    (x : (⟨3, ![a, 1, c]⟩ : Shape).Idx → α) (p : Fin a) (q : Fin b) (r : Fin c) :
    broadcastInDim ⟨3, ![a, b, c]⟩ ![0, 1, 2] h x (ix3 p q r) = x (ix3 p (0 : Fin 1) r) := by
  refine broadcastInDim_apply ![0, 1, 2] h x (ix3 p q r) (ix3 p (0 : Fin 1) r) fun ax => ?_
  match ax with
  | ⟨0, _⟩ => bcast_axis p a
  | ⟨1, _⟩ => rfl
  | ⟨2, _⟩ => bcast_axis r c

/-- `[a, b]` as `[a, b, 1]` (dimensions 0 and 1) reads, at `(p, q, u)`, the operand at `(p, q)`. -/
theorem broadcastInDim_ab_ab1_apply {a b : ℕ} (h : (⟨2, ![a, b]⟩ : Shape).BroadcastsInDim ⟨3, ![a, b, 1]⟩ ![0, 1])
    (x : (⟨2, ![a, b]⟩ : Shape).Idx → α) (p : Fin a) (q : Fin b) (u : Fin 1) :
    broadcastInDim ⟨3, ![a, b, 1]⟩ ![0, 1] h x (ix3 p q u) = x (ix2 p q) := by
  refine broadcastInDim_apply ![0, 1] h x (ix3 p q u) (ix2 p q) fun ax => ?_
  match ax with
  | ⟨0, _⟩ => bcast_axis p a
  | ⟨1, _⟩ => bcast_axis q b

/-- `[a, b, 1]` broadcast to `[a, b, c]` reads, at `(p, q, r)`, the operand at `(p, q, 0)`. -/
theorem broadcastInDim_ab1_abc_apply {a b c : ℕ} (h : (⟨3, ![a, b, 1]⟩ : Shape).BroadcastsInDim ⟨3, ![a, b, c]⟩ ![0, 1, 2])
    (x : (⟨3, ![a, b, 1]⟩ : Shape).Idx → α) (p : Fin a) (q : Fin b) (r : Fin c) :
    broadcastInDim ⟨3, ![a, b, c]⟩ ![0, 1, 2] h x (ix3 p q r) = x (ix3 p q (0 : Fin 1)) := by
  refine broadcastInDim_apply ![0, 1, 2] h x (ix3 p q r) (ix3 p q (0 : Fin 1)) fun ax => ?_
  match ax with
  | ⟨0, _⟩ => bcast_axis p a
  | ⟨1, _⟩ => bcast_axis q b
  | ⟨2, _⟩ => rfl

/-! ## A sum along the middle axis of a rank-3 array -/

/-- The index a one-axis reduction of `[a, b, c]` along axis 1 inserts the coordinate into. -/
theorem lift_mid {a b c : ℕ} (h : (⟨3, ![a, b, c]⟩ : Shape).Reduces [1] ⟨2, ![a, c]⟩) (p : Fin a) (r : Fin c) (k : Fin b) :
    h.lift (ix2 p r) k = ix3 p k r := by
  funext ax; apply Fin.ext
  match ax with
  | ⟨0, _⟩ => rfl
  | ⟨1, _⟩ => rfl
  | ⟨2, _⟩ => rfl

/-- The vector unit's sum of an `[a, b, c]` vector along axis 1, at `(p, r)`, is the sum over the middle coordinate. -/
theorem midSum_apply {a b c : ℕ} {φ : FTy} (src : FVec Ideal ⟨3, ![a, b, c]⟩ φ) (acc : BitVec φ.bits)
    (h : (⟨3, ![a, b, c]⟩ : Shape).Reduces [1] ⟨2, ![a, c]⟩) (hφ : FKind.Formats φ) (hacc : acc = FKind.add.neutral φ hφ)
    (p : Fin a) (r : Fin c) :
    multiReduction (F := Ideal) .add [1] ⟨2, ![a, c]⟩ src acc h hφ hacc (ix2 p r) = ∑ k : Fin b, src (ix3 p k r) := by
  refine (Ideal.multiReduction_add_single src acc h hφ hacc (ix2 p r)).trans ?_
  exact Finset.sum_congr rfl fun k _ => congrArg src (lift_mid h p r k)

/-- The host's sum of an `[a, b, c]` array along axis 1 from an initial value, at `(p, r)`: the initial value plus the
    sum over the middle coordinate. -/
theorem hostMidSum_apply {a b c : ℕ} {φ : FTy} {u : Shape} (x : FVec Ideal ⟨3, ![a, b, c]⟩ φ) (init : u.Idx → Ideal φ)
    (h' : (⟨3, ![a, b, c]⟩ : Shape).ReducesTo [1] ⟨2, ![a, c]⟩) (h : (⟨3, ![a, b, c]⟩ : Shape).Reduces [1] ⟨2, ![a, c]⟩)
    (hu : 0 < u.numel) (p : Fin a) (r : Fin c) :
    Host.reduceAdd x init h' hu (ix2 p r) = init (Shape.Idx.first hu) + ∑ k : Fin b, x (ix3 p k r) := by
  rw [hostReduceAdd_apply, Ideal.hostReduceAdd_single h' h]
  exact congrArg _ (Finset.sum_congr rfl fun k _ => congrArg x (lift_mid h p r k))

end Cert.LibKeepdims

end
-- ==== Proof.FeatRead.lean ====
/-
  The two packed feature arrays of the host program, read at an index.

  The first array has five columns: four value columns, each a vector of length 8388608 viewed as a column [8388608, 1]
  by a broadcast along a new unit axis, laid side by side into [8388608, 4], and then a fifth column, a vector cast to
  [8388608, 1], appended on the right. The second array has two columns, both vectors cast to [8388608, 1]. A
  concatenation along axis 1 read at (e, c) is the piece whose span of columns holds c, read at (e, c less the columns
  before that piece); a column [8388608, 1] made from a vector, by broadcast or by cast, read at (e, 0) is the vector at e.
  So column c of row e of either array is entry e of the vector that column was made from.
-/
import proofs.«159445_j35751307771970_2_alg».proof.KernelIdeal
import Idealize.ShloMosaic.Lib.Pipeline.Value
import Idealize.ShloMosaic.Lib.ValueIdx
import Idealize.ShloMosaic.Lib.ValueLayout
import proofs.«159445_j35751307771970_2_alg».proof.Proof.LibKeepdims

noncomputable section

namespace Cert.FeatRead

open Cert.KernelIdeal Idealize.ShloMosaic Idealize.ShloMosaic.ValueIdx
open Cert.KernelIdeal.Facts₀ Cert.KernelIdeal.Facts

variable [Cert.KernelIdeal.Facts] {α : Type}

/-! ## The pieces read at an index -/

/-- A vector broadcast to a column, at row `e`, is the vector at `e`. -/
theorem col_bcast (x : S8388608.Idx → α) (e : Fin 8388608) :
    broadcastInDim S8388608x1 ![0] bcast_S8388608_S8388608x1_0 x (ix2 e (0 : Fin 1)) = x (ix1 e) :=
  Cert.LibKeepdims.broadcastInDim_a_a1_apply bcast_S8388608_S8388608x1_0 x e 0

/-- A vector cast to a column, at row `e`, is the vector at `e`. -/
theorem col_cast (x : S8388608.Idx → α) (e : Fin 8388608) :
    shapeCast S8388608x1 x shapeCasts_S8388608_S8388608x1 (ix2 e (0 : Fin 1)) = x (ix1 e) :=
  Cert.LibKeepdims.shapeCast_a_a1_apply x shapeCasts_S8388608_S8388608x1 e 0

/-- Four columns side by side, read in column `k`: the `k`-th column at the same row. The columns before it are `k`
    unit columns, so the coordinate inside the piece is `0`. -/
theorem four_cols (x0 x1 x2 x3 : S8388608x1.Idx → α) (e : Fin 8388608) :
    concatenate S8388608x4 1 [⟨S8388608x1, x0⟩, ⟨S8388608x1, x1⟩, ⟨S8388608x1, x2⟩, ⟨S8388608x1, x3⟩]
        concatenates_S8388608x1_S8388608x1_S8388608x1_S8388608x1_S8388608x4_d1 (ix2 e (0 : Fin 4)) = x0 (ix2 e (0 : Fin 1))
    ∧ concatenate S8388608x4 1 [⟨S8388608x1, x0⟩, ⟨S8388608x1, x1⟩, ⟨S8388608x1, x2⟩, ⟨S8388608x1, x3⟩]
        concatenates_S8388608x1_S8388608x1_S8388608x1_S8388608x1_S8388608x4_d1 (ix2 e (1 : Fin 4)) = x1 (ix2 e (0 : Fin 1))
    ∧ concatenate S8388608x4 1 [⟨S8388608x1, x0⟩, ⟨S8388608x1, x1⟩, ⟨S8388608x1, x2⟩, ⟨S8388608x1, x3⟩]
        concatenates_S8388608x1_S8388608x1_S8388608x1_S8388608x1_S8388608x4_d1 (ix2 e (2 : Fin 4)) = x2 (ix2 e (0 : Fin 1))
    ∧ concatenate S8388608x4 1 [⟨S8388608x1, x0⟩, ⟨S8388608x1, x1⟩, ⟨S8388608x1, x2⟩, ⟨S8388608x1, x3⟩]
        concatenates_S8388608x1_S8388608x1_S8388608x1_S8388608x1_S8388608x4_d1 (ix2 e (3 : Fin 4)) = x3 (ix2 e (0 : Fin 1)) := by
  have off : ∀ (c : Fin 4) (b : Fin S8388608x1.rank), b.cast (rfl : S8388608x1.rank = S8388608x4.rank) ≠ (1 : Fin S8388608x4.rank) →
      ((ix2 e (0 : Fin 1) : S8388608x1.Idx) b).val = ((ix2 e c : S8388608x4.Idx) (b.cast rfl)).val := fun c b hb => by
    match b with
    | ⟨0, _⟩ => rfl
    | ⟨1, _⟩ => exact absurd rfl hb
  refine ⟨?_, ?_, ?_, ?_⟩
  · exact concatenate_apply_piece (1 : Fin S8388608x4.rank) [⟨S8388608x1, x0⟩, ⟨S8388608x1, x1⟩, ⟨S8388608x1, x2⟩, ⟨S8388608x1, x3⟩]
      concatenates_S8388608x1_S8388608x1_S8388608x1_S8388608x1_S8388608x4_d1 (ix2 e (0 : Fin 4)) 0 (by simp) S8388608x1 x0 rfl rfl
      0 rfl (ix2 e (0 : Fin 1)) (off 0) rfl
  · exact concatenate_apply_piece (1 : Fin S8388608x4.rank) [⟨S8388608x1, x0⟩, ⟨S8388608x1, x1⟩, ⟨S8388608x1, x2⟩, ⟨S8388608x1, x3⟩]
      concatenates_S8388608x1_S8388608x1_S8388608x1_S8388608x1_S8388608x4_d1 (ix2 e (1 : Fin 4)) 1 (by simp) S8388608x1 x1 rfl rfl
      1 rfl (ix2 e (0 : Fin 1)) (off 1) rfl
  · exact concatenate_apply_piece (1 : Fin S8388608x4.rank) [⟨S8388608x1, x0⟩, ⟨S8388608x1, x1⟩, ⟨S8388608x1, x2⟩, ⟨S8388608x1, x3⟩]
      concatenates_S8388608x1_S8388608x1_S8388608x1_S8388608x1_S8388608x4_d1 (ix2 e (2 : Fin 4)) 2 (by simp) S8388608x1 x2 rfl rfl
      2 rfl (ix2 e (0 : Fin 1)) (off 2) rfl
  · exact concatenate_apply_piece (1 : Fin S8388608x4.rank) [⟨S8388608x1, x0⟩, ⟨S8388608x1, x1⟩, ⟨S8388608x1, x2⟩, ⟨S8388608x1, x3⟩]
      concatenates_S8388608x1_S8388608x1_S8388608x1_S8388608x1_S8388608x4_d1 (ix2 e (3 : Fin 4)) 3 (by simp) S8388608x1 x3 rfl rfl
      3 rfl (ix2 e (0 : Fin 1)) (off 3) rfl

/-- Four columns and a fifth: a column `c < 4` reads the four-column piece at the same place. -/
theorem five_left (a : S8388608x4.Idx → α) (b : S8388608x1.Idx → α) (e : Fin 8388608) (c : Fin 4) :
    concatenate S8388608x5 1 [⟨S8388608x4, a⟩, ⟨S8388608x1, b⟩] concatenates_S8388608x4_S8388608x1_S8388608x5_d1
      (ix2 e (Fin.castLE (by decide : 4 ≤ 5) c)) = a (ix2 e c) :=
  concatenate_pair_apply_left (1 : Fin S8388608x5.rank) a b concatenates_S8388608x4_S8388608x1_S8388608x5_d1
    (ix2 e (Fin.castLE (by decide : 4 ≤ 5) c)) rfl (ix2 e c) fun d => by
      match d with
      | ⟨0, _⟩ => rfl
      | ⟨1, _⟩ => rfl

/-- Four columns and a fifth: column `4` reads the fifth piece in its only column. -/
theorem five_right (a : S8388608x4.Idx → α) (b : S8388608x1.Idx → α) (e : Fin 8388608) :
    concatenate S8388608x5 1 [⟨S8388608x4, a⟩, ⟨S8388608x1, b⟩] concatenates_S8388608x4_S8388608x1_S8388608x5_d1
      (ix2 e (4 : Fin 5)) = b (ix2 e (0 : Fin 1)) :=
  concatenate_pair_apply_right (1 : Fin S8388608x5.rank) a b concatenates_S8388608x4_S8388608x1_S8388608x5_d1
    (ix2 e (4 : Fin 5)) rfl rfl (ix2 e (0 : Fin 1))
    (fun d hd => by
      match d with
      | ⟨0, _⟩ => rfl
      | ⟨1, _⟩ => exact absurd rfl hd)
    rfl

/-- Two columns: column `0` reads the first piece. -/
theorem two_left (a b : S8388608x1.Idx → α) (e : Fin 8388608) :
    concatenate S8388608x2 1 [⟨S8388608x1, a⟩, ⟨S8388608x1, b⟩] concatenates_S8388608x1_S8388608x1_S8388608x2_d1
      (ix2 e (0 : Fin 2)) = a (ix2 e (0 : Fin 1)) :=
  concatenate_pair_apply_left (1 : Fin S8388608x2.rank) a b concatenates_S8388608x1_S8388608x1_S8388608x2_d1
    (ix2 e (0 : Fin 2)) rfl (ix2 e (0 : Fin 1)) fun d => by
      match d with
      | ⟨0, _⟩ => rfl
      | ⟨1, _⟩ => rfl

/-- Two columns: column `1` reads the second piece in its only column. -/
theorem two_right (a b : S8388608x1.Idx → α) (e : Fin 8388608) :
    concatenate S8388608x2 1 [⟨S8388608x1, a⟩, ⟨S8388608x1, b⟩] concatenates_S8388608x1_S8388608x1_S8388608x2_d1
      (ix2 e (1 : Fin 2)) = b (ix2 e (0 : Fin 1)) :=
  concatenate_pair_apply_right (1 : Fin S8388608x2.rank) a b concatenates_S8388608x1_S8388608x1_S8388608x2_d1
    (ix2 e (1 : Fin 2)) rfl rfl (ix2 e (0 : Fin 1))
    (fun d hd => by
      match d with
      | ⟨0, _⟩ => rfl
      | ⟨1, _⟩ => exact absurd rfl hd)
    rfl

/-! ## The five-column array -/

/-- Four value vectors as columns, then the group-index vector as a fifth column. -/
def feat1 (c0 c1 c2 c3 gf : S8388608.Idx → α) : S8388608x5.Idx → α :=
  concatenate S8388608x5 1
    [⟨S8388608x4, concatenate S8388608x4 1
        [⟨S8388608x1, broadcastInDim S8388608x1 ![0] bcast_S8388608_S8388608x1_0 c0⟩,
         ⟨S8388608x1, broadcastInDim S8388608x1 ![0] bcast_S8388608_S8388608x1_0 c1⟩,
         ⟨S8388608x1, broadcastInDim S8388608x1 ![0] bcast_S8388608_S8388608x1_0 c2⟩,
         ⟨S8388608x1, broadcastInDim S8388608x1 ![0] bcast_S8388608_S8388608x1_0 c3⟩]
        concatenates_S8388608x1_S8388608x1_S8388608x1_S8388608x1_S8388608x4_d1⟩,
     ⟨S8388608x1, shapeCast S8388608x1 gf shapeCasts_S8388608_S8388608x1⟩]
    concatenates_S8388608x4_S8388608x1_S8388608x5_d1

/-- Column 0 of row `e` is the first value vector at `e`. -/
theorem feat1_val (c0 c1 c2 c3 gf : S8388608.Idx → α) (e : Fin 8388608) :
    feat1 c0 c1 c2 c3 gf (ix2 e (0 : Fin 5)) = c0 (ix1 e) :=
  (five_left _ _ e (0 : Fin 4)).trans (((four_cols _ _ _ _ e).1).trans (col_bcast c0 e))

/-- Column 1 of row `e` is the second value vector at `e`. -/
theorem feat1_val_1 (c0 c1 c2 c3 gf : S8388608.Idx → α) (e : Fin 8388608) :
    feat1 c0 c1 c2 c3 gf (ix2 e (1 : Fin 5)) = c1 (ix1 e) :=
  (five_left _ _ e (1 : Fin 4)).trans (((four_cols _ _ _ _ e).2.1).trans (col_bcast c1 e))

/-- Column 2 of row `e` is the third value vector at `e`. -/
theorem feat1_val_2 (c0 c1 c2 c3 gf : S8388608.Idx → α) (e : Fin 8388608) :
    feat1 c0 c1 c2 c3 gf (ix2 e (2 : Fin 5)) = c2 (ix1 e) :=
  (five_left _ _ e (2 : Fin 4)).trans (((four_cols _ _ _ _ e).2.2.1).trans (col_bcast c2 e))

/-- Column 3 of row `e` is the fourth value vector at `e`. -/
theorem feat1_val_3 (c0 c1 c2 c3 gf : S8388608.Idx → α) (e : Fin 8388608) :
    feat1 c0 c1 c2 c3 gf (ix2 e (3 : Fin 5)) = c3 (ix1 e) :=
  (five_left _ _ e (3 : Fin 4)).trans (((four_cols _ _ _ _ e).2.2.2).trans (col_bcast c3 e))

/-- Column 4 of row `e` is the group-index vector at `e`. -/
theorem feat1_gid (c0 c1 c2 c3 gf : S8388608.Idx → α) (e : Fin 8388608) :
    feat1 c0 c1 c2 c3 gf (ix2 e (4 : Fin 5)) = gf (ix1 e) :=
  (five_right _ _ e).trans (col_cast gf e)

/-! ## The two-column array -/

/-- A score vector and the group-index vector as two columns. -/
def feat2 (es gf : S8388608.Idx → α) : S8388608x2.Idx → α :=
  concatenate S8388608x2 1
    [⟨S8388608x1, shapeCast S8388608x1 es shapeCasts_S8388608_S8388608x1⟩,
     ⟨S8388608x1, shapeCast S8388608x1 gf shapeCasts_S8388608_S8388608x1⟩]
    concatenates_S8388608x1_S8388608x1_S8388608x2_d1

/-- Column 0 of row `e` is the score vector at `e`. -/
theorem feat2_val (es gf : S8388608.Idx → α) (e : Fin 8388608) :
    feat2 es gf (ix2 e (0 : Fin 2)) = es (ix1 e) :=
  (two_left _ _ e).trans (col_cast es e)

/-- Column 1 of row `e` is the group-index vector at `e`. -/
theorem feat2_gid (es gf : S8388608.Idx → α) (e : Fin 8388608) :
    feat2 es gf (ix2 e (1 : Fin 2)) = gf (ix1 e) :=
  (two_right _ _ e).trans (col_cast gf e)

end Cert.FeatRead

end
-- ==== Proof.KDefs.lean ====
/-
  The kernel program's host arithmetic between and after the two scatter-sum regions, as named functions of the arrays it
  reads: the column sums of the first region's output added over the two cores, the per-graph scale and mean overlap, the
  rescaled edge stress, and the final mean.
-/
import proofs.«159445_j35751307771970_2_alg».proof.KernelIdeal

noncomputable section

namespace Cert.KernelIdeal.KD

open Cert.KernelIdeal Idealize.ShloMosaic
open Cert.KernelIdeal.Facts₀ Cert.KernelIdeal.Facts

variable {F : FTy → Type} [FloatOps F] [Cert.KernelIdeal.Facts]

/-- The two cores' outputs of the first region added up: [64, 4]. -/
def sums1 (o : FVec F S2x64x4 .f32) : FVec F S64x4 .f32 :=
  Host.reduceAdd o (constant S_ .f32 0x00000000#32) reducesTo_S2x64x4_S64x4_d0 h_S_

/-- One column of the summed output, as a vector over the 64 graphs. -/
def col0 (s : FVec F S64x4 .f32) : FVec F S64 .f32 := shapeCast S64 (extractStridedSlice S64x1 ![0, 0] s slices_S64x4_S64x1_0_0) shapeCasts_S64x1_S64
def col1 (s : FVec F S64x4 .f32) : FVec F S64 .f32 := shapeCast S64 (extractStridedSlice S64x1 ![0, 1] s slices_S64x4_S64x1_0_1) shapeCasts_S64x1_S64
def col2 (s : FVec F S64x4 .f32) : FVec F S64 .f32 := shapeCast S64 (extractStridedSlice S64x1 ![0, 2] s slices_S64x4_S64x1_0_2) shapeCasts_S64x1_S64
def col3 (s : FVec F S64x4 .f32) : FVec F S64 .f32 := shapeCast S64 (extractStridedSlice S64x1 ![0, 3] s slices_S64x4_S64x1_0_3) shapeCasts_S64x1_S64

/-- The per-graph scale: the sum of squared ratios over the sum of ratios. -/
def scale (s : FVec F S64x4 .f32) : FVec F S64 .f32 := Host.divf (col0 s) (col1 s)

/-- The per-graph mean overlap: the overlap sum over the edge count, at least one. -/
def govl (s : FVec F S64x4 .f32) : FVec F S64 .f32 :=
  Host.divf (col2 s) (maximumf (col3 s) (broadcastInDim S64 ![] bcast_S_S64 (constant S_ .f32 0x3F800000#32)))

/-- A graph id with a negative value wrapped by 64, as indexing a 64-entry table does. -/
def wrap64 (x : IVec S8388608 32) : IVec S8388608 32 :=
  select (cmpi .slt x (broadcastInDim S8388608 ![] bcast_S_S8388608 (constantI S_ 32 0#32)))
    (addi x (broadcastInDim S8388608 ![] bcast_S_S8388608 (constantI S_ 32 64#32))) x

/-- The scale of each edge endpoint's graph, spread over the two coordinates. -/
def scaleAt (sc : FVec F S64 .f32) (gid : IVec S8388608 32) : FVec F S8388608x2 .f32 :=
  broadcastInDim S8388608x2 ![0, 1] bcast_S8388608x1_S8388608x2_0_1
    (broadcastInDim S8388608x1 ![0] bcast_S8388608_S8388608x1_0
      (Host.gather gather_S64_S8388608x1_S8388608_n_0_n_n_0_1_1 sc
        (broadcastInDim S8388608x1 ![0] bcast_S8388608_S8388608x1_0 (wrap64 gid))))

/-- The difference of the rescaled endpoint positions. -/
def diff2 (sc : FVec F S64 .f32) (gidS gidE : IVec S8388608 32) (posS posE : FVec F S8388608x2 .f32) : FVec F S8388608x2 .f32 :=
  subf (Host.divf posS (scaleAt sc gidS)) (Host.divf posE (scaleAt sc gidE))

/-- The relative length error of an edge after rescaling: | ‖diff2‖ - d | / d. -/
def relErr (sc : FVec F S64 .f32) (gidS gidE : IVec S8388608 32) (posS posE : FVec F S8388608x2 .f32) (d : FVec F S8388608 .f32) :
    FVec F S8388608 .f32 :=
  Host.divf (Host.absf (subf (Host.sqrt (Host.reduceAdd (mulf (diff2 sc gidS gidE posS posE) (diff2 sc gidS gidE posS posE))
    (constant S_ .f32 0x00000000#32) reducesTo_S8388608x2_S8388608_d1 h_S_)) d)) d

/-- The edge stress: the squared relative length error. -/
def stress (sc : FVec F S64 .f32) (gidS gidE : IVec S8388608 32) (posS posE : FVec F S8388608x2 .f32) (d : FVec F S8388608 .f32) :
    FVec F S8388608 .f32 :=
  mulf (relErr sc gidS gidE posS posE d) (relErr sc gidS gidE posS posE d)

/-- The two cores' outputs of the second region added up, as a vector over the graphs. -/
def gstress (o : FVec F S2x64x1 .f32) : FVec F S64 .f32 :=
  shapeCast S64 (Host.reduceAdd o (constant S_ .f32 0x00000000#32) reducesTo_S2x64x1_S64x1_d0 h_S_) shapeCasts_S64x1_S64

/-- The number of nodes of each graph. -/
def gsizes (batch : IVec S131072 32) : FVec F S64 .f32 :=
  Host.scatterAdd scatter_S64_S131072x1_S131072_n_0_0_1 (broadcastInDim S64 ![] bcast_S_S64 (constant S_ .f32 0x00000000#32))
    (broadcastInDim S131072x1 ![0] bcast_S131072_S131072x1_0 batch)
    (broadcastInDim S131072 ![] bcast_S_S131072 (constant S_ .f32 0x3F800000#32))

/-- The per-graph loss: stress over squared size, plus mean overlap. -/
def combined (gs : FVec F S64 .f32) (sz : FVec F S64 .f32) (ov : FVec F S64 .f32) : FVec F S64 .f32 :=
  addf (Host.divf gs (mulf sz sz)) ov

/-- The result: the mean of the per-graph loss over the 64 graphs. -/
def result (x : FVec F S64 .f32) : FVec F S_ .f32 :=
  Host.divf (Host.reduceAdd x (constant S_ .f32 0x00000000#32) reducesTo_S64_S_d0 h_S_) (constant S_ .f32 0x42800000#32)

end Cert.KernelIdeal.KD

end
-- ==== Proof.KernelIdealFr.KHost.lean ====
/-
  What the kernel program's host operations leave in the buffers the regions and the return read, as the operations'
  composed terms of earlier buffers.  A concatenation keeps its pieces inside dependent pairs; `concat4` and the two-piece
  form restate it with the pieces as plain arguments so that a rewriting pass reaches them.
-/
import proofs.«159445_j35751307771970_2_alg».proof.Proof.KernelIdealFr.Run
import proofs.«159445_j35751307771970_2_alg».proof.Proof.LibConcat2
import proofs.«159445_j35751307771970_2_alg».proof.Proof.FeatRead
import proofs.«159445_j35751307771970_2_alg».proof.Proof.KDefs

set_option maxRecDepth 16384

noncomputable section

namespace Cert.KernelIdeal.Fr

open Cert.KernelIdeal Cert.KernelIdeal.Gen
open Idealize.ShloMosaic Idealize.ShloMosaic.TcCoe Idealize.SL.Sem Idealize.ShloMosaic.StableHlo
open Cert.LibConcat2

variable {F : FTy → Type} [FloatOps F]

/-- Four pieces laid end to end along axis `ax`, the pieces as plain arguments. -/
def concat4 {α : Type} (t : Shape) (ax : Fin t.rank) (s₁ s₂ s₃ s₄ : Shape) (a : s₁.Idx → α) (b : s₂.Idx → α) (c : s₃.Idx → α)
    (d : s₄.Idx → α) (h : Shape.Concatenates [s₁, s₂, s₃, s₄] t ax) : t.Idx → α :=
  concatenate t ax [⟨s₁, a⟩, ⟨s₂, b⟩, ⟨s₃, c⟩, ⟨s₄, d⟩] h

theorem concatenate_quad {α : Type} (t : Shape) (ax : Fin t.rank) (s₁ s₂ s₃ s₄ : Shape) (a : s₁.Idx → α) (b : s₂.Idx → α)
    (c : s₃.Idx → α) (d : s₄.Idx → α) (h : Shape.Concatenates [s₁, s₂, s₃, s₄] t ax) :
    concatenate t ax [⟨s₁, a⟩, ⟨s₂, b⟩, ⟨s₃, c⟩, ⟨s₄, d⟩] h = concat4 t ax s₁ s₂ s₃ s₄ a b c d h := rfl

/-- A fold of host operations at a buffer, rewritten to the operations' composed term, two- and four-piece concatenations included. -/
macro "fold_all" : tactic =>
  `(tactic| (simp (disch := decide) only [Idealize.ShloMosaic.StableHlo.after_cons, Idealize.ShloMosaic.StableHlo.after_nil,
      Idealize.ShloMosaic.StableHlo.nullary_result', Idealize.ShloMosaic.StableHlo.unary_result',
      Idealize.ShloMosaic.StableHlo.binary_result', Idealize.ShloMosaic.StableHlo.ternary_result',
      Idealize.ShloMosaic.StableHlo.quaternary_result', Idealize.ShloMosaic.StableHlo.reshape_result',
      Idealize.ShloMosaic.StableHlo.nary4_result', Idealize.ShloMosaic.StableHlo.nary_result',
      Idealize.ShloMosaic.StableHlo.unaryIndexed_result', Idealize.ShloMosaic.StableHlo.binaryIndexed_result',
      Idealize.ShloMosaic.StableHlo.nullary_result_ne', Idealize.ShloMosaic.StableHlo.unary_result_ne',
      Idealize.ShloMosaic.StableHlo.binary_result_ne', Idealize.ShloMosaic.StableHlo.ternary_result_ne',
      Idealize.ShloMosaic.StableHlo.quaternary_result_ne', Idealize.ShloMosaic.StableHlo.reshape_result_ne',
      Idealize.ShloMosaic.StableHlo.nary_result_ne', Idealize.ShloMosaic.StableHlo.unaryIndexed_result_ne',
      Idealize.ShloMosaic.StableHlo.binaryIndexed_result_ne', Cert.LibConcat2.concatenate_pair,
      Cert.KernelIdeal.Fr.concatenate_quad]))

theorem after_app {τ : Topo} {sig : RefSig} {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons op l ih => simp only [List.cons_append, StableHlo.after_cons, ih]

theorem after_split {τ : Topo} {sig : RefSig} {Val : EltTy → Type} (ops : List (HloOp τ sig Val)) (n : ℕ) (V : Valuation τ sig Val) :
    StableHlo.after ops V = StableHlo.after (ops.drop n) (StableHlo.after (ops.take n) V) := by
  rw [← after_app, List.take_append_drop]

theorem after_take {τ : Topo} {sig : RefSig} {Val : EltTy → Type} (ops : List (HloOp τ sig Val)) (n : ℕ) (V : Valuation τ sig Val)
    (b : DevRef τ sig) (h : ∀ op ∈ ops.drop n, b ∉ op.writes) :
    StableHlo.after (ops.take n) V b = StableHlo.after ops V b := by
  rw [after_split ops n V, StableHlo.after_of_forall_not_mem _ _ h]

variable (m : (ℓ : Loc nD τ sig) → Buf (Elt F) ℓ) (ρ : Dev nD → PrngReg)

/-- None of the listed operations writes the buffer. -/
macro "not_written" ops:ident n:num : tactic =>
  `(tactic| exact List.forall_iff_forall_mem.mp (by
      simp only [$ops:ident, List.drop_succ_cons, List.drop_zero, List.Forall, StableHlo.nullary_writes, StableHlo.unary_writes,
        StableHlo.binary_writes, StableHlo.ternary_writes, StableHlo.quaternary_writes, StableHlo.reshape_writes,
        StableHlo.binaryIndexed_writes, StableHlo.nary_writes, StableHlo.unaryIndexed_writes, Finset.mem_singleton]
      repeat' apply And.intro
      all_goals exact StableHlo.devRef_ne_of_ne (by decide)))

/-- The first feature array: the four value columns and the graph id as a float column. -/
theorem W1_v91 (c : Dev nD) :
    W1 m ρ c (Proc.devRef .tc main_v91)
      = Cert.FeatRead.feat1 (W1 m ρ c (Proc.devRef .tc main_v52)) (W1 m ρ c (Proc.devRef .tc main_v51))
          (W1 m ρ c (Proc.devRef .tc main_v82)) (W1 m ρ c (Proc.devRef .tc main_v83))
          (sitofp .f32 (W1 m ρ c (Proc.devRef .tc main_v10))) := by
  have h52 := after_take hostOps0 104 (W0 m ρ c) (Proc.devRef .tc main_v52) (by not_written hostOps0 104)
  have h51 := after_take hostOps0 104 (W0 m ρ c) (Proc.devRef .tc main_v51) (by not_written hostOps0 104)
  have h82 := after_take hostOps0 104 (W0 m ρ c) (Proc.devRef .tc main_v82) (by not_written hostOps0 104)
  have h83 := after_take hostOps0 104 (W0 m ρ c) (Proc.devRef .tc main_v83) (by not_written hostOps0 104)
  have h10 := after_take hostOps0 104 (W0 m ρ c) (Proc.devRef .tc main_v10) (by not_written hostOps0 104)
  show StableHlo.after hostOps0 (W0 m ρ c) (Proc.devRef .tc main_v91)
      = Cert.FeatRead.feat1 (StableHlo.after hostOps0 (W0 m ρ c) (Proc.devRef .tc main_v52)) (StableHlo.after hostOps0 (W0 m ρ c) (Proc.devRef .tc main_v51))
          (StableHlo.after hostOps0 (W0 m ρ c) (Proc.devRef .tc main_v82)) (StableHlo.after hostOps0 (W0 m ρ c) (Proc.devRef .tc main_v83))
          (sitofp .f32 (StableHlo.after hostOps0 (W0 m ρ c) (Proc.devRef .tc main_v10)))
  rw [← h52, ← h51, ← h82, ← h83, ← h10, after_split hostOps0 104]
  generalize StableHlo.after (List.take 104 hostOps0) (W0 m ρ c) = P
  simp only [hostOps0, List.drop_succ_cons, List.drop_zero]
  fold_all
  rfl

/-- The graph-id column: the start node's graph id as a float, as a column. -/
theorem W1_v90 (c : Dev nD) :
    W1 m ρ c (Proc.devRef .tc main_v90)
      = shapeCast S8388608x1 (sitofp (F := F) .f32 (W1 m ρ c (Proc.devRef .tc main_v10))) shapeCasts_S8388608_S8388608x1 := by
  have h10 := after_take hostOps0 104 (W0 m ρ c) (Proc.devRef .tc main_v10) (by not_written hostOps0 104)
  show StableHlo.after hostOps0 (W0 m ρ c) (Proc.devRef .tc main_v90)
      = shapeCast S8388608x1 (sitofp (F := F) .f32 (StableHlo.after hostOps0 (W0 m ρ c) (Proc.devRef .tc main_v10))) shapeCasts_S8388608_S8388608x1
  rw [← h10, after_split hostOps0 104]
  generalize StableHlo.after (List.take 104 hostOps0) (W0 m ρ c) = P
  simp only [hostOps0, List.drop_succ_cons, List.drop_zero]
  fold_all
  rfl

/-- Region 0 writes only its output array: every other buffer is as the first stretch left it. -/
theorem W2_keep (c : Dev nD) (b : Ref sig .tc) (hb : ∀ w, Pipeline.arrRef spec0 w ≠ b) :
    W2 m ρ c (Proc.devRef .tc b) = W1 m ρ c (Proc.devRef .tc b) := W2_of_ne m ρ c b hb

/-- The mean overlap per graph, from region 0's output. -/
theorem W3_v105 (c : Dev nD) :
    W3 m ρ c (Proc.devRef .tc main_v105) = KD.govl (KD.sums1 (W2 m ρ c (Proc.devRef .tc main_v92))) := by
  show StableHlo.after hostOps1 (W2 m ρ c) (Proc.devRef .tc main_v105) = _
  simp only [hostOps1]
  fold_all
  rfl

/-- The second feature array: the edge stress and the graph id as a float column. -/
theorem W3_v135 (c : Dev nD) :
    W3 m ρ c (Proc.devRef .tc main_v135)
      = Cert.FeatRead.feat2
          (KD.stress (KD.scale (KD.sums1 (W2 m ρ c (Proc.devRef .tc main_v92))))
            (W2 m ρ c (Proc.devRef .tc main_v10)) (W2 m ρ c (Proc.devRef .tc main_v17))
            (W2 m ρ c (Proc.devRef .tc main_v25)) (W2 m ρ c (Proc.devRef .tc main_v32))
            (W2 m ρ c (Proc.devRef .tc main_v18)))
          (sitofp (F := F) .f32 (W1 m ρ c (Proc.devRef .tc main_v10))) := by
  have h90 : W2 m ρ c (Proc.devRef .tc main_v90)
      = shapeCast S8388608x1 (sitofp (F := F) .f32 (W1 m ρ c (Proc.devRef .tc main_v10))) shapeCasts_S8388608_S8388608x1 :=
    (W2_keep m ρ c main_v90 (by decide)).trans (W1_v90 m ρ c)
  show StableHlo.after hostOps1 (W2 m ρ c) (Proc.devRef .tc main_v135) = _
  simp only [hostOps1]
  fold_all
  rw [h90]
  rfl

/-- The result, from region 1's output, the node counts and the mean overlap. -/
theorem W5_v147 (c : Dev nD) :
    W5 m ρ c (Proc.devRef .tc main_v147)
      = KD.result (KD.combined (KD.gstress (W4 m ρ c (Proc.devRef .tc main_v136)))
          (KD.gsizes (W4 m ρ c (Proc.devRef .tc main_arg4))) (W4 m ρ c (Proc.devRef .tc main_v105))) := by
  show StableHlo.after hostOps2 (W4 m ρ c) (Proc.devRef .tc main_v147) = _
  simp only [hostOps2]
  fold_all
  rfl

end Cert.KernelIdeal.Fr

end
-- ==== Proof.KernelIdealFr.Val0.lean ====
/-
  Region 0's output array after the region, as a function of the blocks it read: at each point the body leaves in the output
  block the payload of the point's input block and of what the block held before (zeros at a core's first point), so after a
  core's 512 points the block holds the 512-fold accumulation, and that is what the core's one write-back writes.
-/
import proofs.«159445_j35751307771970_2_alg».proof.Proof.KernelIdealFr.Half0
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt F) ((c : Thread nD τ).loc b))

theorem hzi0 : (![0, 0] : Fin 2 → Nat) = fun _ => 0 := funext fun a => by fin_cases a <;> rfl
theorem hzo0 : (![0, 0, 0] : Fin 3 → Nat) = fun _ => 0 := funext fun a => by fin_cases a <;> rfl

/-- An accumulating point leaves the payload of its input block and of what the output block held. -/
theorem out0_B_eq (c : Dev nD) (i : grid0.Coords) (a2 : Memref sig .tc .vmem S8192x5 .f32) (h2 : a2.IsWhole)
    (a3 : Memref sig .tc .vmem S1x64x4 .f32) (h3 : a3.IsWhole) (hc : ¬cond0 i) (x : Vec F S8192x5 .f32) (xo : Vec F S1x64x4 .f32) :
    out0_B c i a2 h2 a3 h3 hc x xo = k0_pay2 x xo := by
  unfold out0_B
  rw [View.read_writes_eq_canon _ _ _ (cover0_B c i a2 h2 a3 h3 hc x xo)]
  unfold kernelRun0_B
  dsimp only
  sl_unfold_words
  rw [View.canon_unit_zero hzo0]
  simp only [View.readAt_eq_ld, h2.read_unread, h3.read_unread, View.ld_unit_zero (S := S8192x5) hzi0, View.ld_unit_zero (S := S1x64x4) hzo0]

/-- A resetting point leaves the payload of its input block and of the zero block it stored first. -/
theorem out0_A_eq (c : Dev nD) (i : grid0.Coords) (a2 : Memref sig .tc .vmem S8192x5 .f32) (h2 : a2.IsWhole)
    (a3 : Memref sig .tc .vmem S1x64x4 .f32) (h3 : a3.IsWhole) (hc : cond0 i) (x : Vec F S8192x5 .f32) :
    out0_A c i a2 h2 a3 h3 hc x = k0_pay2 x (k0_pay1 (F := F)) := by
  unfold out0_A
  rw [View.read_writes_eq_canon _ _ _ (cover0_A c i a2 h2 a3 h3 hc x)]
  unfold kernelRun0_A
  dsimp only
  sl_unfold_words
  rw [View.canon_cons_unit_zero (S := S1x64x4) hzo0, View.readCov_unit_zero (S := S1x64x4) _ hzo0]
  simp only [View.readAt_eq_ld, h2.read_unread, View.ld_unit_zero (S := S8192x5) hzi0, View.ld_unit_zero (S := S1x64x4) hzo0]

/-- The value a resetting point leaves, and the step an accumulating point makes. -/
def rst0 (c : Dev nD) : (n : ℕ) → n < cfg0.N → Vec F S1x64x4 .f32 :=
  fun n h => k0_pay2 (iblk0 V c 0 ⟨n, h⟩) (k0_pay1 (F := F))
def stp0 (c : Dev nD) : (n : ℕ) → n < cfg0.N → Vec F S1x64x4 .f32 → Vec F S1x64x4 .f32 :=
  fun n h acc => k0_pay2 (iblk0 V c 0 ⟨n, h⟩) acc

theorem outsAt0_reset (c : Dev nD) (n : ℕ) (h : n < cfg0.N) (h0 : n % 512 = 0) : outsAt0 V c n h = rst0 V c n h :=
  (outsAt0_A V c ⟨n, h⟩ h0).trans (out0_A_eq ..)

theorem outsAt0_step (c : Dev nD) (n : ℕ) (h : n + 1 < cfg0.N) (h0 : ¬(n + 1) % 512 = 0) :
    outsAt0 V c (n + 1) h = stp0 V c (n + 1) h (outsAt0 V c n (Nat.lt_of_succ_lt h)) :=
  (outsAt0_B V c ⟨n + 1, h⟩ h0).trans (out0_B_eq ..)

/-- After any point the output block holds the fold over the core's points so far. -/
theorem outsAt0_fold (c : Dev nD) (t : ℕ) (ht : t < cfg0.N) (h' : 512 * (t / 512) + t % 512 < cfg0.N) :
    outsAt0 V c t ht = Pipeline.accAt (rst0 V c) (stp0 V c) (512 * (t / 512)) (t % 512) h' :=
  Pipeline.eq_accAt_of_mod (outsAt0 V c) 512 (rst0 V c) (stp0 V c) (outsAt0_reset V c) (outsAt0_step V c) (by decide) t ht h'

theorem accAt_congr {α : Type*} {N : ℕ} (a : (n : ℕ) → n < N → α) (g : (n : ℕ) → n < N → α → α) {b b' j j' : ℕ}
    (hb : b = b') (hj : j = j') (h : b + j < N) (h' : b' + j' < N) :
    Pipeline.accAt a g b j h = Pipeline.accAt a g b' j' h' := by
  subst hb; subst hj; rfl

/-- Core `k`'s block of the output array after the region: the fold over the core's 512 points. -/
def G0 (c : Dev nD) : Vec F S2x64x4 .f32 := fun i =>
  Pipeline.accAt (rst0 V c) (stp0 V c) (512 * (i 0).val) 511
    (by have h : (i 0).val < 2 := (i 0).isLt
        have hN : cfg0.N = 1024 := N_0
        omega)
    (ix3 (0 : Fin 1) (⟨(i 1).val, (i 1).isLt⟩ : Fin 64) (⟨(i 2).val, (i 2).isLt⟩ : Fin 4))

/-- Where the output window's block sits at each point: core `t / 512`'s slab. -/
theorem idx_out0 : ∀ t : Fin cfg0.N, win0_1.index t (0 : Fin 3) = t.val / 512 ∧ win0_1.index t (1 : Fin 3) = 0 ∧ win0_1.index t (2 : Fin 3) = 0 :=
  (by decide +kernel : ∀ t : Fin grid0.N, win0_1.index t (0 : Fin 3) = t.val / 512 ∧ win0_1.index t (1 : Fin 3) = 0 ∧ win0_1.index t (2 : Fin 3) = 0)

/-- Where the input window's block sits at each point: rows `8192 t … 8192 t + 8191`. -/
theorem idx_in0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

theorem accAt_apply_congr {α ι : Type*} {N : ℕ} (a : (n : ℕ) → n < N → ι → α) (g : (n : ℕ) → n < N → (ι → α) → ι → α) {b b' j j' : ℕ}
    (hb : b = b') (hj : j = j') (h : b + j < N) (h' : b' + j' < N) {x x' : ι} (hx : x = x') :
    Pipeline.accAt a g b j h x = Pipeline.accAt a g b' j' h' x' := by
  subst hb; subst hj; subst hx; rfl

/-- A core's one write-back writes its slab of `G`. -/
theorem flushed_eq0 (c : Dev nD) (t : Fin cfg0.N) (hf : (cfg0.win 1).flush t = true) :
    (dat0 V c).flushed 1 t = ((cfg0.win 1).blk t).view.read (Elt F) (G0 V c) := by
  have hN : cfg0.N = 1024 := N_0
  have h511 : t.val % 512 = 511 := (flush0_1 t).mp hf
  have hlt : t.val < 1024 := lt_of_lt_of_eq t.isLt hN
  obtain ⟨i0, i1, i2⟩ := idx_out0 t
  funext y
  rw [View.read_apply]
  show (dat0 V c).after 1 t ((cfg0.win 1).xinj (grid0.coords t) y) = G0 V c (((cfg0.win 1).blk t).view.emb y)
  rw [after0_1, outsAt0_fold V c t.val t.isLt (by omega)]
  unfold G0
  have hy0lt : (y 0 : ℕ) < 1 := (y 0).isLt
  have hy0 : (y 0 : ℕ) = 0 := by omega
  have e0 : ((((cfg0.win 1).blk t).view.emb y) 0 : ℕ) = t.val / 512 := by
    show win0_1.index t 0 * 1 + 1 * (y 0 : ℕ) = _
    rw [i0, hy0]; omega
  have e1 : ((((cfg0.win 1).blk t).view.emb y) 1 : ℕ) = (y 1 : ℕ) := by
    show win0_1.index t 1 * 64 + 1 * (y 1 : ℕ) = _
    rw [i1]; omega
  have e2 : ((((cfg0.win 1).blk t).view.emb y) 2 : ℕ) = (y 2 : ℕ) := by
    show win0_1.index t 2 * 4 + 1 * (y 2 : ℕ) = _
    rw [i2]; omega
  refine accAt_apply_congr (rst0 V c) (stp0 V c) (by rw [e0]) h511 _ _ ?_
  funext a
  match a with
  | ⟨0, _⟩ => exact Fin.ext hy0
  | ⟨1, _⟩ => exact Fin.ext e1.symm
  | ⟨2, _⟩ => exact Fin.ext e2.symm

theorem mem_blk0 (t : Fin cfg0.N) (i : S2x64x4.Idx) :
    i ∈ ((cfg0.win 1).blk t).view.set ↔ ∀ a : Fin 3, win0_1.index t a * S1x64x4.size a ≤ (i a).val ∧ (i a).val < win0_1.index t a * S1x64x4.size a + S1x64x4.size a := by
  show i ∈ ((View.whole main_v92).slice (win0_1.rect t)).set ↔ _
  rw [View.set_slice_whole, Rect.mem_set_unit]
  exact Iff.rfl

/-- Index `(k, g, j)` lies in core `k`'s slab, written back at point `512 k + 511`. -/
theorem cover0_out (i : S2x64x4.Idx) : ∃ t : Fin cfg0.N, (cfg0.win 1).flush t = true ∧ i ∈ ((cfg0.win 1).blk t).view.set := by
  have hN : cfg0.N = 1024 := N_0
  have hk : (i 0 : ℕ) < 2 := (i 0).isLt
  have hg : (i 1 : ℕ) < 64 := (i 1).isLt
  have hj : (i 2 : ℕ) < 4 := (i 2).isLt
  have hb : 512 * (i 0 : ℕ) + 511 < cfg0.N := by omega
  obtain ⟨i0, i1, i2⟩ := idx_out0 ⟨512 * (i 0 : ℕ) + 511, hb⟩
  have i0' : win0_1.index ⟨512 * (i 0 : ℕ) + 511, hb⟩ (0 : Fin 3) = (i 0 : ℕ) := by rw [i0]; show (512 * (i 0 : ℕ) + 511) / 512 = _; omega
  refine ⟨⟨512 * (i 0 : ℕ) + 511, hb⟩, (flush0_1 _).mpr (by show (512 * (i 0 : ℕ) + 511) % 512 = 511; omega), ?_⟩
  rw [mem_blk0]
  intro a
  match a with
  | ⟨0, _⟩ =>
    show win0_1.index _ (0 : Fin 3) * 1 ≤ (i 0 : ℕ) ∧ (i 0 : ℕ) < win0_1.index _ (0 : Fin 3) * 1 + 1
    rw [i0']; omega
  | ⟨1, _⟩ =>
    show win0_1.index _ (1 : Fin 3) * 64 ≤ (i 1 : ℕ) ∧ (i 1 : ℕ) < win0_1.index _ (1 : Fin 3) * 64 + 64
    rw [i1]; omega
  | ⟨2, _⟩ =>
    show win0_1.index _ (2 : Fin 3) * 4 ≤ (i 2 : ℕ) ∧ (i 2 : ℕ) < win0_1.index _ (2 : Fin 3) * 4 + 4
    rw [i2]; omega

/-- The output array ends at `G`. -/
theorem final0 (c : Dev nD) : (dat0 V c).arrAt 1 cfg0.N = G0 V c :=
  (dat0 V c).arrAt_eq_of_cover 1 (G0 V c) (flushed_eq0 V c) fun i => cover0_out i

/-- A row of the input block at point `t` is row `8192 t + r` of the feature array. -/
theorem iblk0_apply (c : Dev nD) (t : Fin cfg0.N) (y : S8192x5.Idx) :
    (iblk0 V c 0 t : Vec F S8192x5 .f32) y
      = (V c (Pipeline.arrRef spec0 0) : Vec F S8388608x5 .f32) (ix2 (⟨8192 * t.val + (y 0).val, by
          have hN : cfg0.N = 1024 := N_0
          have := t.isLt; have h0 : (y 0 : ℕ) < 8192 := (y 0).isLt; omega⟩ : Fin 8388608) (⟨(y 1).val, (y 1).isLt⟩ : Fin 5)) := by
  obtain ⟨i0, i1⟩ := idx_in0 t
  unfold iblk0
  rw [View.read_apply]
  refine congrArg (V c (Pipeline.arrRef spec0 0)) ?_
  funext a
  apply Fin.ext
  match a with
  | ⟨0, _⟩ => show win0_0.index t 0 * 8192 + 1 * (y 0 : ℕ) = 8192 * t.val + (y 0 : ℕ); rw [i0]; omega
  | ⟨1, _⟩ => show win0_0.index t 1 * 5 + 1 * (y 1 : ℕ) = (y 1 : ℕ); rw [i1]; omega

end Cert.KernelIdeal.Fr

end
-- ==== Proof.KernelIdealFr.Val1.lean ====
/-
  Region 1's output array after the region, as a function of the blocks it read: at each point the body leaves in the output
  block the payload of the point's input block and of what the block held before (zeros at a core's first point), so after a
  core's 512 points the block holds the 512-fold accumulation, and that is what the core's one write-back writes.
-/
import proofs.«159445_j35751307771970_2_alg».proof.Proof.KernelIdealFr.Half1
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt F) ((c : Thread nD τ).loc b))

theorem hzi1 : (![0, 0] : Fin 2 → Nat) = fun _ => 0 := funext fun a => by fin_cases a <;> rfl
theorem hzo1 : (![0, 0, 0] : Fin 3 → Nat) = fun _ => 0 := funext fun a => by fin_cases a <;> rfl

/-- An accumulating point leaves the payload of its input block and of what the output block held. -/
theorem out1_B_eq (c : Dev nD) (i : grid1.Coords) (a2 : Memref sig .tc .vmem S8192x2 .f32) (h2 : a2.IsWhole)
    (a3 : Memref sig .tc .vmem S1x64x1 .f32) (h3 : a3.IsWhole) (hc : ¬cond1 i) (x : Vec F S8192x2 .f32) (xo : Vec F S1x64x1 .f32) :
    out1_B c i a2 h2 a3 h3 hc x xo = k1_pay2 x xo := by
  unfold out1_B
  rw [View.read_writes_eq_canon _ _ _ (cover1_B c i a2 h2 a3 h3 hc x xo)]
  unfold kernelRun1_B
  dsimp only
  sl_unfold_words
  rw [View.canon_unit_zero hzo1]
  simp only [View.readAt_eq_ld, h2.read_unread, h3.read_unread, View.ld_unit_zero (S := S8192x2) hzi1, View.ld_unit_zero (S := S1x64x1) hzo1]

/-- A resetting point leaves the payload of its input block and of the zero block it stored first. -/
theorem out1_A_eq (c : Dev nD) (i : grid1.Coords) (a2 : Memref sig .tc .vmem S8192x2 .f32) (h2 : a2.IsWhole)
    (a3 : Memref sig .tc .vmem S1x64x1 .f32) (h3 : a3.IsWhole) (hc : cond1 i) (x : Vec F S8192x2 .f32) :
    out1_A c i a2 h2 a3 h3 hc x = k1_pay2 x (k1_pay1 (F := F)) := by
  unfold out1_A
  rw [View.read_writes_eq_canon _ _ _ (cover1_A c i a2 h2 a3 h3 hc x)]
  unfold kernelRun1_A
  dsimp only
  sl_unfold_words
  rw [View.canon_cons_unit_zero (S := S1x64x1) hzo1, View.readCov_unit_zero (S := S1x64x1) _ hzo1]
  simp only [View.readAt_eq_ld, h2.read_unread, View.ld_unit_zero (S := S8192x2) hzi1, View.ld_unit_zero (S := S1x64x1) hzo1]

/-- The value a resetting point leaves, and the step an accumulating point makes. -/
def rst1 (c : Dev nD) : (n : ℕ) → n < cfg1.N → Vec F S1x64x1 .f32 :=
  fun n h => k1_pay2 (iblk1 V c 0 ⟨n, h⟩) (k1_pay1 (F := F))
def stp1 (c : Dev nD) : (n : ℕ) → n < cfg1.N → Vec F S1x64x1 .f32 → Vec F S1x64x1 .f32 :=
  fun n h acc => k1_pay2 (iblk1 V c 0 ⟨n, h⟩) acc

theorem outsAt1_reset (c : Dev nD) (n : ℕ) (h : n < cfg1.N) (h0 : n % 512 = 0) : outsAt1 V c n h = rst1 V c n h :=
  (outsAt1_A V c ⟨n, h⟩ h0).trans (out1_A_eq ..)

theorem outsAt1_step (c : Dev nD) (n : ℕ) (h : n + 1 < cfg1.N) (h0 : ¬(n + 1) % 512 = 0) :
    outsAt1 V c (n + 1) h = stp1 V c (n + 1) h (outsAt1 V c n (Nat.lt_of_succ_lt h)) :=
  (outsAt1_B V c ⟨n + 1, h⟩ h0).trans (out1_B_eq ..)

/-- After any point the output block holds the fold over the core's points so far. -/
theorem outsAt1_fold (c : Dev nD) (t : ℕ) (ht : t < cfg1.N) (h' : 512 * (t / 512) + t % 512 < cfg1.N) :
    outsAt1 V c t ht = Pipeline.accAt (rst1 V c) (stp1 V c) (512 * (t / 512)) (t % 512) h' :=
  Pipeline.eq_accAt_of_mod (outsAt1 V c) 512 (rst1 V c) (stp1 V c) (outsAt1_reset V c) (outsAt1_step V c) (by decide) t ht h'

theorem accAt_congr {α : Type*} {N : ℕ} (a : (n : ℕ) → n < N → α) (g : (n : ℕ) → n < N → α → α) {b b' j j' : ℕ}
    (hb : b = b') (hj : j = j') (h : b + j < N) (h' : b' + j' < N) :
    Pipeline.accAt a g b j h = Pipeline.accAt a g b' j' h' := by
  subst hb; subst hj; rfl

/-- Core `k`'s block of the output array after the region: the fold over the core's 512 points. -/
def G1 (c : Dev nD) : Vec F S2x64x1 .f32 := fun i =>
  Pipeline.accAt (rst1 V c) (stp1 V c) (512 * (i 0).val) 511
    (by have h : (i 0).val < 2 := (i 0).isLt
        have hN : cfg1.N = 1024 := N_1
        omega)
    (ix3 (0 : Fin 1) (⟨(i 1).val, (i 1).isLt⟩ : Fin 64) (⟨(i 2).val, (i 2).isLt⟩ : Fin 1))

/-- Where the output window's block sits at each point: core `t / 512`'s slab. -/
theorem idx_out1 : ∀ t : Fin cfg1.N, win1_1.index t (0 : Fin 3) = t.val / 512 ∧ win1_1.index t (1 : Fin 3) = 0 ∧ win1_1.index t (2 : Fin 3) = 0 :=
  (by decide +kernel : ∀ t : Fin grid1.N, win1_1.index t (0 : Fin 3) = t.val / 512 ∧ win1_1.index t (1 : Fin 3) = 0 ∧ win1_1.index t (2 : Fin 3) = 0)

/-- Where the input window's block sits at each point: rows `8192 t … 8192 t + 8191`. -/
theorem idx_in1 : ∀ t : Fin cfg1.N, win1_0.index t (0 : Fin 2) = t.val ∧ win1_0.index t (1 : Fin 2) = 0 :=
  (by decide +kernel : ∀ t : Fin grid1.N, win1_0.index t (0 : Fin 2) = t.val ∧ win1_0.index t (1 : Fin 2) = 0)

theorem accAt_apply_congr {α ι : Type*} {N : ℕ} (a : (n : ℕ) → n < N → ι → α) (g : (n : ℕ) → n < N → (ι → α) → ι → α) {b b' j j' : ℕ}
    (hb : b = b') (hj : j = j') (h : b + j < N) (h' : b' + j' < N) {x x' : ι} (hx : x = x') :
    Pipeline.accAt a g b j h x = Pipeline.accAt a g b' j' h' x' := by
  subst hb; subst hj; subst hx; rfl

/-- A core's one write-back writes its slab of `G`. -/
theorem flushed_eq1 (c : Dev nD) (t : Fin cfg1.N) (hf : (cfg1.win 1).flush t = true) :
    (dat1 V c).flushed 1 t = ((cfg1.win 1).blk t).view.read (Elt F) (G1 V c) := by
  have hN : cfg1.N = 1024 := N_1
  have h511 : t.val % 512 = 511 := (flush1_1 t).mp hf
  have hlt : t.val < 1024 := lt_of_lt_of_eq t.isLt hN
  obtain ⟨i0, i1, i2⟩ := idx_out1 t
  funext y
  rw [View.read_apply]
  show (dat1 V c).after 1 t ((cfg1.win 1).xinj (grid1.coords t) y) = G1 V c (((cfg1.win 1).blk t).view.emb y)
  rw [after1_1, outsAt1_fold V c t.val t.isLt (by omega)]
  unfold G1
  have hy0lt : (y 0 : ℕ) < 1 := (y 0).isLt
  have hy0 : (y 0 : ℕ) = 0 := by omega
  have e0 : ((((cfg1.win 1).blk t).view.emb y) 0 : ℕ) = t.val / 512 := by
    show win1_1.index t 0 * 1 + 1 * (y 0 : ℕ) = _
    rw [i0, hy0]; omega
  have e1 : ((((cfg1.win 1).blk t).view.emb y) 1 : ℕ) = (y 1 : ℕ) := by
    show win1_1.index t 1 * 64 + 1 * (y 1 : ℕ) = _
    rw [i1]; omega
  have e2 : ((((cfg1.win 1).blk t).view.emb y) 2 : ℕ) = (y 2 : ℕ) := by
    show win1_1.index t 2 * 1 + 1 * (y 2 : ℕ) = _
    rw [i2]; omega
  refine accAt_apply_congr (rst1 V c) (stp1 V c) (by rw [e0]) h511 _ _ ?_
  funext a
  match a with
  | ⟨0, _⟩ => exact Fin.ext hy0
  | ⟨1, _⟩ => exact Fin.ext e1.symm
  | ⟨2, _⟩ => exact Fin.ext e2.symm

theorem mem_blk1 (t : Fin cfg1.N) (i : S2x64x1.Idx) :
    i ∈ ((cfg1.win 1).blk t).view.set ↔ ∀ a : Fin 3, win1_1.index t a * S1x64x1.size a ≤ (i a).val ∧ (i a).val < win1_1.index t a * S1x64x1.size a + S1x64x1.size a := by
  show i ∈ ((View.whole main_v136).slice (win1_1.rect t)).set ↔ _
  rw [View.set_slice_whole, Rect.mem_set_unit]
  exact Iff.rfl

/-- Index `(k, g, j)` lies in core `k`'s slab, written back at point `512 k + 511`. -/
theorem cover1_out (i : S2x64x1.Idx) : ∃ t : Fin cfg1.N, (cfg1.win 1).flush t = true ∧ i ∈ ((cfg1.win 1).blk t).view.set := by
  have hN : cfg1.N = 1024 := N_1
  have hk : (i 0 : ℕ) < 2 := (i 0).isLt
  have hg : (i 1 : ℕ) < 64 := (i 1).isLt
  have hj : (i 2 : ℕ) < 1 := (i 2).isLt
  have hb : 512 * (i 0 : ℕ) + 511 < cfg1.N := by omega
  obtain ⟨i0, i1, i2⟩ := idx_out1 ⟨512 * (i 0 : ℕ) + 511, hb⟩
  have i0' : win1_1.index ⟨512 * (i 0 : ℕ) + 511, hb⟩ (0 : Fin 3) = (i 0 : ℕ) := by rw [i0]; show (512 * (i 0 : ℕ) + 511) / 512 = _; omega
  refine ⟨⟨512 * (i 0 : ℕ) + 511, hb⟩, (flush1_1 _).mpr (by show (512 * (i 0 : ℕ) + 511) % 512 = 511; omega), ?_⟩
  rw [mem_blk1]
  intro a
  match a with
  | ⟨0, _⟩ =>
    show win1_1.index _ (0 : Fin 3) * 1 ≤ (i 0 : ℕ) ∧ (i 0 : ℕ) < win1_1.index _ (0 : Fin 3) * 1 + 1
    rw [i0']; omega
  | ⟨1, _⟩ =>
    show win1_1.index _ (1 : Fin 3) * 64 ≤ (i 1 : ℕ) ∧ (i 1 : ℕ) < win1_1.index _ (1 : Fin 3) * 64 + 64
    rw [i1]; omega
  | ⟨2, _⟩ =>
    show win1_1.index _ (2 : Fin 3) * 1 ≤ (i 2 : ℕ) ∧ (i 2 : ℕ) < win1_1.index _ (2 : Fin 3) * 1 + 1
    rw [i2]; omega

/-- The output array ends at `G`. -/
theorem final1 (c : Dev nD) : (dat1 V c).arrAt 1 cfg1.N = G1 V c :=
  (dat1 V c).arrAt_eq_of_cover 1 (G1 V c) (flushed_eq1 V c) fun i => cover1_out i

/-- A row of the input block at point `t` is row `8192 t + r` of the feature array. -/
theorem iblk1_apply (c : Dev nD) (t : Fin cfg1.N) (y : S8192x2.Idx) :
    (iblk1 V c 0 t : Vec F S8192x2 .f32) y
      = (V c (Pipeline.arrRef spec1 0) : Vec F S8388608x2 .f32) (ix2 (⟨8192 * t.val + (y 0).val, by
          have hN : cfg1.N = 1024 := N_1
          have := t.isLt; have h0 : (y 0 : ℕ) < 8192 := (y 0).isLt; omega⟩ : Fin 8388608) (⟨(y 1).val, (y 1).isLt⟩ : Fin 2)) := by
  obtain ⟨i0, i1⟩ := idx_in1 t
  unfold iblk1
  rw [View.read_apply]
  refine congrArg (V c (Pipeline.arrRef spec1 0)) ?_
  funext a
  apply Fin.ext
  match a with
  | ⟨0, _⟩ => show win1_0.index t 0 * 8192 + 1 * (y 0 : ℕ) = 8192 * t.val + (y 0 : ℕ); rw [i0]; omega
  | ⟨1, _⟩ => show win1_0.index t 1 * 2 + 1 * (y 1 : ℕ) = (y 1 : ℕ); rw [i1]; omega

end Cert.KernelIdeal.Fr

end
-- ==== Proof.PayloadRead.lean ====
/-
  The two scatter-sum kernels' stored values read at an index, at the extended reals.

  Each kernel's second store holds, at `(0, g, j)`, the previous value plus two products' entries. Both products
  contract the row axis of a one-hot matrix — entry `(t, g)` is one when row `t`'s id column, converted to a signed
  32-bit integer, equals `g`, else zero — with, for the first, the value columns and, for the second, the value columns
  minus themselves. Read at an index each product is a sum over the 8192 rows of an indicator times a block entry.
  The first store of each kernel writes zero. The conversion of a float to an integer (rounded toward zero and clamped)
  is named `bucketOf`; converting a 32-bit integer to a real and back gives the integer again.
-/
import proofs.«159445_j35751307771970_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-- The graph id a float entry selects: the entry rounded toward zero and clamped to the signed 32-bit range. -/
def bucketOf (y : EReal) : BitVec 32 := Ideal.fptosi 32 y

theorem fptosi_apply {S : Shape} (v : FVec Ideal S .f32) (i : S.Idx) :
    (fptosi (F := Ideal) 32 v) i = bucketOf (v i) := rfl

theorem bucketOf_sitofp (w : BitVec 32) : bucketOf (((w.toInt : ℝ)) : EReal) = w := by
  unfold bucketOf Ideal.fptosi
  rw [Ideal.toIntClamped_coe]
  have hlo := BitVec.le_toInt w
  have hhi := BitVec.toInt_lt (x := w)
  have hfl : (if (0 : ℝ) ≤ (w.toInt : ℝ) then ⌊(w.toInt : ℝ)⌋ else ⌈(w.toInt : ℝ)⌉) = w.toInt := by
    split
    · exact Int.floor_intCast _
    · exact Int.ceil_intCast _
  rw [hfl]
  have h1 : min (((2 ^ (32 - 1) : Nat) : Int) - 1) w.toInt = w.toInt := min_eq_right (by push_cast; omega)
  have h2 : max (-((2 ^ (32 - 1) : Nat) : Int)) w.toInt = w.toInt := max_eq_right (by push_cast; omega)
  rw [h1, h2]
  exact BitVec.ofInt_toInt

theorem fptosi_sitofp {S : Shape} (u : IVec S 32) (i : S.Idx) :
    (fptosi (F := Ideal) 32 (sitofp (F := Ideal) .f32 u)) i = u i := bucketOf_sitofp (u i)

/-- A column `[a, 1]` broadcast to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An equality test of two words, widened and read as a signed integer, is the indicator of equality. -/
theorem indicator_scalar (a b : BitVec 32) :
    ((((IntOp.cmpi .eq a b).setWidth 32).toInt : ℝ) : EReal) = if a = b then (1 : EReal) else 0 := by
  by_cases h : a = b
  · subst h
    rw [if_pos rfl]
    have : ((IntOp.cmpi .eq a a).setWidth 32) = 1#32 := by simp [IntOp.cmpi]
    rw [this]; norm_num
  · rw [if_neg h]
    have hb : (a == b) = false := beq_eq_false_iff_ne.mpr h
    have : ((IntOp.cmpi .eq a b).setWidth 32) = 0#32 := by simp [IntOp.cmpi, hb]
    rw [this]; norm_num

/-- The one-hot matrix of graph ids: entry `(t, g)` is one when row `t`'s id is `g`, else zero (rounding the
    indicator to a narrower format changes nothing at the extended reals). -/
theorem onehot_apply (gid : IVec S8192x1 32) (t : Fin 8192) (g : Fin 64) :
    (truncf (F := Ideal) .bf16 (sitofp .f32 (extui 32 (cmpi .eq (broadcastTo S8192x64 gid broadcasts_S8192x1_S8192x64)
        (iota .tc S8192x64 32 [1] iota_S8192x64_d1_w32)) natLt_1_32)) bitsLt_bf16_f32) (ix2 t g)
      = if gid (ix2 t (0 : Fin 1)) = BitVec.ofNat 32 g.val then (1 : EReal) else 0 := by
  show ((((IntOp.cmpi .eq (broadcastTo S8192x64 gid broadcasts_S8192x1_S8192x64 (ix2 t g))
      (iota .tc S8192x64 32 [1] iota_S8192x64_d1_w32 (ix2 t g))).setWidth 32).toInt : ℝ) : EReal) = _
  rw [broadcastTo_a1_ab_apply, iota_single_apply]
  exact indicator_scalar _ _

/-- The id column of the five-column block: column 4, converted to an integer. -/
theorem gid_apply0 (x : FVec Ideal S8192x5 .f32) (t : Fin 8192) :
    (fptosi (F := Ideal) (φ := .f32) 32 (extractStridedSlice S8192x1 ![0, 4] (shapeCast S8192x5 x shapeCasts_S8192x5_S8192x5)
        slices_S8192x5_o0_4_S8192x1)) (ix2 t (0 : Fin 1)) = bucketOf (x (ix2 t (4 : Fin 5))) :=
  congrArg bucketOf ((slice2_axis1_apply 4 _ _ t (0 : Fin 1) (4 : Fin 5) rfl).trans
    (congrFun (shapeCast_self x _) _))

/-- The value columns of the five-column block: columns 0 to 3. -/
theorem vals_apply0 (x : FVec Ideal S8192x5 .f32) (t : Fin 8192) (j : Fin 4) :
    extractStridedSlice S8192x4 ![0, 0] (shapeCast S8192x5 x shapeCasts_S8192x5_S8192x5) slices_S8192x5_o0_0_S8192x4 (ix2 t j)
      = x (ix2 t (Fin.castLE (by decide) j : Fin 5)) :=
  (slice2_axis1_apply 0 _ _ t j (Fin.castLE (by decide) j : Fin 5) (by simp)).trans
    (congrFun (shapeCast_self x _) _)

/-- The product contracting the row axis of both operands, into the zero accumulator, read at `(g, j)`: the sum over
    the rows `t` of the left operand at `(t, g)` times the right operand at `(t, j)`. -/
theorem matmul_read0 {φ₁ φ₂ : FTy} (A : FVec Ideal S8192x64 φ₁) (B : FVec Ideal S8192x4 φ₂) (g : Fin 64) (j : Fin 4) :
    matmul dot_S8192x64_S8192x4_S64x4_0_0_1_1_n_n none A B (constant S64x4 .f32 0x00000000#32) (ix2 g j)
      = ∑ t : Fin 8192, A (ix2 t g) * B (ix2 t j) := by
  refine (Ideal.matmul_constant_zero_apply _ none A B (ix2 g j)).trans ?_
  rw [← Equiv.sum_comp (contrEquiv1 dot_S8192x64_S8192x4_S64x4_0_0_1_1_n_n 8192 rfl rfl).symm]
  refine Finset.sum_congr rfl fun t _ => ?_
  have hl : dot_S8192x64_S8192x4_S64x4_0_0_1_1_n_n.lhsIdx (ix2 g j)
      ((contrEquiv1 dot_S8192x64_S8192x4_S64x4_0_0_1_1_n_n 8192 rfl rfl).symm t) = ix2 t g := by
    funext a
    match a with
    | ⟨0, _⟩ =>
      refine Fin.ext ?_
      show (dot_S8192x64_S8192x4_S64x4_0_0_1_1_n_n.lhsIdx (ix2 g j)
        ((contrEquiv1 dot_S8192x64_S8192x4_S64x4_0_0_1_1_n_n 8192 rfl rfl).symm t) (0 : Fin 2)).val = t.val
      exact (DotDims.lhsIdx_val_of_single dot_S8192x64_S8192x4_S64x4_0_0_1_1_n_n (cl := (0 : Fin 2)) rfl _ _).trans
        (contrEquiv1_symm_val dot_S8192x64_S8192x4_S64x4_0_0_1_1_n_n 8192 rfl rfl t)
    | ⟨1, _⟩ => exact Fin.ext (by simp [DotDims.lhsIdx, dot_S8192x64_S8192x4_S64x4_0_0_1_1_n_n]; rfl)
  have hr : dot_S8192x64_S8192x4_S64x4_0_0_1_1_n_n.rhsIdx (ix2 g j)
      ((contrEquiv1 dot_S8192x64_S8192x4_S64x4_0_0_1_1_n_n 8192 rfl rfl).symm t) = ix2 t j := by
    funext a
    match a with
    | ⟨0, _⟩ =>
      refine Fin.ext ?_
      show (dot_S8192x64_S8192x4_S64x4_0_0_1_1_n_n.rhsIdx (ix2 g j)
        ((contrEquiv1 dot_S8192x64_S8192x4_S64x4_0_0_1_1_n_n 8192 rfl rfl).symm t) (0 : Fin 2)).val = t.val
      exact (DotDims.rhsIdx_val_of_single dot_S8192x64_S8192x4_S64x4_0_0_1_1_n_n (cr := (0 : Fin 2)) rfl _ _).trans
        (contrEquiv1_symm_val dot_S8192x64_S8192x4_S64x4_0_0_1_1_n_n 8192 rfl rfl t)
    | ⟨1, _⟩ => exact Fin.ext (by simp [DotDims.rhsIdx, dot_S8192x64_S8192x4_S64x4_0_0_1_1_n_n]; rfl)
  rw [hl, hr]

/-- The first store of the four-column kernel writes zero everywhere. -/
theorem pay1_apply0 (i : S1x64x4.Idx) : k0_pay1 (F := Ideal) i = 0 := by
  unfold k0_pay1
  rw [eq_ix3 i]
  refine (shapeCast_ab_1ab_apply _ _ _ _ _).trans ?_
  exact Ideal.ofBits_zero_f32

/-- The second store of the four-column kernel at `(0, g, j)`: the previous value plus the two products' entries, each
    the sum over the rows `t` of the indicator "row `t`'s id is `g`" times, for the first product, the value
    `x (t, j)` and, for the second, the difference `x (t, j) - x (t, j)`. -/
theorem pay2_apply0 (x : Vec Ideal S8192x5 .f32) (prev : Vec Ideal S1x64x4 .f32) (g : Fin 64) (j : Fin 4) :
    k0_pay2 (F := Ideal) x prev (ix3 (0 : Fin 1) g j)
      = prev (ix3 (0 : Fin 1) g j)
        + ((∑ t : Fin 8192, (if bucketOf (x (ix2 t (4 : Fin 5))) = BitVec.ofNat 32 g.val then (1 : EReal) else 0)
              * x (ix2 t (Fin.castLE (by decide) j : Fin 5)))
         + (∑ t : Fin 8192, (if bucketOf (x (ix2 t (4 : Fin 5))) = BitVec.ofNat 32 g.val then (1 : EReal) else 0)
              * (x (ix2 t (Fin.castLE (by decide) j : Fin 5)) - x (ix2 t (Fin.castLE (by decide) j : Fin 5))))) := by
  unfold k0_pay2
  refine (shapeCast_ab_1ab_apply _ _ (0 : Fin 1) g j).trans ?_
  refine (addf_apply _ _ _).trans ?_
  refine congrArg₂ (· + ·) (shapeCast_1ab_ab_apply prev _ g j) ?_
  refine (addf_apply _ _ _).trans ?_
  have hone : ∀ t : Fin 8192,
      (truncf (F := Ideal) .bf16 (sitofp .f32 (extui 32 (cmpi .eq (broadcastTo S8192x64
        (fptosi (F := Ideal) (φ := .f32) 32 (extractStridedSlice S8192x1 ![0, 4]
          (shapeCast S8192x5 x shapeCasts_S8192x5_S8192x5) slices_S8192x5_o0_4_S8192x1))
        broadcasts_S8192x1_S8192x64)
        (iota .tc S8192x64 32 [1] iota_S8192x64_d1_w32)) natLt_1_32)) bitsLt_bf16_f32) (ix2 t g)
      = if bucketOf (x (ix2 t (4 : Fin 5))) = BitVec.ofNat 32 g.val then (1 : EReal) else 0 := fun t => by
    rw [onehot_apply, gid_apply0]
  refine congrArg₂ (· + ·) ?_ ?_
  · refine (matmul_read0 _ _ g j).trans (Finset.sum_congr rfl fun t _ => ?_)
    exact congrArg₂ (· * ·) (hone t) ((truncf_apply (ψ := .bf16) (φ := .f32) _ bitsLt_bf16_f32 _).trans (vals_apply0 x t j))
  · refine (matmul_read0 _ _ g j).trans (Finset.sum_congr rfl fun t _ => ?_)
    refine congrArg₂ (· * ·) (hone t) ((truncf_apply (ψ := .bf16) (φ := .f32) _ bitsLt_bf16_f32 _).trans ?_)
    refine (subf_apply _ _ _).trans ?_
    rw [vals_apply0]

/-! ## The one-column kernel -/

/-- The id column of the two-column block: column 1, converted to an integer. -/
theorem gid_apply1 (x : FVec Ideal S8192x2 .f32) (t : Fin 8192) :
    (fptosi (F := Ideal) (φ := .f32) 32 (extractStridedSlice S8192x1 ![0, 1] (shapeCast S8192x2 x shapeCasts_S8192x2_S8192x2)
        slices_S8192x2_o0_1_S8192x1)) (ix2 t (0 : Fin 1)) = bucketOf (x (ix2 t (1 : Fin 2))) :=
  congrArg bucketOf ((slice2_axis1_apply 1 _ _ t (0 : Fin 1) (1 : Fin 2) rfl).trans
    (congrFun (shapeCast_self x _) _))

/-- The value column of the two-column block: column 0. -/
theorem vals_apply1 (x : FVec Ideal S8192x2 .f32) (t : Fin 8192) :
    extractStridedSlice S8192x1 ![0, 0] (shapeCast S8192x2 x shapeCasts_S8192x2_S8192x2) slices_S8192x2_o0_0_S8192x1
        (ix2 t (0 : Fin 1))
      = x (ix2 t (0 : Fin 2)) :=
  (slice2_axis1_apply 0 _ _ t (0 : Fin 1) (0 : Fin 2) rfl).trans (congrFun (shapeCast_self x _) _)

/-- The product contracting the row axis of both operands, into the zero accumulator, read at `(g, 0)`: the sum over
    the rows `t` of the left operand at `(t, g)` times the right operand at `(t, 0)`. -/
theorem matmul_read1 {φ₁ φ₂ : FTy} (A : FVec Ideal S8192x64 φ₁) (B : FVec Ideal S8192x1 φ₂) (g : Fin 64) (j : Fin 1) :
    matmul dot_S8192x64_S8192x1_S64x1_0_0_1_1_n_n none A B (constant S64x1 .f32 0x00000000#32) (ix2 g j)
      = ∑ t : Fin 8192, A (ix2 t g) * B (ix2 t j) := by
  refine (Ideal.matmul_constant_zero_apply _ none A B (ix2 g j)).trans ?_
  rw [← Equiv.sum_comp (contrEquiv1 dot_S8192x64_S8192x1_S64x1_0_0_1_1_n_n 8192 rfl rfl).symm]
  refine Finset.sum_congr rfl fun t _ => ?_
  have hl : dot_S8192x64_S8192x1_S64x1_0_0_1_1_n_n.lhsIdx (ix2 g j)
      ((contrEquiv1 dot_S8192x64_S8192x1_S64x1_0_0_1_1_n_n 8192 rfl rfl).symm t) = ix2 t g := by
    funext a
    match a with
    | ⟨0, _⟩ =>
      refine Fin.ext ?_
      show (dot_S8192x64_S8192x1_S64x1_0_0_1_1_n_n.lhsIdx (ix2 g j)
        ((contrEquiv1 dot_S8192x64_S8192x1_S64x1_0_0_1_1_n_n 8192 rfl rfl).symm t) (0 : Fin 2)).val = t.val
      exact (DotDims.lhsIdx_val_of_single dot_S8192x64_S8192x1_S64x1_0_0_1_1_n_n (cl := (0 : Fin 2)) rfl _ _).trans
        (contrEquiv1_symm_val dot_S8192x64_S8192x1_S64x1_0_0_1_1_n_n 8192 rfl rfl t)
    | ⟨1, _⟩ => exact Fin.ext (by simp [DotDims.lhsIdx, dot_S8192x64_S8192x1_S64x1_0_0_1_1_n_n]; rfl)
  have hr : dot_S8192x64_S8192x1_S64x1_0_0_1_1_n_n.rhsIdx (ix2 g j)
      ((contrEquiv1 dot_S8192x64_S8192x1_S64x1_0_0_1_1_n_n 8192 rfl rfl).symm t) = ix2 t j := by
    funext a
    match a with
    | ⟨0, _⟩ =>
      refine Fin.ext ?_
      show (dot_S8192x64_S8192x1_S64x1_0_0_1_1_n_n.rhsIdx (ix2 g j)
        ((contrEquiv1 dot_S8192x64_S8192x1_S64x1_0_0_1_1_n_n 8192 rfl rfl).symm t) (0 : Fin 2)).val = t.val
      exact (DotDims.rhsIdx_val_of_single dot_S8192x64_S8192x1_S64x1_0_0_1_1_n_n (cr := (0 : Fin 2)) rfl _ _).trans
        (contrEquiv1_symm_val dot_S8192x64_S8192x1_S64x1_0_0_1_1_n_n 8192 rfl rfl t)
    | ⟨1, _⟩ => exact Fin.ext (by simp [DotDims.rhsIdx, dot_S8192x64_S8192x1_S64x1_0_0_1_1_n_n])
  rw [hl, hr]

/-- The first store of the one-column kernel writes zero everywhere. -/
theorem pay1_apply1 (i : S1x64x1.Idx) : k1_pay1 (F := Ideal) i = 0 := by
  unfold k1_pay1
  rw [eq_ix3 i]
  refine (shapeCast_ab_1ab_apply _ _ _ _ _).trans ?_
  exact Ideal.ofBits_zero_f32

/-- The second store of the one-column kernel at `(0, g, 0)`: the previous value plus the two products' entries, each
    the sum over the rows `t` of the indicator "row `t`'s id is `g`" times, for the first product, the value
    `x (t, 0)` and, for the second, the difference `x (t, 0) - x (t, 0)`. -/
theorem pay2_apply1 (x : Vec Ideal S8192x2 .f32) (prev : Vec Ideal S1x64x1 .f32) (g : Fin 64) :
    k1_pay2 (F := Ideal) x prev (ix3 (0 : Fin 1) g (0 : Fin 1))
      = prev (ix3 (0 : Fin 1) g (0 : Fin 1))
        + ((∑ t : Fin 8192, (if bucketOf (x (ix2 t (1 : Fin 2))) = BitVec.ofNat 32 g.val then (1 : EReal) else 0)
              * x (ix2 t (0 : Fin 2)))
         + (∑ t : Fin 8192, (if bucketOf (x (ix2 t (1 : Fin 2))) = BitVec.ofNat 32 g.val then (1 : EReal) else 0)
              * (x (ix2 t (0 : Fin 2)) - x (ix2 t (0 : Fin 2))))) := by
  unfold k1_pay2
  refine (shapeCast_ab_1ab_apply _ _ (0 : Fin 1) g (0 : Fin 1)).trans ?_
  refine (addf_apply _ _ _).trans ?_
  refine congrArg₂ (· + ·) (shapeCast_1ab_ab_apply prev _ g (0 : Fin 1)) ?_
  refine (addf_apply _ _ _).trans ?_
  have hone : ∀ t : Fin 8192,
      (truncf (F := Ideal) .bf16 (sitofp .f32 (extui 32 (cmpi .eq (broadcastTo S8192x64
        (fptosi (F := Ideal) (φ := .f32) 32 (extractStridedSlice S8192x1 ![0, 1]
          (shapeCast S8192x2 x shapeCasts_S8192x2_S8192x2) slices_S8192x2_o0_1_S8192x1))
        broadcasts_S8192x1_S8192x64)
        (iota .tc S8192x64 32 [1] iota_S8192x64_d1_w32)) natLt_1_32)) bitsLt_bf16_f32) (ix2 t g)
      = if bucketOf (x (ix2 t (1 : Fin 2))) = BitVec.ofNat 32 g.val then (1 : EReal) else 0 := fun t => by
    rw [onehot_apply, gid_apply1]
  refine congrArg₂ (· + ·) ?_ ?_
  · refine (matmul_read1 _ _ g (0 : Fin 1)).trans (Finset.sum_congr rfl fun t _ => ?_)
    exact congrArg₂ (· * ·) (hone t)
      ((truncf_apply (ψ := .bf16) (φ := .f32) _ bitsLt_bf16_f32 _).trans (vals_apply1 x t))
  · refine (matmul_read1 _ _ g (0 : Fin 1)).trans (Finset.sum_congr rfl fun t _ => ?_)
    refine congrArg₂ (· * ·) (hone t) ((truncf_apply (ψ := .bf16) (φ := .f32) _ bitsLt_bf16_f32 _).trans ?_)
    refine (subf_apply _ _ _).trans ?_
    rw [vals_apply1]

end Cert.KernelIdeal.Pay
-- ==== Proof.LibHiLoSplit.lean ====
/-
  The bf16 "high part plus low part" split of a 0/1-weighted sum, read at the extended reals.

  A kernel that scatters values into buckets through the matrix unit often feeds it a value `v` twice: once rounded
  to bf16 (the high part) and once as the remainder `v - bf16(v)` rounded again (the low part), and adds the two
  products.  At the extended reals a change of format is the identity, so the high part is `v` itself and the low
  part is `v - v`: zero for every real `v`, but `⊥` for `v = ⊤` and for `v = ⊥` (the conventions `⊤ - ⊤ = ⊥`,
  `⊥ - ⊥ = ⊥`).  The lemmas below say when the split sum is the plain sum: whenever no selected value is `⊤`.
  A selected `⊥` does no harm, because it already makes the plain sum `⊥`, and `⊥` absorbs every other summand.
-/
import Idealize.ShloMosaic.PureOps.Ideal

noncomputable section

namespace Cert.Lib.HiLoSplit

open scoped BigOperators

/-- A real number minus itself is zero in the extended reals. -/
theorem coe_sub_self (r : ℝ) : ((r : EReal) - (r : EReal)) = 0 := by
  rw [← EReal.coe_sub, sub_self, EReal.coe_zero]

/-- An extended real that is neither infinity, minus itself, is zero. -/
theorem sub_self_of_ne {x : EReal} (ht : x ≠ ⊤) (hb : x ≠ ⊥) : x - x = 0 := by
  obtain ⟨r, rfl⟩ : ∃ r : ℝ, x = r := ⟨x.toReal, (EReal.coe_toReal ht hb).symm⟩
  exact coe_sub_self r

/-- A finite sum with a `⊥` summand is `⊥`: the bottom absorbs under addition, whatever the other summands are. -/
theorem sum_eq_bot_of_mem {ι : Type*} (s : Finset ι) (f : ι → EReal) (i : ι) (hi : i ∈ s) (h : f i = ⊥) :
    ∑ j ∈ s, f j = ⊥ := by
  classical
  rw [← Finset.add_sum_erase s f hi, h, EReal.bot_add]

/-- A 0/1 weight times a value: the value where the weight is one, zero where it is zero. -/
theorem ite_one_zero_mul (p : Prop) [Decidable p] (x : EReal) : (if p then (1 : EReal) else 0) * x = if p then x else 0 := by
  split_ifs <;> simp

/-- A 0/1-weighted sum is the sum over the selected indices. -/
theorem sum_ite_mul_eq_sum_filter {ι : Type*} (s : Finset ι) (p : ι → Prop) [DecidablePred p] (v : ι → EReal) :
    ∑ i ∈ s, (if p i then (1 : EReal) else 0) * v i = ∑ i ∈ s.filter p, v i := by
  rw [Finset.sum_filter]
  exact Finset.sum_congr rfl fun i _ => ite_one_zero_mul (p i) (v i)

/-- **The split sum is the plain sum.**  With 0/1 weights `w`, if no selected value is `⊤`, then the weighted sum of
    the values plus the weighted sum of the remainders `v - v` is the weighted sum of the values. -/
theorem split_sum_eq {ι : Type*} (s : Finset ι) (w v : ι → EReal)
    (hw : ∀ i ∈ s, w i = 0 ∨ w i = 1) (hv : ∀ i ∈ s, w i = 1 → v i ≠ ⊤) :
    (∑ i ∈ s, w i * v i) + (∑ i ∈ s, w i * (v i - v i)) = ∑ i ∈ s, w i * v i := by
  classical
  by_cases hb : ∃ i ∈ s, w i = 1 ∧ v i = ⊥
  · obtain ⟨i, hi, hwi, hvi⟩ := hb
    have hsum : ∑ j ∈ s, w j * v j = ⊥ :=
      sum_eq_bot_of_mem s (fun j => w j * v j) i hi (by show w i * v i = ⊥; rw [hwi, hvi, one_mul])
    rw [hsum, EReal.bot_add]
  · have hz : ∑ i ∈ s, w i * (v i - v i) = 0 := by
      refine Finset.sum_eq_zero fun i hi => ?_
      rcases hw i hi with h0 | h1
      · rw [h0, zero_mul]
      · have hne_bot : v i ≠ ⊥ := fun h => hb ⟨i, hi, h1, h⟩
        rw [sub_self_of_ne (hv i hi h1) hne_bot, mul_zero]
    rw [hz, add_zero]

/-- The same with the weights given by a decidable predicate: the sum over the selected indices. -/
theorem split_sum_ite_eq {ι : Type*} (s : Finset ι) (p : ι → Prop) [DecidablePred p] (v : ι → EReal)
    (hv : ∀ i ∈ s, p i → v i ≠ ⊤) :
    (∑ i ∈ s, (if p i then (1 : EReal) else 0) * v i) + (∑ i ∈ s, (if p i then (1 : EReal) else 0) * (v i - v i))
      = ∑ i ∈ s.filter p, v i := by
  rw [split_sum_eq s (fun i => if p i then (1 : EReal) else 0) v
    (fun i _ => by by_cases h : p i <;> simp [h])
    (fun i hi h1 => hv i hi (by by_contra hn; simp [hn] at h1))]
  exact sum_ite_mul_eq_sum_filter s p v

end Cert.Lib.HiLoSplit

end
-- ==== Proof.LibIdealReal.lean ====
/-
  Which extended reals are real numbers, through the exact float operations.

  At the extended reals a float operation is the textbook one, with stated conventions at the corners.  A value claim
  that uses a law valid only on real numbers (here: x - x = 0) has to know that the values it is applied to are real.
  These lemmas carry realness through sums, products, differences, maxima, absolute values, square roots and quotients:

  * a quotient x / y with x real is real as soon as y ≠ 0 — a nonzero real divisor gives the real quotient, an infinite
    divisor gives 0 (the inverse of an infinity is 0);
  * a quotient of reals is never +∞ unless the divisor is 0 and the dividend positive;
  * the quotient (Σ r²) / (Σ r) of a finite family of reals is never 0: if the divisor is nonzero then some r is
    nonzero and the sum of squares is positive, and if the divisor is 0 the quotient is an infinity.
-/
import Idealize.ShloMosaic.PureOps.Ideal

noncomputable section

namespace Cert.Lib.IdealReal

open scoped BigOperators
open Idealize.ShloMosaic

/-- An extended real that is a real number. -/
def IsReal (x : EReal) : Prop := ∃ r : ℝ, x = (r : EReal)

theorem isReal_coe (r : ℝ) : IsReal (r : EReal) := ⟨r, rfl⟩
theorem isReal_zero : IsReal (0 : EReal) := ⟨0, EReal.coe_zero.symm⟩
theorem isReal_one : IsReal (1 : EReal) := ⟨1, EReal.coe_one.symm⟩

theorem IsReal.ne_top {x : EReal} (h : IsReal x) : x ≠ ⊤ := by
  obtain ⟨r, rfl⟩ := h; exact EReal.coe_ne_top r

theorem IsReal.ne_bot {x : EReal} (h : IsReal x) : x ≠ ⊥ := by
  obtain ⟨r, rfl⟩ := h; exact EReal.coe_ne_bot r

theorem isReal_of_ne {x : EReal} (ht : x ≠ ⊤) (hb : x ≠ ⊥) : IsReal x :=
  ⟨x.toReal, (EReal.coe_toReal ht hb).symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.neg {x : EReal} (hx : IsReal x) : IsReal (-x) := by
  obtain ⟨a, rfl⟩ := hx; exact ⟨-a, (EReal.coe_neg a).symm⟩

theorem IsReal.max {x y : EReal} (hx : IsReal x) (hy : IsReal y) : IsReal (max x y) := by
  rcases max_choice x y with h | h <;> rw [h] <;> assumption

/-- The absolute value `max x (-x)` of a real is real. -/
theorem IsReal.abs {x : EReal} (hx : IsReal x) : IsReal (Max.max x (-x)) := hx.max hx.neg

theorem isReal_sum {ι : Type*} (s : Finset ι) (f : ι → EReal) (h : ∀ i ∈ s, IsReal (f i)) :
    IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- The coercion of a finite real sum is the sum of the coercions. -/
theorem coe_finset_sum {ι : Type*} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- The square root of a nonnegative real is real. -/
theorem sqrt_isReal {x : EReal} (hx : IsReal x) (h0 : 0 ≤ x) : IsReal (Ideal.sqrt x) := by
  obtain ⟨a, rfl⟩ := hx
  have ha : ¬ a < 0 := not_lt.2 (by exact_mod_cast h0)
  rw [Ideal.sqrt_coe, if_neg ha]
  exact isReal_coe _

/-- The square root of a nonnegative real is nonnegative. -/
theorem sqrt_nonneg {x : EReal} (hx : IsReal x) (h0 : 0 ≤ x) : 0 ≤ Ideal.sqrt x := by
  obtain ⟨a, rfl⟩ := hx
  have ha : ¬ a < 0 := not_lt.2 (by exact_mod_cast h0)
  rw [Ideal.sqrt_coe, if_neg ha]
  exact_mod_cast Real.sqrt_nonneg a

/-- **A real divided by anything but zero is real**: by a nonzero real it is the real quotient, by an infinity it is 0. -/
theorem div_isReal {x y : EReal} (hx : IsReal x) (hy : y ≠ 0) : IsReal (Ideal.div x y) := by
  obtain ⟨a, rfl⟩ := hx
  unfold Ideal.div
  rw [if_neg hy]
  induction y using EReal.rec with
  | bot => rw [EReal.inv_bot, mul_zero]; exact isReal_zero
  | coe b => rw [← EReal.coe_inv, ← EReal.coe_mul]; exact isReal_coe _
  | top => rw [EReal.inv_top, mul_zero]; exact isReal_zero

/-- A quotient whose dividend is not positive when the divisor vanishes, and is real otherwise, is never `⊤`. -/
theorem div_ne_top {x y : EReal} (hx : IsReal x) (h : y = 0 → x ≤ 0) : Ideal.div x y ≠ ⊤ := by
  by_cases hy : y = 0
  · unfold Ideal.div
    rw [if_pos hy, if_neg (not_lt.2 (h hy))]
    exact bot_ne_top
  · exact (div_isReal hx hy).ne_top

/-- A sum of squares of reals that vanishes makes the sum of the reals vanish. -/
theorem sum_eq_zero_of_sum_sq_eq_zero {ι : Type*} (s : Finset ι) (r : ι → ℝ) (h : ∑ i ∈ s, r i * r i = 0) :
    ∑ i ∈ s, r i = 0 := by
  have hz : ∀ i ∈ s, r i * r i = 0 :=
    (Finset.sum_eq_zero_iff_of_nonneg fun i _ => mul_self_nonneg (r i)).1 h
  exact Finset.sum_eq_zero fun i hi => mul_self_eq_zero.1 (hz i hi)

/-- **The quotient (Σ r²) / (Σ r) of finitely many reals is never zero.** -/
theorem div_sum_sq_sum_ne_zero {ι : Type*} (s : Finset ι) (r : ι → ℝ) :
    Ideal.div (∑ i ∈ s, ((r i : EReal) * (r i : EReal))) (∑ i ∈ s, (r i : EReal)) ≠ 0 := by
  have hA : (∑ i ∈ s, ((r i : EReal) * (r i : EReal))) = ((∑ i ∈ s, r i * r i : ℝ) : EReal) := by
    rw [coe_finset_sum]; exact Finset.sum_congr rfl fun i _ => (EReal.coe_mul _ _).symm
  have hB : (∑ i ∈ s, (r i : EReal)) = ((∑ i ∈ s, r i : ℝ) : EReal) := (coe_finset_sum s r).symm
  rw [hA, hB]
  by_cases hb : (∑ i ∈ s, r i) = 0
  · unfold Ideal.div
    rw [if_pos (by rw [hb, EReal.coe_zero])]
    split_ifs
    · exact EReal.top_ne_zero
    · exact EReal.bot_ne_zero
  · have ha : (∑ i ∈ s, r i * r i) ≠ 0 := fun h => hb (sum_eq_zero_of_sum_sq_eq_zero s r h)
    rw [Ideal.div_coe hb, ← EReal.coe_mul]
    exact_mod_cast mul_ne_zero ha (one_div_ne_zero hb)

end Cert.Lib.IdealReal

end
-- ==== Proof.ScatterLaw.lean ====
/-
  Why the two programs agree once every edge length d is nonzero: the scattered values are never +∞.

  Per edge, with endpoint positions p, q, endpoint sizes s, e (all real) and a real length d ≠ 0, the scattered columns are
    ratio   = ‖p - q‖ / d,            ratio² = ratio · ratio,            1,
    overlap = max(½(s₀+e₀) - |p₀-q₀|, 0) · max(½(s₁+e₁) - |p₁-q₁|, 0) / ((s₀+s₁) + (e₀+e₁)),
    stress  = (|‖p/y - q/z‖ - d| / d)²   with y, z the scales of the endpoints' graphs.
  ratio, ratio² and 1 are real.  The overlap is real when its divisor is nonzero; when the divisor is zero the dividend is zero
  too (a positive overlap area needs ½(s₀+e₀) > 0 and ½(s₁+e₁) > 0, so a positive divisor), and 0/0 is the junk ⊥: never ⊤.
  A graph's scale (Σ ratio²)/(Σ ratio) is never 0 (LibIdealReal), so p/y and q/z are real, and the stress is real.
  With no selected value equal to ⊤, the sum of the values plus the sum of their remainders v - v, selected by a 0/1 weight
  and accumulated block after block, is the plain sum over the selected edges (LibHiLoSplit): the segment sum.
-/
import proofs.«159445_j35751307771970_2_alg».proof.Proof.LibHiLoSplit
import proofs.«159445_j35751307771970_2_alg».proof.Proof.LibIdealReal

noncomputable section

namespace Cert.ScatterLaw

open scoped BigOperators
open Idealize.ShloMosaic Cert.Lib.IdealReal Cert.Lib.HiLoSplit

/-! ## The columns, edge by edge -/

/-- The squared length of a real plane vector, as the host's row sum `0 + (a·a + b·b)`, is real. -/
theorem sumsq_isReal {a b : EReal} (ha : IsReal a) (hb : IsReal b) : IsReal (0 + (a * a + b * b)) :=
  isReal_zero.add ((ha.mul ha).add (hb.mul hb))

/-- and nonnegative. -/
theorem sumsq_nonneg {a b : EReal} (ha : IsReal a) (hb : IsReal b) : 0 ≤ 0 + (a * a + b * b) := by
  obtain ⟨x, rfl⟩ := ha; obtain ⟨y, rfl⟩ := hb
  rw [zero_add, ← EReal.coe_mul, ← EReal.coe_mul, ← EReal.coe_add]
  exact_mod_cast add_nonneg (mul_self_nonneg x) (mul_self_nonneg y)

/-- The length of a real plane vector is real. -/
theorem len_isReal {a b : EReal} (ha : IsReal a) (hb : IsReal b) : IsReal (Ideal.sqrt (0 + (a * a + b * b))) :=
  sqrt_isReal (sumsq_isReal ha hb) (sumsq_nonneg ha hb)

/-- `ratio = ‖p - q‖ / d` is real for real endpoints and `d ≠ 0`. -/
theorem ratio_isReal {px py qx qy d : EReal} (hpx : IsReal px) (hpy : IsReal py) (hqx : IsReal qx) (hqy : IsReal qy)
    (hd0 : d ≠ 0) :
    IsReal (Ideal.div (Ideal.sqrt (0 + ((px - qx) * (px - qx) + (py - qy) * (py - qy)))) d) :=
  div_isReal (len_isReal (hpx.sub hqx) (hpy.sub hqy)) hd0

/-- The edge stress `(|‖p/y - q/z‖ - d| / d)²` is real when the endpoints and `d` are real, `d ≠ 0`, and neither scale is 0
    (the scales themselves may be infinite: a real over an infinity is 0). -/
theorem stress_isReal {px py qx qy y z d : EReal} (hpx : IsReal px) (hpy : IsReal py) (hqx : IsReal qx) (hqy : IsReal qy)
    (hy : y ≠ 0) (hz : z ≠ 0) (hd : IsReal d) (hd0 : d ≠ 0) :
    IsReal ((Ideal.div (Max.max
        (Ideal.sqrt (0 + ((Ideal.div px y - Ideal.div qx z) * (Ideal.div px y - Ideal.div qx z)
          + (Ideal.div py y - Ideal.div qy z) * (Ideal.div py y - Ideal.div qy z))) - d)
        (-(Ideal.sqrt (0 + ((Ideal.div px y - Ideal.div qx z) * (Ideal.div px y - Ideal.div qx z)
          + (Ideal.div py y - Ideal.div qy z) * (Ideal.div py y - Ideal.div qy z))) - d))) d)
      * (Ideal.div (Max.max
        (Ideal.sqrt (0 + ((Ideal.div px y - Ideal.div qx z) * (Ideal.div px y - Ideal.div qx z)
          + (Ideal.div py y - Ideal.div qy z) * (Ideal.div py y - Ideal.div qy z))) - d)
        (-(Ideal.sqrt (0 + ((Ideal.div px y - Ideal.div qx z) * (Ideal.div px y - Ideal.div qx z)
          + (Ideal.div py y - Ideal.div qy z) * (Ideal.div py y - Ideal.div qy z))) - d))) d)) := by
  have hux : IsReal (Ideal.div px y - Ideal.div qx z) := (div_isReal hpx hy).sub (div_isReal hqx hz)
  have huy : IsReal (Ideal.div py y - Ideal.div qy z) := (div_isReal hpy hy).sub (div_isReal hqy hz)
  have hq := div_isReal ((len_isReal hux huy).sub hd).abs hd0
  exact hq.mul hq

/-- The overlap dividend vanishes wherever its divisor does: real arithmetic.  `c` is the positive constant ½. -/
theorem area_nonpos_of_total_eq_zero {s0 s1 e0 e1 dx dy c : ℝ} (hc : 0 < c)
    (h : (s0 + s1) + (e0 + e1) = 0) :
    max ((s0 + e0) * c - max dx (-dx)) 0 * max ((s1 + e1) * c - max dy (-dy)) 0 ≤ 0 := by
  by_contra hpos
  rw [not_le] at hpos
  have hx0 : 0 ≤ max ((s0 + e0) * c - max dx (-dx)) 0 := le_max_right _ _
  have hy0 : 0 ≤ max ((s1 + e1) * c - max dy (-dy)) 0 := le_max_right _ _
  have hx : 0 < max ((s0 + e0) * c - max dx (-dx)) 0 := by
    rcases hx0.lt_or_eq with h1 | h1
    · exact h1
    · rw [← h1, zero_mul] at hpos; exact absurd hpos (lt_irrefl 0)
  have hy : 0 < max ((s1 + e1) * c - max dy (-dy)) 0 := by
    rcases hy0.lt_or_eq with h1 | h1
    · exact h1
    · rw [← h1, mul_zero] at hpos; exact absurd hpos (lt_irrefl 0)
  have hx' : 0 < (s0 + e0) * c - max dx (-dx) := by
    rcases lt_max_iff.1 hx with h1 | h1
    · exact h1
    · exact absurd h1 (lt_irrefl 0)
  have hy' : 0 < (s1 + e1) * c - max dy (-dy) := by
    rcases lt_max_iff.1 hy with h1 | h1
    · exact h1
    · exact absurd h1 (lt_irrefl 0)
  have hax : 0 ≤ max dx (-dx) := by
    rcases le_total 0 dx with h1 | h1
    · exact le_trans h1 (le_max_left _ _)
    · exact le_trans (neg_nonneg.2 h1) (le_max_right _ _)
  have hay : 0 ≤ max dy (-dy) := by
    rcases le_total 0 dy with h1 | h1
    · exact le_trans h1 (le_max_left _ _)
    · exact le_trans (neg_nonneg.2 h1) (le_max_right _ _)
  have h0 : 0 < (s0 + e0) * c := by linarith
  have h1 : 0 < (s1 + e1) * c := by linarith
  have hs0 : 0 < s0 + e0 := by
    by_contra hn; rw [not_lt] at hn
    exact absurd h0 (not_lt.2 (mul_nonpos_of_nonpos_of_nonneg hn hc.le))
  have hs1 : 0 < s1 + e1 := by
    by_contra hn; rw [not_lt] at hn
    exact absurd h1 (not_lt.2 (mul_nonpos_of_nonpos_of_nonneg hn hc.le))
  linarith

/-- **The normalized overlap is never `⊤`**: real where the total size is nonzero, the junk `⊥` (0/0) where it is zero. -/
theorem overlap_ne_top {s0 s1 e0 e1 dx dy c : ℝ} (hc : 0 < c) :
    Ideal.div
      ((Max.max (((s0 : EReal) + (e0 : EReal)) * (c : EReal) - Max.max (dx : EReal) (-(dx : EReal))) 0)
        * (Max.max (((s1 : EReal) + (e1 : EReal)) * (c : EReal) - Max.max (dy : EReal) (-(dy : EReal))) 0))
      ((0 + ((s0 : EReal) + (s1 : EReal))) + (0 + ((e0 : EReal) + (e1 : EReal)))) ≠ ⊤ := by
  have hA : (Max.max (((s0 : EReal) + (e0 : EReal)) * (c : EReal) - Max.max (dx : EReal) (-(dx : EReal))) 0)
        * (Max.max (((s1 : EReal) + (e1 : EReal)) * (c : EReal) - Max.max (dy : EReal) (-(dy : EReal))) 0)
      = ((max ((s0 + e0) * c - max dx (-dx)) 0 * max ((s1 + e1) * c - max dy (-dy)) 0 : ℝ) : EReal) := by
    push_cast
    rfl
  have hB : (0 + ((s0 : EReal) + (s1 : EReal))) + (0 + ((e0 : EReal) + (e1 : EReal)))
      = (((s0 + s1) + (e0 + e1) : ℝ) : EReal) := by
    push_cast
    simp
  rw [hA, hB]
  refine div_ne_top (isReal_coe _) fun h0 => ?_
  have h0' : (s0 + s1) + (e0 + e1) = 0 := by exact_mod_cast h0
  exact_mod_cast area_nonpos_of_total_eq_zero hc h0'

/-! ## The buckets -/

/-- **A bucket of the scatter-sum kernel is the segment sum.**  The edges are indexed by a block `k` and a row `t` of the
    block; `sel k t` says edge `(k, t)` belongs to the bucket; `v k t` is the value it carries.  Each block adds its
    selected values and then their remainders `v - v`; the blocks are added up.  If no selected value is `⊤`, the total
    is the sum of the selected values over all edges. -/
theorem bucket_eq_segment_sum {κ τ : Type*} [Fintype κ] [Fintype τ] (sel : κ → τ → Prop) [∀ k t, Decidable (sel k t)]
    (v : κ → τ → EReal) (hv : ∀ k t, sel k t → v k t ≠ ⊤) :
    (∑ k : κ, ((∑ t : τ, (if sel k t then (1 : EReal) else 0) * v k t)
        + (∑ t : τ, (if sel k t then (1 : EReal) else 0) * (v k t - v k t))))
      = ∑ e ∈ (Finset.univ : Finset (κ × τ)).filter (fun e => sel e.1 e.2), v e.1 e.2 := by
  classical
  rw [Finset.sum_add_distrib]
  have h1 : (∑ k : κ, ∑ t : τ, (if sel k t then (1 : EReal) else 0) * v k t)
      = ∑ e : κ × τ, (if sel e.1 e.2 then (1 : EReal) else 0) * v e.1 e.2 :=
    (Fintype.sum_prod_type' (fun k t => (if sel k t then (1 : EReal) else 0) * v k t)).symm
  have h2 : (∑ k : κ, ∑ t : τ, (if sel k t then (1 : EReal) else 0) * (v k t - v k t))
      = ∑ e : κ × τ, (if sel e.1 e.2 then (1 : EReal) else 0) * (v e.1 e.2 - v e.1 e.2) :=
    (Fintype.sum_prod_type' (fun k t => (if sel k t then (1 : EReal) else 0) * (v k t - v k t))).symm
  rw [h1, h2]
  exact split_sum_ite_eq Finset.univ (fun e : κ × τ => sel e.1 e.2) (fun e => v e.1 e.2)
    (fun e _ he => hv e.1 e.2 he)

end Cert.ScatterLaw

end
-- ==== Proof.BucketBridge.lean ====
/-
  From the blocked accumulation to the segment sum.

  The 8388608 edges are laid out as 1024 blocks of 8192 rows, blocks 0..511 on core 0 and 512..1023 on core 1; edge
  `8192 n + t` is row `t` of block `n`.  Each core starts from zero and adds, block after block, the block's selected values
  and then their remainders `v - v`; the host adds the two cores to zero.  If no selected value is `⊤` the grand total is the
  sum of the selected values over all edges: regroup the nested sums into one sum over (block, row) pairs (addition of
  extended reals is commutative and associative), drop the remainders (LibHiLoSplit), and rename the pair as the edge.
-/
import proofs.«159445_j35751307771970_2_alg».proof.Proof.ScatterLaw

noncomputable section

namespace Cert.BucketBridge

open scoped BigOperators
open Cert.ScatterLaw

/-- Row `t` of block `n` as an edge (total in `n`: reduced modulo the edge count, which changes nothing below 1024 blocks). -/
def edgeOf (n : ℕ) (t : Fin 8192) : Fin 8388608 := ⟨(8192 * n + t.val) % 8388608, Nat.mod_lt _ (by norm_num)⟩

theorem edgeOf_val {n : ℕ} (hn : n < 1024) (t : Fin 8192) : (edgeOf n t).val = 8192 * n + t.val := by
  have ht := t.isLt
  show (8192 * n + t.val) % 8388608 = _
  exact Nat.mod_eq_of_lt (by omega)

/-- (block, row) pairs are the edges. -/
def edgeEquiv : Fin 1024 × Fin 8192 ≃ Fin 8388608 where
  toFun p := edgeOf p.1.val p.2
  invFun e := (⟨e.val / 8192, by have := e.isLt; omega⟩, ⟨e.val % 8192, Nat.mod_lt _ (by norm_num)⟩)
  left_inv p := by
    rcases p with ⟨n, t⟩
    have h := edgeOf_val n.isLt t
    have hn := n.isLt
    have ht := t.isLt
    refine Prod.ext (Fin.ext ?_) (Fin.ext ?_)
    · show (edgeOf n.val t).val / 8192 = n.val
      rw [h]; omega
    · show (edgeOf n.val t).val % 8192 = t.val
      rw [h]; omega
  right_inv e := by
    have he := e.isLt
    apply Fin.ext
    show (edgeOf (e.val / 8192) ⟨e.val % 8192, _⟩).val = e.val
    rw [edgeOf_val (by omega)]
    show 8192 * (e.val / 8192) + e.val % 8192 = e.val
    omega

theorem edgeEquiv_apply (p : Fin 1024 × Fin 8192) : edgeEquiv p = edgeOf p.1.val p.2 := rfl

/-- **The blocked, split, two-core accumulation is the segment sum.** -/
theorem blocked_eq_segsum (sel : Fin 8388608 → Prop) [DecidablePred sel] (v : Fin 8388608 → EReal)
    (hv : ∀ e, sel e → v e ≠ ⊤) :
    (0 : EReal) + ∑ k : Fin 2, ((0 : EReal) + ∑ s ∈ Finset.range 512,
        ((∑ t : Fin 8192, (if sel (edgeOf (512 * k.val + s) t) then (1 : EReal) else 0) * v (edgeOf (512 * k.val + s) t))
          + (∑ t : Fin 8192, (if sel (edgeOf (512 * k.val + s) t) then (1 : EReal) else 0)
              * (v (edgeOf (512 * k.val + s) t) - v (edgeOf (512 * k.val + s) t)))))
      = ∑ e ∈ (Finset.univ : Finset (Fin 8388608)).filter sel, v e := by
  classical
  -- one block's contribution, as a function of the block number
  set f : ℕ → EReal := fun n =>
    (∑ t : Fin 8192, (if sel (edgeOf n t) then (1 : EReal) else 0) * v (edgeOf n t))
      + (∑ t : Fin 8192, (if sel (edgeOf n t) then (1 : EReal) else 0) * (v (edgeOf n t) - v (edgeOf n t))) with hf
  have hcores : (0 : EReal) + ∑ k : Fin 2, ((0 : EReal) + ∑ s ∈ Finset.range 512, f (512 * k.val + s))
      = ∑ n : Fin 1024, f n.val := by
    rw [zero_add, Fin.sum_univ_two, zero_add, zero_add]
    show (∑ s ∈ Finset.range 512, f (512 * 0 + s)) + (∑ s ∈ Finset.range 512, f (512 * 1 + s)) = _
    rw [← Finset.sum_range (fun n => f n), show (1024 : ℕ) = 512 + 512 from rfl, Finset.sum_range_add]
    simp only [Nat.mul_zero, Nat.zero_add, Nat.mul_one]
  refine hcores.trans ?_
  rw [bucket_eq_segment_sum (fun (n : Fin 1024) (t : Fin 8192) => sel (edgeOf n.val t)) (fun n t => v (edgeOf n.val t))
    (fun n t h => hv _ h)]
  refine Finset.sum_equiv edgeEquiv (fun p => ?_) (fun p _ => ?_)
  · simp only [Finset.mem_filter, Finset.mem_univ, true_and, edgeEquiv_apply]
  · rw [edgeEquiv_apply]

end Cert.BucketBridge

end
-- ==== Proof.RegionSum.lean ====
/-
  The two regions' output arrays as explicit sums, at the extended reals.

  A core's slab of a region's output is the fold over the core's 512 grid points: the first point leaves the payload of
  its input block over zeros, every later point adds its block's payload to what the point before left. Read at bucket
  `g` (and column `j`), each point's payload adds the block's indicator-weighted sum of the values and of the values
  minus themselves, so the slab is zero plus the sum over the core's 512 blocks of those two sums; row `t` of block `n`
  is edge `8192 n + t` of the feature array.
-/
import proofs.«159445_j35751307771970_2_alg».proof.Proof.KernelIdealFr.Val0
import proofs.«159445_j35751307771970_2_alg».proof.Proof.KernelIdealFr.Val1
import proofs.«159445_j35751307771970_2_alg».proof.Proof.PayloadRead
import proofs.«159445_j35751307771970_2_alg».proof.Proof.BucketBridge

set_option maxRecDepth 16384

noncomputable section

open scoped BigOperators

namespace Cert.KernelIdeal.Fr

open Cert.KernelIdeal Cert.KernelIdeal.Gen Cert.KernelIdeal.Pay Cert.BucketBridge
open Idealize.ShloMosaic Idealize.ShloMosaic.TcCoe Idealize.ShloMosaic.ValueIdx

variable (V : (c : Dev nD) → (b : Ref sig .tc) → Buf (Elt Ideal) ((c : Thread nD τ).loc b))

/-! ## Region 0 -/

/-- One five-column block's contribution to bucket `g`, column \`j\`: the sum over the block's rows of the indicator
    "the row's id is `g`" times the row's value, plus the same sum of the value minus itself. -/
def blockSum0 (x : Vec Ideal S8192x5 .f32) (g : Fin 64) (j : Fin 4) : EReal :=
  (∑ t : Fin 8192, (if bucketOf (x (ix2 t (4 : Fin 5))) = BitVec.ofNat 32 g.val then (1 : EReal) else 0)
      * x (ix2 t (Fin.castLE (by decide) j : Fin 5)))
  + (∑ t : Fin 8192, (if bucketOf (x (ix2 t (4 : Fin 5))) = BitVec.ofNat 32 g.val then (1 : EReal) else 0)
      * (x (ix2 t (Fin.castLE (by decide) j : Fin 5)) - x (ix2 t (Fin.castLE (by decide) j : Fin 5))))

/-- The feature array region 0 reads on core `c`, as a matrix of extended reals. -/
abbrev feat0 (c : Dev nD) : Vec Ideal S8388608x5 .f32 := V c (Pipeline.arrRef spec0 0)

/-- Row `t` of the input block at point `n` is the feature array's row at edge `8192 n + t`. -/
theorem iblk0_edge (c : Dev nD) (n : ℕ) (h : n < cfg0.N) (t : Fin 8192) (q : Fin 5) :
    (iblk0 V c 0 ⟨n, h⟩ : Vec Ideal S8192x5 .f32) (ix2 t q) = feat0 V c (ix2 (edgeOf n t) q) := by
  have hN : cfg0.N = 1024 := N_0
  refine (iblk0_apply V c ⟨n, h⟩ (ix2 t q)).trans ?_
  refine congrArg (V c (Pipeline.arrRef spec0 0)) ?_
  funext a
  match a with
  | ⟨0, _⟩ => exact Fin.ext (edgeOf_val (by omega) t).symm
  | ⟨1, _⟩ => rfl

/-- Core `k`'s slab of region 0's output at bucket `g`, column \`j\`: zero plus, block after block over the core's 512
    blocks, the block's indicator-weighted sum of the values and of the values minus themselves, each block's rows
    named as edges of the feature array. -/
theorem G0_sum (c : Dev nD) (k : Fin 2) (g : Fin 64) (j : Fin 4) :
    G0 (F := Ideal) V c (ix3 k g j) = 0 + ∑ s ∈ Finset.range 512,
      ((∑ t : Fin 8192, (if bucketOf (feat0 V c (ix2 (edgeOf (512 * k.val + s) t) (4 : Fin 5))) = BitVec.ofNat 32 g.val then (1 : EReal) else 0)
            * feat0 V c (ix2 (edgeOf (512 * k.val + s) t) (Fin.castLE (by decide) j : Fin 5)))
       + (∑ t : Fin 8192, (if bucketOf (feat0 V c (ix2 (edgeOf (512 * k.val + s) t) (4 : Fin 5))) = BitVec.ofNat 32 g.val then (1 : EReal) else 0)
            * (feat0 V c (ix2 (edgeOf (512 * k.val + s) t) (Fin.castLE (by decide) j : Fin 5))
              - feat0 V c (ix2 (edgeOf (512 * k.val + s) t) (Fin.castLE (by decide) j : Fin 5))))) := by
  have hN : cfg0.N = 1024 := N_0
  have hk : k.val < 2 := k.isLt
  let M : ℕ → S1x64x4.Idx → EReal := fun n i =>
    if h : n < cfg0.N then blockSum0 (iblk0 V c 0 ⟨n, h⟩) (i 1) (i 2) else 0
  have ha : ∀ (h : 512 * k.val < cfg0.N) (i : S1x64x4.Idx),
      rst0 V c (512 * k.val) h i = (fun _ => (0 : EReal)) i + M (512 * k.val) i := by
    intro h i
    obtain ⟨u, g', j', rfl⟩ : ∃ (u : Fin 1) (g' : Fin 64) (j' : Fin 4), i = ix3 u g' j' := ⟨i 0, i 1, i 2, eq_ix3 i⟩
    obtain rfl : u = 0 := Subsingleton.elim _ _
    show k0_pay2 (iblk0 V c 0 ⟨512 * k.val, h⟩) (k0_pay1 (F := Ideal)) (ix3 (0 : Fin 1) g' j')
      = 0 + (if h : 512 * k.val < cfg0.N then blockSum0 (iblk0 V c 0 ⟨512 * k.val, h⟩) g' j' else 0)
    rw [dif_pos h, pay2_apply0, pay1_apply0]
    rfl
  have hg : ∀ (n : ℕ) (h : n < cfg0.N) (acc : S1x64x4.Idx → EReal) (i : S1x64x4.Idx), 512 * k.val < n → n ≤ 512 * k.val + 511 →
      stp0 V c n h acc i = acc i + M n i := by
    intro n h acc i _ _
    obtain ⟨u, g', j', rfl⟩ : ∃ (u : Fin 1) (g' : Fin 64) (j' : Fin 4), i = ix3 u g' j' := ⟨i 0, i 1, i 2, eq_ix3 i⟩
    obtain rfl : u = 0 := Subsingleton.elim _ _
    show k0_pay2 (iblk0 V c 0 ⟨n, h⟩) acc (ix3 (0 : Fin 1) g' j')
      = acc (ix3 (0 : Fin 1) g' j') + (if h : n < cfg0.N then blockSum0 (iblk0 V c 0 ⟨n, h⟩) g' j' else 0)
    rw [dif_pos h, pay2_apply0]
    rfl
  have key := Pipeline.accAt_add_apply (rst0 V c) (stp0 V c) (fun _ => (0 : EReal)) M (512 * k.val) 511 ha hg 511 le_rfl
    (by omega) (ix3 (0 : Fin 1) g j)
  unfold G0
  refine key.trans ?_
  refine congrArg ((0 : EReal) + ·) (Finset.sum_congr rfl fun s hs => ?_)
  have hs' : s < 512 := Finset.mem_range.mp hs
  have hlt : 512 * k.val + s < cfg0.N := by omega
  show (if h : 512 * k.val + s < cfg0.N then blockSum0 (iblk0 V c 0 ⟨512 * k.val + s, h⟩) g j else 0) = _
  rw [dif_pos hlt]
  unfold blockSum0
  refine congrArg₂ (· + ·) (Finset.sum_congr rfl fun t _ => ?_) (Finset.sum_congr rfl fun t _ => ?_)
  · rw [iblk0_edge, iblk0_edge]
  · rw [iblk0_edge, iblk0_edge]

/-! ## Region 1 -/

/-- One two-column block's contribution to bucket `g`: the sum over the block's rows of the indicator
    "the row's id is `g`" times the row's value, plus the same sum of the value minus itself. -/
def blockSum1 (x : Vec Ideal S8192x2 .f32) (g : Fin 64) : EReal :=
  (∑ t : Fin 8192, (if bucketOf (x (ix2 t (1 : Fin 2))) = BitVec.ofNat 32 g.val then (1 : EReal) else 0)
      * x (ix2 t (0 : Fin 2)))
  + (∑ t : Fin 8192, (if bucketOf (x (ix2 t (1 : Fin 2))) = BitVec.ofNat 32 g.val then (1 : EReal) else 0)
      * (x (ix2 t (0 : Fin 2)) - x (ix2 t (0 : Fin 2))))

/-- The feature array region 1 reads on core `c`, as a matrix of extended reals. -/
abbrev feat1 (c : Dev nD) : Vec Ideal S8388608x2 .f32 := V c (Pipeline.arrRef spec1 0)

/-- Row `t` of the input block at point `n` is the feature array's row at edge `8192 n + t`. -/
theorem iblk1_edge (c : Dev nD) (n : ℕ) (h : n < cfg1.N) (t : Fin 8192) (q : Fin 2) :
    (iblk1 V c 0 ⟨n, h⟩ : Vec Ideal S8192x2 .f32) (ix2 t q) = feat1 V c (ix2 (edgeOf n t) q) := by
  have hN : cfg1.N = 1024 := N_1
  refine (iblk1_apply V c ⟨n, h⟩ (ix2 t q)).trans ?_
  refine congrArg (V c (Pipeline.arrRef spec1 0)) ?_
  funext a
  match a with
  | ⟨0, _⟩ => exact Fin.ext (edgeOf_val (by omega) t).symm
  | ⟨1, _⟩ => rfl

/-- Core `k`'s slab of region 1's output at bucket `g`: zero plus, block after block over the core's 512
    blocks, the block's indicator-weighted sum of the values and of the values minus themselves, each block's rows
    named as edges of the feature array. -/
theorem G1_sum (c : Dev nD) (k : Fin 2) (g : Fin 64) :
    G1 (F := Ideal) V c (ix3 k g (0 : Fin 1)) = 0 + ∑ s ∈ Finset.range 512,
      ((∑ t : Fin 8192, (if bucketOf (feat1 V c (ix2 (edgeOf (512 * k.val + s) t) (1 : Fin 2))) = BitVec.ofNat 32 g.val then (1 : EReal) else 0)
            * feat1 V c (ix2 (edgeOf (512 * k.val + s) t) (0 : Fin 2)))
       + (∑ t : Fin 8192, (if bucketOf (feat1 V c (ix2 (edgeOf (512 * k.val + s) t) (1 : Fin 2))) = BitVec.ofNat 32 g.val then (1 : EReal) else 0)
            * (feat1 V c (ix2 (edgeOf (512 * k.val + s) t) (0 : Fin 2))
              - feat1 V c (ix2 (edgeOf (512 * k.val + s) t) (0 : Fin 2))))) := by
  have hN : cfg1.N = 1024 := N_1
  have hk : k.val < 2 := k.isLt
  let M : ℕ → S1x64x1.Idx → EReal := fun n i =>
    if h : n < cfg1.N then blockSum1 (iblk1 V c 0 ⟨n, h⟩) (i 1) else 0
  have ha : ∀ (h : 512 * k.val < cfg1.N) (i : S1x64x1.Idx),
      rst1 V c (512 * k.val) h i = (fun _ => (0 : EReal)) i + M (512 * k.val) i := by
    intro h i
    obtain ⟨u, g', j', rfl⟩ : ∃ (u : Fin 1) (g' : Fin 64) (j' : Fin 1), i = ix3 u g' j' := ⟨i 0, i 1, i 2, eq_ix3 i⟩
    obtain rfl : u = 0 := Subsingleton.elim _ _
    obtain rfl : j' = 0 := Subsingleton.elim _ _
    show k1_pay2 (iblk1 V c 0 ⟨512 * k.val, h⟩) (k1_pay1 (F := Ideal)) (ix3 (0 : Fin 1) g' (0 : Fin 1))
      = 0 + (if h : 512 * k.val < cfg1.N then blockSum1 (iblk1 V c 0 ⟨512 * k.val, h⟩) g' else 0)
    rw [dif_pos h, pay2_apply1, pay1_apply1]
    rfl
  have hg : ∀ (n : ℕ) (h : n < cfg1.N) (acc : S1x64x1.Idx → EReal) (i : S1x64x1.Idx), 512 * k.val < n → n ≤ 512 * k.val + 511 →
      stp1 V c n h acc i = acc i + M n i := by
    intro n h acc i _ _
    obtain ⟨u, g', j', rfl⟩ : ∃ (u : Fin 1) (g' : Fin 64) (j' : Fin 1), i = ix3 u g' j' := ⟨i 0, i 1, i 2, eq_ix3 i⟩
    obtain rfl : u = 0 := Subsingleton.elim _ _
    obtain rfl : j' = 0 := Subsingleton.elim _ _
    show k1_pay2 (iblk1 V c 0 ⟨n, h⟩) acc (ix3 (0 : Fin 1) g' (0 : Fin 1))
      = acc (ix3 (0 : Fin 1) g' (0 : Fin 1)) + (if h : n < cfg1.N then blockSum1 (iblk1 V c 0 ⟨n, h⟩) g' else 0)
    rw [dif_pos h, pay2_apply1]
    rfl
  have key := Pipeline.accAt_add_apply (rst1 V c) (stp1 V c) (fun _ => (0 : EReal)) M (512 * k.val) 511 ha hg 511 le_rfl
    (by omega) (ix3 (0 : Fin 1) g (0 : Fin 1))
  unfold G1
  refine key.trans ?_
  refine congrArg ((0 : EReal) + ·) (Finset.sum_congr rfl fun s hs => ?_)
  have hs' : s < 512 := Finset.mem_range.mp hs
  have hlt : 512 * k.val + s < cfg1.N := by omega
  show (if h : 512 * k.val + s < cfg1.N then blockSum1 (iblk1 V c 0 ⟨512 * k.val + s, h⟩) g else 0) = _
  rw [dif_pos hlt]
  unfold blockSum1
  refine congrArg₂ (· + ·) (Finset.sum_congr rfl fun t _ => ?_) (Finset.sum_congr rfl fun t _ => ?_)
  · rw [iblk1_edge, iblk1_edge]
  · rw [iblk1_edge, iblk1_edge]

end Cert.KernelIdeal.Fr

end
-- ==== Proof.BucketSum.lean ====
/-
  Each graph's bucket of the kernel program is the sum of the column over the graph's edges, at the extended reals.

  The host adds the two cores' slabs of a region's output and reads one column of the result as a vector over the 64
  graphs. Each core's slab is zero plus, block after block, the indicator-weighted sums of the block's values and of their
  remainders (the values minus themselves). When the feature array's id column holds the graph ids converted to reals,
  converting it back to an integer gives the id again, so the indicator of row `e` is "edge `e`'s id is `g`"; and when no
  value on graph `g`'s edges is `⊤` the remainders vanish where they count, and the nested sums over (core, block, row)
  regroup into one sum over the edges of graph `g`.
-/
import proofs.«159445_j35751307771970_2_alg».proof.Proof.RegionSum
import proofs.«159445_j35751307771970_2_alg».proof.Proof.KDefs
import proofs.«159445_j35751307771970_2_alg».proof.Proof.FeatRead
import proofs.«159445_j35751307771970_2_alg».proof.Proof.BucketBridge
import proofs.«159445_j35751307771970_2_alg».proof.Proof.PayloadRead
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Fr

open Cert.KernelIdeal Cert.KernelIdeal.Gen Cert.KernelIdeal.Pay Cert.BucketBridge
open Idealize.ShloMosaic Idealize.ShloMosaic.TcCoe Idealize.ShloMosaic.ValueIdx

/-! ## The host's reads -/

/-- A column `[m, 1]` reshaped to the vector `[m]` reads, at `e`, the column at `(e, 0)`. -/
theorem shapeCast_a1_a_apply {α : Type} {m : ℕ} (x : (⟨2, ![m, 1]⟩ : Shape).Idx → α)
    (h : (⟨2, ![m, 1]⟩ : Shape).ShapeCasts ⟨1, ![m]⟩) (e : Fin m) :
    shapeCast ⟨1, ![m]⟩ x h (ix1 e) = x (ix2 e (0 : Fin 1)) := by
  refine shapeCast_apply x h (ix1 e) (ix2 e (0 : Fin 1)) ?_
  rw [Shape.rowMajor_val_one, Shape.rowMajor_val_two]
  show e.val * 1 + 0 = e.val
  omega

/-- The host's sum of a `[2, 64, W]` array over its first axis, from the zero word: at `(g, j)` it is zero plus the sum
    over the two slabs `k` of the array at `(k, g, j)`. -/
theorem reduce_cores_apply {W : ℕ} (o : FVec Ideal ⟨3, ![2, 64, W]⟩ .f32)
    (h' : (⟨3, ![2, 64, W]⟩ : Shape).ReducesTo [0] ⟨2, ![64, W]⟩) (hu : 0 < (⟨0, ![]⟩ : Shape).numel)
    (g : Fin 64) (j : Fin W) :
    Host.reduceAdd o (constant (F := Ideal) ⟨0, ![]⟩ .f32 0x00000000#32) h' hu (ix2 g j)
      = 0 + ∑ k : Fin 2, o (ix3 k g j) := by
  have h : (⟨3, ![2, 64, W]⟩ : Shape).Reduces [0] ⟨2, ![64, W]⟩ := ⟨h'.1, Nat.succ_pos 1, h'.2⟩
  show Ideal.hostReduceAdd h' o (constant (F := Ideal) ⟨0, ![]⟩ .f32 0x00000000#32 (Shape.Idx.first hu)) (ix2 g j) = _
  rw [Ideal.hostReduceAdd_single h' h, constant_apply, Ideal.ofBits_zero_f32]
  show (0 : EReal) + ∑ k : Fin 2, o (h.lift (ix2 g j) k) = _
  refine congrArg ((0 : EReal) + ·) (Finset.sum_congr rfl fun k _ => congrArg o ?_)
  funext a
  match a with
  | ⟨0, _⟩ => exact Fin.ext rfl
  | ⟨1, _⟩ => exact Fin.ext rfl
  | ⟨2, _⟩ => exact Fin.ext rfl

/-- The two cores' first-region outputs added up, at `(g, j)`. -/
theorem sums1_apply (o : FVec Ideal S2x64x4 .f32) (g : Fin 64) (j : Fin 4) :
    KD.sums1 o (ix2 g j) = 0 + ∑ k : Fin 2, o (ix3 k g j) := by
  unfold KD.sums1
  exact reduce_cores_apply o _ _ g j

/-- Column 0 of a `[64, 4]` array, as a vector, at `g`. -/
theorem col0_apply (s : FVec Ideal S64x4 .f32) (g : Fin 64) : KD.col0 s (ix1 g) = s (ix2 g (0 : Fin 4)) := by
  unfold KD.col0
  exact (shapeCast_a1_a_apply _ _ g).trans (slice2_axis1_apply 0 s _ g (0 : Fin 1) (0 : Fin 4) rfl)
/-- Column 1 of a `[64, 4]` array, as a vector, at `g`. -/
theorem col1_apply (s : FVec Ideal S64x4 .f32) (g : Fin 64) : KD.col1 s (ix1 g) = s (ix2 g (1 : Fin 4)) := by
  unfold KD.col1
  exact (shapeCast_a1_a_apply _ _ g).trans (slice2_axis1_apply 1 s _ g (0 : Fin 1) (1 : Fin 4) rfl)
/-- Column 2 of a `[64, 4]` array, as a vector, at `g`. -/
theorem col2_apply (s : FVec Ideal S64x4 .f32) (g : Fin 64) : KD.col2 s (ix1 g) = s (ix2 g (2 : Fin 4)) := by
  unfold KD.col2
  exact (shapeCast_a1_a_apply _ _ g).trans (slice2_axis1_apply 2 s _ g (0 : Fin 1) (2 : Fin 4) rfl)
/-- Column 3 of a `[64, 4]` array, as a vector, at `g`. -/
theorem col3_apply (s : FVec Ideal S64x4 .f32) (g : Fin 64) : KD.col3 s (ix1 g) = s (ix2 g (3 : Fin 4)) := by
  unfold KD.col3
  exact (shapeCast_a1_a_apply _ _ g).trans (slice2_axis1_apply 3 s _ g (0 : Fin 1) (3 : Fin 4) rfl)

/-- The two cores' second-region outputs added up, as a vector, at `g`. -/
theorem gstress_apply (o : FVec Ideal S2x64x1 .f32) (g : Fin 64) :
    KD.gstress o (ix1 g) = 0 + ∑ k : Fin 2, o (ix3 k g (0 : Fin 1)) := by
  unfold KD.gstress
  exact (shapeCast_a1_a_apply _ _ g).trans (reduce_cores_apply o _ _ g (0 : Fin 1))

/-! ## Each graph's bucket is the sum of the column over the graph's edges -/

variable (V : (c : Dev nD) → (b : Ref sig .tc) → Buf (Elt Ideal) ((c : Thread nD τ).loc b))

/-- The first region, one column: when the feature array's id column converts back to the ids `gid` and its column `j`
    holds the vector `cj`, never `⊤` on graph `g`'s edges, the two cores' outputs added up hold, at `(g, j)`, the sum of
    `cj` over the edges whose id is `g`: the blocked accumulation with its remainders regroups into that sum. -/
theorem sums1_bucket (c : Dev nD) (gid : IVec S8388608 32) (g : Fin 64) (j : Fin 4) (cj : S8388608.Idx → EReal)
    (hid : ∀ e : Fin 8388608, bucketOf (feat0 V c (ix2 e (4 : Fin 5))) = gid (ix1 e))
    (hcol : ∀ e : Fin 8388608, feat0 V c (ix2 e (Fin.castLE (by decide) j : Fin 5)) = cj (ix1 e))
    (hv : ∀ e : Fin 8388608, gid (ix1 e) = BitVec.ofNat 32 g.val → cj (ix1 e) ≠ ⊤) :
    KD.sums1 (F := Ideal) (G0 (F := Ideal) V c) (ix2 g j)
      = ∑ e ∈ (Finset.univ : Finset (Fin 8388608)).filter (fun e => gid (ix1 e) = BitVec.ofNat 32 g.val), cj (ix1 e) := by
  refine (sums1_apply _ g j).trans ?_
  refine Eq.trans ?_ (blocked_eq_segsum (fun e : Fin 8388608 => gid (ix1 e) = BitVec.ofNat 32 g.val)
    (fun e : Fin 8388608 => cj (ix1 e)) hv)
  refine congrArg ((0 : EReal) + ·) (Finset.sum_congr rfl fun k _ => ?_)
  refine (G0_sum V c k g j).trans ?_
  refine congrArg ((0 : EReal) + ·) (Finset.sum_congr rfl fun s _ => ?_)
  refine congrArg₂ (· + ·) (Finset.sum_congr rfl fun t _ => ?_) (Finset.sum_congr rfl fun t _ => ?_)
  · rw [hid, hcol]
  · rw [hid, hcol]

section Columns
variable (c : Dev nD) (c0 c1 c2 c3 : S8388608.Idx → EReal) (gid : IVec S8388608 32) (g : Fin 64)
  (hfeat : feat0 V c = Cert.FeatRead.feat1 c0 c1 c2 c3 (sitofp (F := Ideal) .f32 gid))

include hfeat in
/-- The id column of the feature array, converted to an integer, is the id. -/
theorem feat0_id (e : Fin 8388608) : bucketOf (feat0 V c (ix2 e (4 : Fin 5))) = gid (ix1 e) := by
  rw [hfeat, Cert.FeatRead.feat1_gid]
  exact bucketOf_sitofp _

include hfeat in
/-- Graph `g`'s entry of column 0 of the summed first-region output is the sum of the value vector `c0` over the edges
    whose id is `g`. -/
theorem col0_bucket (hv : ∀ e : Fin 8388608, gid (ix1 e) = BitVec.ofNat 32 g.val → c0 (ix1 e) ≠ ⊤) :
    KD.col0 (F := Ideal) (KD.sums1 (F := Ideal) (G0 (F := Ideal) V c)) (ix1 g)
      = ∑ e ∈ (Finset.univ : Finset (Fin 8388608)).filter (fun e => gid (ix1 e) = BitVec.ofNat 32 g.val), c0 (ix1 e) :=
  (col0_apply _ g).trans (sums1_bucket V c gid g (0 : Fin 4) c0 (feat0_id V c c0 c1 c2 c3 gid hfeat)
    (fun e => by rw [hfeat]; exact Cert.FeatRead.feat1_val c0 c1 c2 c3 _ e) hv)

include hfeat in
/-- Graph `g`'s entry of column 1 of the summed first-region output is the sum of the value vector `c1` over the edges
    whose id is `g`. -/
theorem col1_bucket (hv : ∀ e : Fin 8388608, gid (ix1 e) = BitVec.ofNat 32 g.val → c1 (ix1 e) ≠ ⊤) :
    KD.col1 (F := Ideal) (KD.sums1 (F := Ideal) (G0 (F := Ideal) V c)) (ix1 g)
      = ∑ e ∈ (Finset.univ : Finset (Fin 8388608)).filter (fun e => gid (ix1 e) = BitVec.ofNat 32 g.val), c1 (ix1 e) :=
  (col1_apply _ g).trans (sums1_bucket V c gid g (1 : Fin 4) c1 (feat0_id V c c0 c1 c2 c3 gid hfeat)
    (fun e => by rw [hfeat]; exact Cert.FeatRead.feat1_val_1 c0 c1 c2 c3 _ e) hv)

include hfeat in
/-- Graph `g`'s entry of column 2 of the summed first-region output is the sum of the value vector `c2` over the edges
    whose id is `g`. -/
theorem col2_bucket (hv : ∀ e : Fin 8388608, gid (ix1 e) = BitVec.ofNat 32 g.val → c2 (ix1 e) ≠ ⊤) :
    KD.col2 (F := Ideal) (KD.sums1 (F := Ideal) (G0 (F := Ideal) V c)) (ix1 g)
      = ∑ e ∈ (Finset.univ : Finset (Fin 8388608)).filter (fun e => gid (ix1 e) = BitVec.ofNat 32 g.val), c2 (ix1 e) :=
  (col2_apply _ g).trans (sums1_bucket V c gid g (2 : Fin 4) c2 (feat0_id V c c0 c1 c2 c3 gid hfeat)
    (fun e => by rw [hfeat]; exact Cert.FeatRead.feat1_val_2 c0 c1 c2 c3 _ e) hv)

include hfeat in
/-- Graph `g`'s entry of column 3 of the summed first-region output is the sum of the value vector `c3` over the edges
    whose id is `g`. -/
theorem col3_bucket (hv : ∀ e : Fin 8388608, gid (ix1 e) = BitVec.ofNat 32 g.val → c3 (ix1 e) ≠ ⊤) :
    KD.col3 (F := Ideal) (KD.sums1 (F := Ideal) (G0 (F := Ideal) V c)) (ix1 g)
      = ∑ e ∈ (Finset.univ : Finset (Fin 8388608)).filter (fun e => gid (ix1 e) = BitVec.ofNat 32 g.val), c3 (ix1 e) :=
  (col3_apply _ g).trans (sums1_bucket V c gid g (3 : Fin 4) c3 (feat0_id V c c0 c1 c2 c3 gid hfeat)
    (fun e => by rw [hfeat]; exact Cert.FeatRead.feat1_val_3 c0 c1 c2 c3 _ e) hv)

end Columns

/-- The second region: when the two-column feature array holds the vector `es` and the ids `gid` (as reals), `es` never
    `⊤` on graph `g`'s edges, the two cores' outputs added up hold, at `g`, the sum of `es` over the edges whose id is `g`. -/
theorem gstress_bucket (c : Dev nD) (es : S8388608.Idx → EReal) (gid : IVec S8388608 32) (g : Fin 64)
    (hfeat : Cert.KernelIdeal.Fr.feat1 V c = Cert.FeatRead.feat2 es (sitofp (F := Ideal) .f32 gid))
    (hv : ∀ e : Fin 8388608, gid (ix1 e) = BitVec.ofNat 32 g.val → es (ix1 e) ≠ ⊤) :
    KD.gstress (F := Ideal) (G1 (F := Ideal) V c) (ix1 g)
      = ∑ e ∈ (Finset.univ : Finset (Fin 8388608)).filter (fun e => gid (ix1 e) = BitVec.ofNat 32 g.val), es (ix1 e) := by
  have hid : ∀ e : Fin 8388608, bucketOf (Cert.KernelIdeal.Fr.feat1 V c (ix2 e (1 : Fin 2))) = gid (ix1 e) := fun e => by
    rw [hfeat, Cert.FeatRead.feat2_gid]
    exact bucketOf_sitofp _
  have hcol : ∀ e : Fin 8388608, Cert.KernelIdeal.Fr.feat1 V c (ix2 e (0 : Fin 2)) = es (ix1 e) := fun e => by
    rw [hfeat]; exact Cert.FeatRead.feat2_val es _ e
  refine (gstress_apply _ g).trans ?_
  refine Eq.trans ?_ (blocked_eq_segsum (fun e : Fin 8388608 => gid (ix1 e) = BitVec.ofNat 32 g.val)
    (fun e : Fin 8388608 => es (ix1 e)) hv)
  refine congrArg ((0 : EReal) + ·) (Finset.sum_congr rfl fun k _ => ?_)
  refine (G1_sum V c k g).trans ?_
  refine congrArg ((0 : EReal) + ·) (Finset.sum_congr rfl fun s _ => ?_)
  refine congrArg₂ (· + ·) (Finset.sum_congr rfl fun t _ => ?_) (Finset.sum_congr rfl fun t _ => ?_)
  · rw [hid, hcol]
  · rw [hid, hcol]

end Cert.KernelIdeal.Fr

end
-- ==== Proof.RDefs.lean ====
/-
  The reference's per-graph scale table and segment sums, named: the sum of squared ratios over the sum of ratios, both
  summed into the 64 graphs by the start node's graph id.
-/
import proofs.«159445_j35751307771970_2_alg».proof.Proof.Gen.ReferenceIdeal.Run

noncomputable section

namespace Cert.RD

open Cert.ReferenceIdeal Cert.ReferenceIdeal.Gen Cert.ReferenceIdeal.Value Idealize.ShloMosaic Idealize.ShloMosaic.StableHlo

variable {F : FTy → Type} [FloatOps F]

/-- A per-edge value summed into the 64 graphs by the start node's graph id. -/
def segsum (L : Valuation τ sig (Elt F)) (v : FVec F S8388608 .f32) : FVec F S64 .f32 :=
  Host.scatterAdd scatter_S64_S8388608x1_S8388608_n_0_0_1 (broadcastInDim S64 ![] bcast_S_S64 (constant S_ .f32 0x00000000#32))
    (broadcastInDim S8388608x1 ![0] bcast_S8388608_S8388608x1_0 (res_main_v10 L)) v

/-- The reference's per-graph scale. -/
def scaleR (L : Valuation τ sig (Elt F)) : FVec F S64 .f32 :=
  Host.divf (segsum L (mulf (res_main_v30 L) (res_main_v30 L))) (segsum L (res_main_v30 L))

/-- The graph id of each edge's END node. -/
def gidEnd (L : Valuation τ sig (Elt F)) : IVec S8388608 32 :=
  Host.gather gather_S131072_S8388608x1_S8388608_n_0_n_n_0_1_1 (L (Proc.devRef .tc main_arg4))
    (broadcastInDim S8388608x1 ![0] bcast_S8388608_S8388608x1_0
      (select (cmpi .slt (res_main_v3 L) (broadcastInDim S8388608 ![] bcast_S_S8388608 (constantI S_ 32 0#32)))
        (addi (res_main_v3 L) (broadcastInDim S8388608 ![] bcast_S_S8388608 (constantI S_ 32 131072#32))) (res_main_v3 L)))

/-- The reference's scaled positions are the positions over the scale of each node's graph: the definition restated. -/
theorem res_main_v48_eq (L : Valuation τ sig (Elt F)) :
    res_main_v48 L = Host.divf (L (Proc.devRef .tc main_arg0))
      (broadcastInDim S131072x2 ![0, 1] bcast_S131072x1_S131072x2_0_1 (broadcastInDim S131072x1 ![0] bcast_S131072_S131072x1_0
        (Host.gather gather_S64_S131072x1_S131072_n_0_n_n_0_1_1 (scaleR L)
          (broadcastInDim S131072x1 ![0] bcast_S131072_S131072x1_0
            (select (cmpi .slt (L (Proc.devRef .tc main_arg4)) (broadcastInDim S131072 ![] bcast_S_S131072 (constantI S_ 32 0#32)))
              (addi (L (Proc.devRef .tc main_arg4)) (broadcastInDim S131072 ![] bcast_S_S131072 (constantI S_ 32 64#32)))
              (L (Proc.devRef .tc main_arg4))))))) := rfl

end Cert.RD

end
-- ==== Proof.LibGatherScatterRead.lean ====
/-
  The host's row gather and accumulating row scatter, read at an index.

  A gather of whole rows of an `n × f` array at `m` start indices (one index word per result row) returns, at
  result element `(e, j)`, the operand's element `(r, j)` where `r` is the start word of `e` read as a signed
  integer and clamped into `[0, n - 1]`. An accumulating scatter of `m` rows into an `n × f` array adds, at
  element `(p, j)`, the entries `(e, j)` of exactly those update rows `e` whose start word, read as a signed
  integer, is `p`: a row whose start word is not a row of the operand is dropped. The same two readings for
  vectors (no second axis). Generic in the extents and in the width of the index words.
-/
import Idealize.ShloMosaic.Lib.ValueIdx
import Idealize.ShloMosaic.PureOps.Ideal
import Idealize.ShloMosaic.PureOps.Ideal.Laws
import Idealize.ShloMosaic.PureOps.Contract

noncomputable section

open scoped BigOperators

namespace Idealize.ShloMosaic.GatherScatterRead

open Idealize.ShloMosaic Idealize.ShloMosaic.ValueIdx

/-! ## Gather of rows -/

section GatherRows
variable {α : Type}

/-- The dimension numbers of a gather of whole rows: operand `[n, f]`, start indices `[m, 1]`, result `[m, f]`;
    the row axis is collapsed and indexed, the second axis is the offset axis with the full slice `f`. -/
abbrev rowsGatherDims (n m f : Nat)
    (wf : GatherDims.WF ⟨2, ![n, f]⟩ ⟨2, ![m, 1]⟩ ⟨2, ![m, f]⟩ [1] [0] [] [0] [] 1 ![1, f]) :
    GatherDims ⟨2, ![n, f]⟩ ⟨2, ![m, 1]⟩ ⟨2, ![m, f]⟩ where
  offsetDims := [1]
  collapsedSliceDims := [0]
  operandBatchingDims := []
  startIndicesBatchingDims := []
  startIndexMap := [0]
  indexVectorDim := 1
  sliceSizes := ![1, f]
  wf := wf

/-- The row gather read at `(e, j)`: the operand at row `idx[e, 0]`, read signed and clamped into `[0, n - 1]`,
    and column `j`. -/
theorem gather_rows_apply {n m f w : Nat} (hn : 0 < n)
    (wf : GatherDims.WF ⟨2, ![n, f]⟩ ⟨2, ![m, 1]⟩ ⟨2, ![m, f]⟩ [1] [0] [] [0] [] 1 ![1, f])
    (x : (⟨2, ![n, f]⟩ : Shape).Idx → α) (idx : IVec ⟨2, ![m, 1]⟩ w) (e : Fin m) (j : Fin f) :
    Host.gather (rowsGatherDims n m f wf) x idx (ix2 e j)
      = x (ix2 ⟨min (idx (ix2 e 0)).toInt.toNat (n - 1), by omega⟩ j) := by
  unfold Host.gather
  congr 1
  funext a
  refine Fin.ext ?_
  match a with
  | ⟨0, _⟩ =>
    show (rowsGatherDims n m f wf).start (ix2 e j) idx 0 + (rowsGatherDims n m f wf).batchCoord (ix2 e j) 0
      + (rowsGatherDims n m f wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsGatherDims n m f wf).startIndexMap from List.mem_singleton.mpr rfl)]
    have hsi : (rowsGatherDims n m f wf).siIdx (ix2 e j) ⟨List.idxOf (0 : Fin 2) (rowsGatherDims n m f wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowsGatherDims n m f wf).start (ix2 e j) idx 1 + (rowsGatherDims n m f wf).batchCoord (ix2 e j) 1
      + (rowsGatherDims n m f wf).offCoord (ix2 e j) 1 = j.val
    rw [GatherDims.batchCoord_eq_zero _ _ _ List.not_mem_nil]
    have hst : (rowsGatherDims n m f wf).start (ix2 e j) idx 1 = 0 := by
      unfold GatherDims.start
      rw [dif_neg (show (1 : Fin 2) ∉ ([0] : List (Fin 2)) by decide)]
    rw [hst]
    have hoff : (rowsGatherDims n m f wf).offCoord (ix2 e j) 1 = j.val := by
      unfold GatherDims.offCoord
      rw [dif_pos ((GatherDims.mem_sKept _ _).mpr ⟨show (1 : Fin 2) ∉ ([0] : List (Fin 2)) by decide, List.not_mem_nil⟩)]
      rfl
    rw [hoff]; omega

end GatherRows

/-! ## Accumulating scatter of rows -/

section ScatterRows

/-- The dimension numbers of a scatter of whole rows: operand `[n, f]`, scatter indices `[m, 1]`, updates `[m, f]`;
    the row axis is the inserted and indexed one, the second axis is the window axis. -/
abbrev rowsScatterDims (n m f : Nat)
    (wf : ScatterDims.WF ⟨2, ![n, f]⟩ ⟨2, ![m, 1]⟩ ⟨2, ![m, f]⟩ [1] [0] [0] 1) :
    ScatterDims ⟨2, ![n, f]⟩ ⟨2, ![m, 1]⟩ ⟨2, ![m, f]⟩ where
  updateWindowDims := [1]
  insertedWindowDims := [0]
  scatterDimsToOperandDims := [0]
  indexVectorDim := 1
  wf := wf

variable {n m f w : Nat} (wf : ScatterDims.WF ⟨2, ![n, f]⟩ ⟨2, ![m, 1]⟩ ⟨2, ![m, f]⟩ [1] [0] [0] 1)

local notation "D" => rowsScatterDims n m f wf

/-- On the row axis the window of update `(e, j)` starts at the start word of `e`, read signed. -/
theorem rows_start_zero (idx : IVec ⟨2, ![m, 1]⟩ w) (e : Fin m) (j : Fin f) :
    (D).start (ix2 e j) idx 0 = (idx (ix2 e 0)).toInt := by
  unfold ScatterDims.start
  rw [dif_pos (show (0 : Fin 2) ∈ (D).scatterDimsToOperandDims from List.mem_singleton.mpr rfl)]
  have hsi : (D).siIdx (ix2 e j)
      ⟨List.idxOf (0 : Fin 2) (D).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- On the second axis the window starts at `0`. -/
theorem rows_start_one (idx : IVec ⟨2, ![m, 1]⟩ w) (e : Fin m) (j : Fin f) :
    (D).start (ix2 e j) idx 1 = 0 := by
  unfold ScatterDims.start
  rw [dif_neg (show (1 : Fin 2) ∉ ([0] : List (Fin 2)) by decide)]

/-- The row axis is inserted: its window coordinate is `0`. -/
theorem rows_window_zero (e : Fin m) (j : Fin f) : (D).window (ix2 e j) 0 = 0 := by
  unfold ScatterDims.window
  rw [dif_neg (show (0 : Fin 2) ∉ (⟨2, ![n, f]⟩ : Shape).kept [0] by
    simp [Shape.kept, List.mem_filter])]

/-- On the second axis the window coordinate of update `(e, j)` is `j`. -/
theorem rows_window_one (e : Fin m) (j : Fin f) : (D).window (ix2 e j) 1 = j.val := by
  unfold ScatterDims.window
  rw [dif_pos (show (1 : Fin 2) ∈ (⟨2, ![n, f]⟩ : Shape).kept [0] by
    simp [Shape.kept, List.mem_filter, List.mem_finRange])]
  rfl

/-- Update `(e, j')` lands on operand element `(p, j)` exactly when the start word of `e`, read signed, is `p`
    and `j' = j`. -/
theorem rows_resultIdx?_eq_some_iff (idx : IVec ⟨2, ![m, 1]⟩ w) (e : Fin m) (j' : Fin f) (p : Fin n) (j : Fin f) :
    (D).resultIdx? (ix2 e j') idx = some (ix2 p j)
      ↔ (idx (ix2 e 0)).toInt = (p.val : Int) ∧ j' = j := by
  have h0 : (D).start (ix2 e j') idx 0 + ((D).window (ix2 e j') 0 : Int) = (idx (ix2 e 0)).toInt := by
    rw [rows_start_zero, rows_window_zero]; simp
  have h1 : (D).start (ix2 e j') idx 1 + ((D).window (ix2 e j') 1 : Int) = (j'.val : Int) := by
    rw [rows_start_one, rows_window_one]; simp
  unfold ScatterDims.resultIdx?
  constructor
  · intro h
    split at h
    · rename_i hall
      have hq := Option.some.inj h
      have q0 : ((D).start (ix2 e j') idx 0 + ((D).window (ix2 e j') 0 : Int)).toNat = p.val :=
        congrArg (fun q => ((q 0 : Fin _) : Nat)) hq
      have q1 : ((D).start (ix2 e j') idx 1 + ((D).window (ix2 e j') 1 : Int)).toNat = j.val :=
        congrArg (fun q => ((q 1 : Fin _) : Nat)) hq
      have a0 : 0 ≤ (D).start (ix2 e j') idx 0 + ((D).window (ix2 e j') 0 : Int) := (hall 0).1
      rw [h0] at q0 a0
      rw [h1] at q1
      exact ⟨by omega, Fin.ext (by omega)⟩
    · exact absurd h (by simp)
  · rintro ⟨hp, rfl⟩
    have hall : ∀ a, 0 ≤ (D).start (ix2 e j') idx a + ((D).window (ix2 e j') a : Int)
        ∧ (D).start (ix2 e j') idx a + ((D).window (ix2 e j') a : Int) < ((⟨2, ![n, f]⟩ : Shape).size a : Int) := by
      intro a
      match a with
      | ⟨0, _⟩ =>
        exact (show 0 ≤ (D).start (ix2 e j') idx 0 + ((D).window (ix2 e j') 0 : Int)
          ∧ (D).start (ix2 e j') idx 0 + ((D).window (ix2 e j') 0 : Int) < (n : Int) by
            rw [h0, hp]; have := p.isLt; omega)
      | ⟨1, _⟩ =>
        exact (show 0 ≤ (D).start (ix2 e j') idx 1 + ((D).window (ix2 e j') 1 : Int)
          ∧ (D).start (ix2 e j') idx 1 + ((D).window (ix2 e j') 1 : Int) < (f : Int) by
            rw [h1]; have := j'.isLt; omega)
    rw [dif_pos hall]
    congr 1
    funext a
    refine Fin.ext ?_
    match a with
    | ⟨0, _⟩ =>
      show (((D).start (ix2 e j') idx 0 + ((D).window (ix2 e j') 0 : Int)).toNat) = p.val
      rw [h0, hp]; simp
    | ⟨1, _⟩ =>
      show (((D).start (ix2 e j') idx 1 + ((D).window (ix2 e j') 1 : Int)).toNat) = j'.val
      rw [h1]; simp

/-- The accumulating row scatter read at `(p, j)`: the operand's element plus the entries `(e, j)` of the update
    rows `e` whose start word `idx[e, 0]`, read signed, is `p`. -/
theorem scatterAdd_rows_apply {φ : FTy} (x : FVec Ideal ⟨2, ![n, f]⟩ φ) (idx : IVec ⟨2, ![m, 1]⟩ w)
    (upd : FVec Ideal ⟨2, ![m, f]⟩ φ) (p : Fin n) (j : Fin f) :
    Host.scatterAdd (rowsScatterDims n m f wf) x idx upd (ix2 p j)
      = x (ix2 p j) + ∑ e ∈ Finset.univ.filter (fun e : Fin m => (idx (ix2 e 0)).toInt = (p.val : Int)),
          upd (ix2 e j) := by
  show x (ix2 p j) + ∑ q ∈ Finset.univ.filter (fun q => (D).resultIdx? q idx = some (ix2 p j)), upd q = _
  congr 1
  rw [Finset.sum_filter, sum_idx2, Finset.sum_filter]
  refine Finset.sum_congr rfl fun e _ => ?_
  simp only [rows_resultIdx?_eq_some_iff]
  by_cases h : (idx (ix2 e 0)).toInt = (p.val : Int)
  · simp [h]
  · simp [h]

end ScatterRows

/-! ## The same two readings for vectors -/

section Vectors

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (g : (⟨1, ![n]⟩ : Shape).Idx → M) :
    ∑ i, g i = ∑ a : Fin n, g (ix1 a) := by
  rw [← Equiv.sum_comp (idxEquiv1 (n := n)).symm g]
  rfl

/-- The dimension numbers of a gather of single elements of a vector: operand `[n]`, start indices `[m, 1]`,
    result `[m]`; the one operand axis is collapsed and indexed. -/
abbrev vecGatherDims (n m : Nat)
    (wf : GatherDims.WF ⟨1, ![n]⟩ ⟨2, ![m, 1]⟩ ⟨1, ![m]⟩ [] [0] [] [0] [] 1 ![1]) :
    GatherDims ⟨1, ![n]⟩ ⟨2, ![m, 1]⟩ ⟨1, ![m]⟩ where
  offsetDims := []
  collapsedSliceDims := [0]
  operandBatchingDims := []
  startIndicesBatchingDims := []
  startIndexMap := [0]
  indexVectorDim := 1
  sliceSizes := ![1]
  wf := wf

/-- The vector gather read at `e`: the operand at `idx[e, 0]`, read signed and clamped into `[0, n - 1]`. -/
theorem gather_vec_apply {α : Type} {n m w : Nat} (hn : 0 < n)
    (wf : GatherDims.WF ⟨1, ![n]⟩ ⟨2, ![m, 1]⟩ ⟨1, ![m]⟩ [] [0] [] [0] [] 1 ![1])
    (x : (⟨1, ![n]⟩ : Shape).Idx → α) (idx : IVec ⟨2, ![m, 1]⟩ w) (e : Fin m) :
    Host.gather (vecGatherDims n m wf) x idx (ix1 e)
      = x (ix1 ⟨min (idx (ix2 e 0)).toInt.toNat (n - 1), by omega⟩) := by
  unfold Host.gather
  congr 1
  funext a
  obtain rfl : a = 0 := Subsingleton.elim _ _
  refine Fin.ext ?_
  show (vecGatherDims n m wf).start (ix1 e) idx 0 + (vecGatherDims n m wf).batchCoord (ix1 e) 0
    + (vecGatherDims n m wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims n m wf).startIndexMap from List.mem_singleton.mpr rfl)]
  have hsi : (vecGatherDims n m wf).siIdx (ix1 e) ⟨List.idxOf (0 : Fin 1) (vecGatherDims n m wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- The dimension numbers of a scatter of single elements into a vector: operand `[n]`, scatter indices `[m, 1]`,
    updates `[m]`; the one operand axis is the inserted and indexed one, and there is no window axis. -/
abbrev vecScatterDims (n m : Nat)
    (wf : ScatterDims.WF ⟨1, ![n]⟩ ⟨2, ![m, 1]⟩ ⟨1, ![m]⟩ [] [0] [0] 1) :
    ScatterDims ⟨1, ![n]⟩ ⟨2, ![m, 1]⟩ ⟨1, ![m]⟩ where
  updateWindowDims := []
  insertedWindowDims := [0]
  scatterDimsToOperandDims := [0]
  indexVectorDim := 1
  wf := wf

variable {n m w : Nat} (wf : ScatterDims.WF ⟨1, ![n]⟩ ⟨2, ![m, 1]⟩ ⟨1, ![m]⟩ [] [0] [0] 1)

local notation "V" => vecScatterDims n m wf

/-- The window of update `e` starts at the start word of `e`, read signed. -/
theorem vec_start_zero (idx : IVec ⟨2, ![m, 1]⟩ w) (e : Fin m) :
    (V).start (ix1 e) idx 0 = (idx (ix2 e 0)).toInt := by
  unfold ScatterDims.start
  rw [dif_pos (show (0 : Fin 1) ∈ (V).scatterDimsToOperandDims from List.mem_singleton.mpr rfl)]
  have hsi : (V).siIdx (ix1 e)
      ⟨List.idxOf (0 : Fin 1) (V).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- The operand's one axis is inserted: its window coordinate is `0`. -/
theorem vec_window_zero (e : Fin m) : (V).window (ix1 e) 0 = 0 := by
  unfold ScatterDims.window
  rw [dif_neg (show (0 : Fin 1) ∉ (⟨1, ![n]⟩ : Shape).kept [0] by
    simp [Shape.kept, List.mem_filter])]

/-- Update `e` lands on operand element `p` exactly when the start word of `e`, read signed, is `p`. -/
theorem vec_resultIdx?_eq_some_iff (idx : IVec ⟨2, ![m, 1]⟩ w) (e : Fin m) (p : Fin n) :
    (V).resultIdx? (ix1 e) idx = some (ix1 p) ↔ (idx (ix2 e 0)).toInt = (p.val : Int) := by
  have h0 : (V).start (ix1 e) idx 0 + ((V).window (ix1 e) 0 : Int) = (idx (ix2 e 0)).toInt := by
    rw [vec_start_zero, vec_window_zero]; simp
  unfold ScatterDims.resultIdx?
  constructor
  · intro h
    split at h
    · rename_i hall
      have hq := Option.some.inj h
      have q0 : ((V).start (ix1 e) idx 0 + ((V).window (ix1 e) 0 : Int)).toNat = p.val :=
        congrArg (fun q => ((q 0 : Fin _) : Nat)) hq
      have a0 : 0 ≤ (V).start (ix1 e) idx 0 + ((V).window (ix1 e) 0 : Int) := (hall 0).1
      rw [h0] at q0 a0
      omega
    · exact absurd h (by simp)
  · intro hp
    have hall : ∀ a, 0 ≤ (V).start (ix1 e) idx a + ((V).window (ix1 e) a : Int)
        ∧ (V).start (ix1 e) idx a + ((V).window (ix1 e) a : Int) < ((⟨1, ![n]⟩ : Shape).size a : Int) := by
      intro a
      obtain rfl : a = 0 := Subsingleton.elim _ _
      exact (show 0 ≤ (V).start (ix1 e) idx 0 + ((V).window (ix1 e) 0 : Int)
        ∧ (V).start (ix1 e) idx 0 + ((V).window (ix1 e) 0 : Int) < (n : Int) by
          rw [h0, hp]; have := p.isLt; omega)
    rw [dif_pos hall]
    congr 1
    funext a
    obtain rfl : a = 0 := Subsingleton.elim _ _
    refine Fin.ext ?_
    show (((V).start (ix1 e) idx 0 + ((V).window (ix1 e) 0 : Int)).toNat) = p.val
    rw [h0, hp]; simp

/-- The accumulating vector scatter read at `p`: the operand's element plus the updates `e` whose start word
    `idx[e, 0]`, read signed, is `p`. -/
theorem scatterAdd_vec_apply {φ : FTy} (x : FVec Ideal ⟨1, ![n]⟩ φ) (idx : IVec ⟨2, ![m, 1]⟩ w)
    (upd : FVec Ideal ⟨1, ![m]⟩ φ) (p : Fin n) :
    Host.scatterAdd (vecScatterDims n m wf) x idx upd (ix1 p)
      = x (ix1 p) + ∑ e ∈ Finset.univ.filter (fun e : Fin m => (idx (ix2 e 0)).toInt = (p.val : Int)),
          upd (ix1 e) := by
  show x (ix1 p) + ∑ q ∈ Finset.univ.filter (fun q => (V).resultIdx? q idx = some (ix1 p)), upd q = _
  congr 1
  rw [Finset.sum_filter, sum_idx1, Finset.sum_filter]
  refine Finset.sum_congr rfl fun e _ => ?_
  simp only [vec_resultIdx?_eq_some_iff]

end Vectors

/-! ## The records at literal extents -/

section Literal

/-- At literal extents the fields of the row scatter's record compute to the stated lists. -/
example (wf : ScatterDims.WF ⟨2, ![100000, 8]⟩ ⟨2, ![3200000, 1]⟩ ⟨2, ![3200000, 8]⟩ [1] [0] [0] 1) :
    (rowsScatterDims 100000 3200000 8 wf).updateWindowDims = [1] := rfl

end Literal

end Idealize.ShloMosaic.GatherScatterRead

end
-- ==== Proof.RefReads.lean ====
/-
  The two programs' gathers and accumulating scatters, read at an index.

  Every gather here takes its start indices from a column: an int32 vector laid out as an [m, 1] array. A gather of
  rows of an [n, f] array, or of elements of an [n] vector, returns at result position e the operand's row (element)
  whose number is the start word of e, read as a signed integer and clamped into [0, n - 1]. An accumulating scatter
  of an [m] vector of updates into the all-zero [64] table returns, at bucket g, the sum of exactly those updates
  whose start word is the word of g: an update whose start word is negative or at least 64 is dropped, and the zero
  table contributes nothing.
-/
import proofs.«159445_j35751307771970_2_alg».proof.ReferenceIdeal
import proofs.«159445_j35751307771970_2_alg».proof.KernelIdeal
import proofs.«159445_j35751307771970_2_alg».proof.Proof.LibGatherScatterRead
import Idealize.ShloMosaic.Lib.ValueIdx
import Idealize.ShloMosaic.Lib.Pipeline.Value
import Idealize.ShloMosaic.Lib.IdealHost
import Idealize.ShloMosaic.PureOps.Ideal.Laws

noncomputable section

open scoped BigOperators

namespace Cert.RefReads

open Idealize.ShloMosaic Idealize.ShloMosaic.ValueIdx Idealize.ShloMosaic.GatherScatterRead

/-! ## The clamped start index -/

/-- A 32-bit start word read as a signed integer and clamped into [0, n - 1]. -/
def clampIdx (n : ℕ) [NeZero n] (w : BitVec 32) : Fin n :=
  ⟨min w.toInt.toNat (n - 1), by have := NeZero.pos n; omega⟩

theorem clampIdx_val (n : ℕ) [NeZero n] (w : BitVec 32) :
    (clampIdx n w).val = min w.toInt.toNat (n - 1) := rfl

/-- The signed reading of a word is k (a natural below 2^31) exactly when the word is the word of k. -/
theorem toInt_eq_natCast_iff (w : BitVec 32) (k : ℕ) (hk : k < 2147483648) :
    w.toInt = (k : ℤ) ↔ w = BitVec.ofNat 32 k := by
  have hw := w.isLt
  constructor
  · intro h
    apply BitVec.eq_of_toNat_eq
    rw [BitVec.toNat_ofNat, Nat.mod_eq_of_lt (by omega)]
    rw [BitVec.toInt_eq_toNat_cond] at h
    split_ifs at h <;> omega
  · rintro rfl
    rw [BitVec.toInt_eq_toNat_cond, BitVec.toNat_ofNat, Nat.mod_eq_of_lt (by omega)]
    split_ifs <;> omega

/-- A start word that is the word of a row number below n is clamped to that row. -/
theorem clampIdx_ofNat (n : ℕ) [NeZero n] (k : ℕ) (hk : k < n) (hn : n ≤ 2147483648) :
    clampIdx n (BitVec.ofNat 32 k) = ⟨k, hk⟩ := by
  refine Fin.ext ?_
  rw [clampIdx_val, ((toInt_eq_natCast_iff _ k (by omega)).2 rfl)]
  simp only [Int.toNat_natCast]
  omega

/-! ## A vector laid out as a column -/

/-- A vector [a] laid out as the column [a, 1] reads, at (p, u), the vector at p. -/
theorem column_apply {α : Type} {a : ℕ} (h : (⟨1, ![a]⟩ : Shape).BroadcastsInDim ⟨2, ![a, 1]⟩ ![0])
    (x : (⟨1, ![a]⟩ : Shape).Idx → α) (p : Fin a) (u : Fin 1) :
    broadcastInDim ⟨2, ![a, 1]⟩ ![0] h x (ix2 p u) = x (ix1 p) := by
  refine broadcastInDim_apply ![0] h x (ix2 p u) (ix1 p) fun ax => ?_
  match ax with
  | ⟨0, _⟩ =>
    show p.val = if a = 1 then 0 else p.val
    split_ifs with h1
    · have := p.isLt; omega
    · rfl

/-! ## The gathers -/

section Gathers
variable {α : Type}

/-- The reference's row gather by a column of node indices: row e of the result is the operand's row whose number is
    the clamped start word of e. -/
theorem gather_nodes_rows [Cert.ReferenceIdeal.Facts₀] (x : Cert.ReferenceIdeal.S131072x2.Idx → α)
    (idx : IVec Cert.ReferenceIdeal.S8388608 32) (e : Fin 8388608) (j : Fin 2) :
    Host.gather Cert.ReferenceIdeal.gather_S131072x2_S8388608x1_S8388608x2_1_0_n_n_0_1_12 x
        (broadcastInDim Cert.ReferenceIdeal.S8388608x1 ![0] Cert.ReferenceIdeal.Facts₀.bcast_S8388608_S8388608x1_0 idx)
        (ix2 e j)
      = x (ix2 (clampIdx 131072 (idx (ix1 e))) j) := by
  refine (gather_rows_apply (n := 131072) (m := 8388608) (f := 2) (by norm_num)
    Cert.ReferenceIdeal.Facts₀.gather_S131072x2_S8388608x1_S8388608x2_1_0_n_n_0_1_12_wf x _ e j).trans ?_
  refine congrArg x (congrArg (fun r => ix2 r j) (Fin.ext ?_))
  show min (broadcastInDim _ _ _ idx (ix2 e 0)).toInt.toNat (131072 - 1) = min (idx (ix1 e)).toInt.toNat (131072 - 1)
  rw [column_apply]

/-- The reference's vector gather from a [131072] vector by a column of node indices. -/
theorem gather_nodes_vec [Cert.ReferenceIdeal.Facts₀] (x : Cert.ReferenceIdeal.S131072.Idx → α)
    (idx : IVec Cert.ReferenceIdeal.S8388608 32) (e : Fin 8388608) :
    Host.gather Cert.ReferenceIdeal.gather_S131072_S8388608x1_S8388608_n_0_n_n_0_1_1 x
        (broadcastInDim Cert.ReferenceIdeal.S8388608x1 ![0] Cert.ReferenceIdeal.Facts₀.bcast_S8388608_S8388608x1_0 idx)
        (ix1 e)
      = x (ix1 (clampIdx 131072 (idx (ix1 e)))) := by
  refine (gather_vec_apply (n := 131072) (m := 8388608) (by norm_num)
    Cert.ReferenceIdeal.Facts₀.gather_S131072_S8388608x1_S8388608_n_0_n_n_0_1_1_wf x _ e).trans ?_
  refine congrArg x (congrArg (fun r => ix1 r) (Fin.ext ?_))
  show min (broadcastInDim _ _ _ idx (ix2 e 0)).toInt.toNat (131072 - 1) = min (idx (ix1 e)).toInt.toNat (131072 - 1)
  rw [column_apply]

/-- The reference's vector gather from a [64] table by a column of [131072] bucket numbers. -/
theorem gather_table_nodes [Cert.ReferenceIdeal.Facts₀] (x : Cert.ReferenceIdeal.S64.Idx → α)
    (idx : IVec Cert.ReferenceIdeal.S131072 32) (e : Fin 131072) :
    Host.gather Cert.ReferenceIdeal.gather_S64_S131072x1_S131072_n_0_n_n_0_1_1 x
        (broadcastInDim Cert.ReferenceIdeal.S131072x1 ![0] Cert.ReferenceIdeal.Facts₀.bcast_S131072_S131072x1_0 idx)
        (ix1 e)
      = x (ix1 (clampIdx 64 (idx (ix1 e)))) := by
  refine (gather_vec_apply (n := 64) (m := 131072) (by norm_num)
    Cert.ReferenceIdeal.Facts₀.gather_S64_S131072x1_S131072_n_0_n_n_0_1_1_wf x _ e).trans ?_
  refine congrArg x (congrArg (fun r => ix1 r) (Fin.ext ?_))
  show min (broadcastInDim _ _ _ idx (ix2 e 0)).toInt.toNat (64 - 1) = min (idx (ix1 e)).toInt.toNat (64 - 1)
  rw [column_apply]

/-- The kernel program's vector gather from a [64] table by a column of [8388608] bucket numbers. -/
theorem kgather_table_edges [Cert.KernelIdeal.Facts₀] (x : Cert.KernelIdeal.S64.Idx → α)
    (idx : IVec Cert.KernelIdeal.S8388608 32) (e : Fin 8388608) :
    Host.gather Cert.KernelIdeal.gather_S64_S8388608x1_S8388608_n_0_n_n_0_1_1 x
        (broadcastInDim Cert.KernelIdeal.S8388608x1 ![0] Cert.KernelIdeal.Facts₀.bcast_S8388608_S8388608x1_0 idx)
        (ix1 e)
      = x (ix1 (clampIdx 64 (idx (ix1 e)))) := by
  refine (gather_vec_apply (n := 64) (m := 8388608) (by norm_num)
    Cert.KernelIdeal.Facts₀.gather_S64_S8388608x1_S8388608_n_0_n_n_0_1_1_wf x _ e).trans ?_
  refine congrArg x (congrArg (fun r => ix1 r) (Fin.ext ?_))
  show min (broadcastInDim _ _ _ idx (ix2 e 0)).toInt.toNat (64 - 1) = min (idx (ix1 e)).toInt.toNat (64 - 1)
  rw [column_apply]

end Gathers

/-! ## The accumulating scatters into the zero table -/

/-- The all-zero [64] table: the scalar constant of the zero word, broadcast. -/
theorem zero_table_apply [Cert.ReferenceIdeal.Facts₀] (g : Cert.ReferenceIdeal.S64.Idx) :
    broadcastInDim Cert.ReferenceIdeal.S64 ![] Cert.ReferenceIdeal.Facts₀.bcast_S_S64
      (constant (F := Ideal) Cert.ReferenceIdeal.S_ .f32 0x00000000#32) g = 0 := by
  rw [broadcastInDim_scalar_apply, constant_apply, Ideal.ofBits_zero_f32]

/-- The reference's segment sum over the [8388608] updates: bucket g of the scatter into the zero table is the sum
    of the updates whose start word is the word of g. -/
theorem segsum_edges [Cert.ReferenceIdeal.Facts₀] (idx : IVec Cert.ReferenceIdeal.S8388608 32)
    (v : FVec Ideal Cert.ReferenceIdeal.S8388608 .f32) (g : Fin 64) :
    Host.scatterAdd (F := Ideal) Cert.ReferenceIdeal.scatter_S64_S8388608x1_S8388608_n_0_0_1
        (broadcastInDim Cert.ReferenceIdeal.S64 ![] Cert.ReferenceIdeal.Facts₀.bcast_S_S64
          (constant (F := Ideal) Cert.ReferenceIdeal.S_ .f32 0x00000000#32))
        (broadcastInDim Cert.ReferenceIdeal.S8388608x1 ![0] Cert.ReferenceIdeal.Facts₀.bcast_S8388608_S8388608x1_0 idx)
        v (ix1 g)
      = ∑ e ∈ (Finset.univ : Finset (Fin 8388608)).filter (fun e => idx (ix1 e) = BitVec.ofNat 32 g.val),
          v (ix1 e) := by
  refine (scatterAdd_vec_apply (n := 64) (m := 8388608)
    Cert.ReferenceIdeal.Facts₀.scatter_S64_S8388608x1_S8388608_n_0_0_1_wf _ _ v g).trans ?_
  rw [zero_table_apply, zero_add]
  refine Finset.sum_congr (Finset.filter_congr fun e _ => ?_) fun _ _ => rfl
  rw [column_apply]
  exact toInt_eq_natCast_iff _ g.val (by have := g.isLt; omega)

/-- The same over the [131072] updates. -/
theorem segsum_nodes [Cert.ReferenceIdeal.Facts₀] (idx : IVec Cert.ReferenceIdeal.S131072 32)
    (v : FVec Ideal Cert.ReferenceIdeal.S131072 .f32) (g : Fin 64) :
    Host.scatterAdd (F := Ideal) Cert.ReferenceIdeal.scatter_S64_S131072x1_S131072_n_0_0_1
        (broadcastInDim Cert.ReferenceIdeal.S64 ![] Cert.ReferenceIdeal.Facts₀.bcast_S_S64
          (constant (F := Ideal) Cert.ReferenceIdeal.S_ .f32 0x00000000#32))
        (broadcastInDim Cert.ReferenceIdeal.S131072x1 ![0] Cert.ReferenceIdeal.Facts₀.bcast_S131072_S131072x1_0 idx)
        v (ix1 g)
      = ∑ e ∈ (Finset.univ : Finset (Fin 131072)).filter (fun e => idx (ix1 e) = BitVec.ofNat 32 g.val),
          v (ix1 e) := by
  refine (scatterAdd_vec_apply (n := 64) (m := 131072)
    Cert.ReferenceIdeal.Facts₀.scatter_S64_S131072x1_S131072_n_0_0_1_wf _ _ v g).trans ?_
  rw [zero_table_apply, zero_add]
  refine Finset.sum_congr (Finset.filter_congr fun e _ => ?_) fun _ _ => rfl
  rw [column_apply]
  exact toInt_eq_natCast_iff _ g.val (by have := g.isLt; omega)

/-! ## The two programs' records of the same name are the same records -/

section Records
variable [Cert.ReferenceIdeal.Facts₀] [Cert.KernelIdeal.Facts₀]

theorem rec_eq_gather_nodes_rows :
    Cert.KernelIdeal.gather_S131072x2_S8388608x1_S8388608x2_1_0_n_n_0_1_12
      = Cert.ReferenceIdeal.gather_S131072x2_S8388608x1_S8388608x2_1_0_n_n_0_1_12 := rfl

theorem rec_eq_gather_nodes_vec :
    Cert.KernelIdeal.gather_S131072_S8388608x1_S8388608_n_0_n_n_0_1_1
      = Cert.ReferenceIdeal.gather_S131072_S8388608x1_S8388608_n_0_n_n_0_1_1 := rfl

theorem rec_eq_scatter_nodes :
    Cert.KernelIdeal.scatter_S64_S131072x1_S131072_n_0_0_1
      = Cert.ReferenceIdeal.scatter_S64_S131072x1_S131072_n_0_0_1 := rfl

end Records

/-! ## The kernel program's records of the same shapes -/

section KernelSide
variable {α : Type}

/-- The kernel program's row gather by a column of node indices. -/
theorem kgather_nodes_rows [Cert.KernelIdeal.Facts₀] (x : Cert.KernelIdeal.S131072x2.Idx → α)
    (idx : IVec Cert.KernelIdeal.S8388608 32) (e : Fin 8388608) (j : Fin 2) :
    Host.gather Cert.KernelIdeal.gather_S131072x2_S8388608x1_S8388608x2_1_0_n_n_0_1_12 x
        (broadcastInDim Cert.KernelIdeal.S8388608x1 ![0] Cert.KernelIdeal.Facts₀.bcast_S8388608_S8388608x1_0 idx)
        (ix2 e j)
      = x (ix2 (clampIdx 131072 (idx (ix1 e))) j) := by
  refine (gather_rows_apply (n := 131072) (m := 8388608) (f := 2) (by norm_num)
    Cert.KernelIdeal.Facts₀.gather_S131072x2_S8388608x1_S8388608x2_1_0_n_n_0_1_12_wf x _ e j).trans ?_
  refine congrArg x (congrArg (fun r => ix2 r j) (Fin.ext ?_))
  show min (broadcastInDim _ _ _ idx (ix2 e 0)).toInt.toNat (131072 - 1) = min (idx (ix1 e)).toInt.toNat (131072 - 1)
  rw [column_apply]

/-- The kernel program's vector gather from a [131072] vector by a column of node indices. -/
theorem kgather_nodes_vec [Cert.KernelIdeal.Facts₀] (x : Cert.KernelIdeal.S131072.Idx → α)
    (idx : IVec Cert.KernelIdeal.S8388608 32) (e : Fin 8388608) :
    Host.gather Cert.KernelIdeal.gather_S131072_S8388608x1_S8388608_n_0_n_n_0_1_1 x
        (broadcastInDim Cert.KernelIdeal.S8388608x1 ![0] Cert.KernelIdeal.Facts₀.bcast_S8388608_S8388608x1_0 idx)
        (ix1 e)
      = x (ix1 (clampIdx 131072 (idx (ix1 e)))) := by
  refine (gather_vec_apply (n := 131072) (m := 8388608) (by norm_num)
    Cert.KernelIdeal.Facts₀.gather_S131072_S8388608x1_S8388608_n_0_n_n_0_1_1_wf x _ e).trans ?_
  refine congrArg x (congrArg (fun r => ix1 r) (Fin.ext ?_))
  show min (broadcastInDim _ _ _ idx (ix2 e 0)).toInt.toNat (131072 - 1) = min (idx (ix1 e)).toInt.toNat (131072 - 1)
  rw [column_apply]

/-- The kernel program's all-zero [64] table. -/
theorem kzero_table_apply [Cert.KernelIdeal.Facts₀] (g : Cert.KernelIdeal.S64.Idx) :
    broadcastInDim Cert.KernelIdeal.S64 ![] Cert.KernelIdeal.Facts₀.bcast_S_S64
      (constant (F := Ideal) Cert.KernelIdeal.S_ .f32 0x00000000#32) g = 0 := by
  rw [broadcastInDim_scalar_apply, constant_apply, Ideal.ofBits_zero_f32]

/-- The kernel program's segment sum over the [131072] updates into the zero table. -/
theorem ksegsum_nodes [Cert.KernelIdeal.Facts₀] (idx : IVec Cert.KernelIdeal.S131072 32)
    (v : FVec Ideal Cert.KernelIdeal.S131072 .f32) (g : Fin 64) :
    Host.scatterAdd (F := Ideal) Cert.KernelIdeal.scatter_S64_S131072x1_S131072_n_0_0_1
        (broadcastInDim Cert.KernelIdeal.S64 ![] Cert.KernelIdeal.Facts₀.bcast_S_S64
          (constant (F := Ideal) Cert.KernelIdeal.S_ .f32 0x00000000#32))
        (broadcastInDim Cert.KernelIdeal.S131072x1 ![0] Cert.KernelIdeal.Facts₀.bcast_S131072_S131072x1_0 idx)
        v (ix1 g)
      = ∑ e ∈ (Finset.univ : Finset (Fin 131072)).filter (fun e => idx (ix1 e) = BitVec.ofNat 32 g.val),
          v (ix1 e) := by
  refine (scatterAdd_vec_apply (n := 64) (m := 131072)
    Cert.KernelIdeal.Facts₀.scatter_S64_S131072x1_S131072_n_0_0_1_wf _ _ v g).trans ?_
  rw [kzero_table_apply, zero_add]
  refine Finset.sum_congr (Finset.filter_congr fun e _ => ?_) fun _ _ => rfl
  rw [column_apply]
  exact toInt_eq_natCast_iff _ g.val (by have := g.isLt; omega)

end KernelSide

end Cert.RefReads

end
-- ==== Proof.RefReal.lean ====
/-
  The reference's per-edge terms are real numbers.

  With real node positions and sizes and real nonzero edge lengths d, the reference's per-edge quantities, read at
  one edge, are the textbook expressions in the two endpoints' rows: the length ratio ‖p - q‖ / d, its square, the
  stress (|‖p/y - q/z‖ - d| / d)² with y, z the scales of the endpoints' graphs, and the normalized overlap. The
  ratio is real, so each graph's scale (Σ ratio²)/(Σ ratio) over its edges is never 0, so the scaled positions are
  real and the stress is real; the normalized overlap is never +∞.
-/
import proofs.«159445_j35751307771970_2_alg».proof.Proof.Gen.ReferenceIdeal.Run
import proofs.«159445_j35751307771970_2_alg».proof.Proof.RefReads
import proofs.«159445_j35751307771970_2_alg».proof.Proof.LibIdealReal
import proofs.«159445_j35751307771970_2_alg».proof.Proof.ScatterLaw
import Idealize.ShloMosaic.Lib.ValueIdx
import Idealize.ShloMosaic.Lib.Pipeline.Value
import Idealize.ShloMosaic.Lib.IdealHost
import Idealize.ShloMosaic.PureOps.Ideal.Laws

noncomputable section

open scoped BigOperators

namespace Cert.RefReal

open Idealize.ShloMosaic Idealize.ShloMosaic.ValueIdx Idealize.SL.Sem Cert.Lib.IdealReal Cert.RefReads

/-! ## Layout operations read at an index -/

section Layout
variable {α : Type}

/-- A column [m, 1] reshaped to the vector [m] reads, at e, the column at (e, 0). -/
theorem column_to_vector_apply {m : ℕ} (x : (⟨2, ![m, 1]⟩ : Shape).Idx → α)
    (h : (⟨2, ![m, 1]⟩ : Shape).ShapeCasts ⟨1, ![m]⟩) (e : Fin m) :
    shapeCast ⟨1, ![m]⟩ x h (ix1 e) = x (ix2 e 0) := by
  refine shapeCast_apply x h (ix1 e) (ix2 e 0) ?_
  rw [Shape.rowMajor_val_one, Shape.rowMajor_val_two]
  show e.val * 1 + 0 = e.val
  omega

/-- Column c of an [m, 2] array, as an [m, 1] block, reads at (e, 0) the array at (e, c). -/
theorem slice_column_apply {m : ℕ} (c : Fin 2) (x : (⟨2, ![m, 2]⟩ : Shape).Idx → α)
    (h : (⟨2, ![m, 2]⟩ : Shape).Slices ![0, c.val] ⟨2, ![m, 1]⟩) (e : Fin m) :
    extractStridedSlice ⟨2, ![m, 1]⟩ ![0, c.val] x h (ix2 e 0) = x (ix2 e c) := by
  refine extractStridedSlice_apply ![0, c.val] x h (ix2 e 0) (ix2 e c) fun a => ?_
  match a with
  | ⟨0, _⟩ => show e.val = 0 + e.val; omega
  | ⟨1, _⟩ => show c.val = c.val + 0; omega

/-- A column [m, 1] repeated along a second axis of extent n reads, at (p, q), the column at (p, 0). -/
theorem column_repeat_apply {m n : ℕ} (h : (⟨2, ![m, 1]⟩ : Shape).BroadcastsInDim ⟨2, ![m, n]⟩ ![0, 1])
    (x : (⟨2, ![m, 1]⟩ : Shape).Idx → α) (p : Fin m) (q : Fin n) :
    broadcastInDim ⟨2, ![m, n]⟩ ![0, 1] h x (ix2 p q) = x (ix2 p 0) := by
  refine broadcastInDim_apply ![0, 1] h x (ix2 p q) (ix2 p 0) fun ax => ?_
  match ax with
  | ⟨0, _⟩ =>
    show p.val = if m = 1 then 0 else p.val
    split_ifs with h1
    · have := p.isLt; omega
    · rfl
  | ⟨1, _⟩ =>
    show 0 = if 1 = 1 then 0 else q.val
    rfl

end Layout

/-- The host's sum of an [m, 2] array over its second axis, from the zero word: at e it is 0 + (x(e,0) + x(e,1)). -/
theorem rowsum2_apply {m : ℕ} (x : FVec Ideal ⟨2, ![m, 2]⟩ .f32)
    (h' : (⟨2, ![m, 2]⟩ : Shape).ReducesTo [1] ⟨1, ![m]⟩) (hu : 0 < (⟨0, ![]⟩ : Shape).numel) (e : Fin m) :
    Host.reduceAdd x (constant (F := Ideal) ⟨0, ![]⟩ .f32 0x00000000#32) h' hu (ix1 e)
      = 0 + (x (ix2 e 0) + x (ix2 e 1)) := by
  have h : (⟨2, ![m, 2]⟩ : Shape).Reduces [1] ⟨1, ![m]⟩ := ⟨h'.1, Nat.one_pos, h'.2⟩
  show Ideal.hostReduceAdd h' x (constant (F := Ideal) ⟨0, ![]⟩ .f32 0x00000000#32 (Shape.Idx.first hu)) (ix1 e) = _
  rw [Ideal.hostReduceAdd_single h' h, constant_apply, Ideal.ofBits_zero_f32]
  show (0 : EReal) + ∑ k : Fin 2, x (h.lift (ix1 e) k) = _
  rw [Fin.sum_univ_two]
  have l0 : h.lift (ix1 e) (0 : Fin 2) = ix2 e 0 := by
    funext a; match a with | ⟨0, _⟩ => exact Fin.ext rfl | ⟨1, _⟩ => exact Fin.ext rfl
  have l1 : h.lift (ix1 e) (1 : Fin 2) = ix2 e 1 := by
    funext a; match a with | ⟨0, _⟩ => exact Fin.ext rfl | ⟨1, _⟩ => exact Fin.ext rfl
  rw [l0, l1]

/-- The host's square root at an index is the square root of the element. -/
theorem hostSqrt_apply {s : Shape} {φ : FTy} (x : FVec Ideal s φ) (i : s.Idx) : Host.sqrt x i = Ideal.sqrt (x i) := rfl

/-- The host's absolute value at an index is the larger of the element and its negative. -/
theorem hostAbsf_apply {s : Shape} {φ : FTy} (x : FVec Ideal s φ) (i : s.Idx) : Host.absf x i = max (x i) (-(x i)) := rfl

/-! ## The reference's terms read at one edge -/

section Terms

open Cert.ReferenceIdeal Cert.ReferenceIdeal.Gen Cert.ReferenceIdeal.Value

set_option maxRecDepth 8192

variable (L : Valuation τ sig (Elt Ideal))

/-- The node positions the program is launched with, as extended reals. -/
abbrev pos : S131072x2.Idx → EReal := L (Proc.devRef .tc main_arg0)
/-- The node sizes. -/
abbrev size : S131072x2.Idx → EReal := L (Proc.devRef .tc main_arg1)
/-- The edge lengths d, a column. -/
abbrev len : S8388608x1.Idx → EReal := L (Proc.devRef .tc main_arg2)

/-- A node-index word after the wrap of negative indices: w + 131072 where w is negative, else w. -/
def wrapNode (v : IVec S8388608 32) : IVec S8388608 32 :=
  select (cmpi .slt v (broadcastInDim S8388608 ![] bcast_S_S8388608 (constantI S_ 32 0#32)))
    (addi v (broadcastInDim S8388608 ![] bcast_S_S8388608 (constantI S_ 32 131072#32))) v

/-- The start node of edge e: its wrapped index word, clamped into the node range. -/
def startNode (e : Fin 8388608) : Fin 131072 := clampIdx 131072 (wrapNode (res_main_v1 L) (ix1 e))

/-- The end node of edge e. -/
def endNode (e : Fin 8388608) : Fin 131072 := clampIdx 131072 (wrapNode (res_main_v3 L) (ix1 e))

/-- The edge's difference vector: position of the start node minus position of the end node. -/
theorem diff_apply (e : Fin 8388608) (j : Fin 2) :
    res_main_v26 L (ix2 e j) = pos L (ix2 (startNode L e) j) - pos L (ix2 (endNode L e) j) := by
  unfold res_main_v26
  rw [subf_apply, gather_nodes_rows, gather_nodes_rows]
  rfl

/-- The edge's length d. -/
theorem len_apply (e : Fin 8388608) : res_main_v11 L (ix1 e) = len L (ix2 e 0) := by
  unfold res_main_v11
  exact column_to_vector_apply _ _ e

/-- The edge's ratio ‖p - q‖ / d. -/
theorem ratio_apply (e : Fin 8388608) :
    res_main_v30 L (ix1 e)
      = Ideal.div (Ideal.sqrt (0 +
          ((pos L (ix2 (startNode L e) 0) - pos L (ix2 (endNode L e) 0))
              * (pos L (ix2 (startNode L e) 0) - pos L (ix2 (endNode L e) 0))
            + (pos L (ix2 (startNode L e) 1) - pos L (ix2 (endNode L e) 1))
              * (pos L (ix2 (startNode L e) 1) - pos L (ix2 (endNode L e) 1)))))
          (len L (ix2 e 0)) := by
  unfold res_main_v30
  rw [hostDivf_apply, hostSqrt_apply, len_apply, rowsum2_apply, mulf_apply, mulf_apply, diff_apply, diff_apply]

variable (hp : ∀ i, IsReal (pos L i)) (hd0 : ∀ i, len L i ≠ 0)

include hp hd0 in
/-- **The ratio is real**: real positions, nonzero length. -/
theorem ratio_real (e : Fin 8388608) : IsReal (res_main_v30 L (ix1 e)) := by
  rw [ratio_apply]
  exact Cert.ScatterLaw.ratio_isReal (hp _) (hp _) (hp _) (hp _) (hd0 _)

include hp hd0 in
/-- **The squared ratio is real.** -/
theorem ratio2_real (e : Fin 8388608) : IsReal (mulf (res_main_v30 L) (res_main_v30 L) (ix1 e)) := by
  rw [mulf_apply]
  exact (ratio_real L hp hd0 e).mul (ratio_real L hp hd0 e)

end Terms

/-! ## The graphs' scales -/

section Scale

open Cert.ReferenceIdeal Cert.ReferenceIdeal.Gen Cert.ReferenceIdeal.Value

set_option maxRecDepth 8192

variable (L : Valuation τ sig (Elt Ideal))

/-- The scale of each graph: the sum of its edges' squared ratios over the sum of their ratios. -/
def scaleTable : S64.Idx → EReal :=
  Host.divf (F := Ideal) (φ := .f32) (Host.scatterAdd scatter_S64_S8388608x1_S8388608_n_0_0_1 (broadcastInDim S64 ![] bcast_S_S64 (constant S_ .f32 0x00000000#32)) (broadcastInDim S8388608x1 ![0] bcast_S8388608_S8388608x1_0 (res_main_v10 L)) (mulf (res_main_v30 L) (res_main_v30 L))) (Host.scatterAdd scatter_S64_S8388608x1_S8388608_n_0_0_1 (broadcastInDim S64 ![] bcast_S_S64 (constant S_ .f32 0x00000000#32)) (broadcastInDim S8388608x1 ![0] bcast_S8388608_S8388608x1_0 (res_main_v10 L)) (res_main_v30 L))

/-- A graph-id word of a node after the wrap of negative ids: w + 64 where w is negative, else w. -/
def wrapGraph (v : IVec S131072 32) : IVec S131072 32 :=
  select (cmpi .slt v (broadcastInDim S131072 ![] bcast_S_S131072 (constantI S_ 32 0#32)))
    (addi v (broadcastInDim S131072 ![] bcast_S_S131072 (constantI S_ 32 64#32))) v

/-- The graph of node p: its wrapped graph-id word, clamped into the 64 graphs. -/
def nodeGraph (p : Fin 131072) : Fin 64 := clampIdx 64 (wrapGraph (L (Proc.devRef .tc main_arg4)) (ix1 p))

/-- The scaled positions: each node's position over the scale of its graph. -/
theorem scaled_apply (p : Fin 131072) (j : Fin 2) :
    res_main_v48 L (ix2 p j) = Ideal.div (pos L (ix2 p j)) (scaleTable L (ix1 (nodeGraph L p))) := by
  unfold res_main_v48
  rw [hostDivf_apply, column_repeat_apply, column_apply, gather_table_nodes]
  rfl

variable (hp : ∀ i, IsReal (pos L i)) (hd0 : ∀ i, len L i ≠ 0)

include hp hd0 in
/-- **No graph's scale is 0.** -/
theorem scale_ne_zero (g : Fin 64) : scaleTable L (ix1 g) ≠ 0 := by
  have hR : ∀ e : Fin 8388608, ∃ r : ℝ, res_main_v30 L (ix1 e) = (r : EReal) := ratio_real L hp hd0
  choose r hr using hR
  unfold scaleTable
  rw [hostDivf_apply, segsum_edges, segsum_edges,
    Finset.sum_congr rfl (fun e _ => (by rw [mulf_apply, hr e] :
      mulf (res_main_v30 L) (res_main_v30 L) (ix1 e) = (r e : EReal) * (r e : EReal)))]
  simp only [hr]
  exact div_sum_sq_sum_ne_zero _ r

end Scale

/-! ## The edge stress -/

section Stress

open Cert.ReferenceIdeal Cert.ReferenceIdeal.Gen Cert.ReferenceIdeal.Value

set_option maxRecDepth 8192

variable (L : Valuation τ sig (Elt Ideal))

/-- The edge's difference vector of scaled positions: each endpoint's position over the scale of its graph. -/
theorem scaled_diff_apply (e : Fin 8388608) (j : Fin 2) :
    res_main_v63 L (ix2 e j)
      = Ideal.div (pos L (ix2 (startNode L e) j)) (scaleTable L (ix1 (nodeGraph L (startNode L e))))
        - Ideal.div (pos L (ix2 (endNode L e) j)) (scaleTable L (ix1 (nodeGraph L (endNode L e)))) := by
  unfold res_main_v63
  rw [subf_apply, gather_nodes_rows, gather_nodes_rows, scaled_apply, scaled_apply]
  rfl

variable (hp : ∀ i, IsReal (pos L i)) (hd : ∀ i, IsReal (len L i)) (hd0 : ∀ i, len L i ≠ 0)

include hp hd hd0 in
/-- **The edge stress (|‖p/y - q/z‖ - d| / d)² is real.** -/
theorem stress_real (e : Fin 8388608) : IsReal (mulf (res_main_v69 L) (res_main_v69 L) (ix1 e)) := by
  rw [mulf_apply]
  unfold res_main_v69
  rw [hostDivf_apply, hostAbsf_apply, subf_apply, hostSqrt_apply, len_apply, rowsum2_apply, mulf_apply, mulf_apply,
    scaled_diff_apply, scaled_diff_apply]
  exact Cert.ScatterLaw.stress_isReal (hp _) (hp _) (hp _) (hp _) (scale_ne_zero L hp hd0 _) (scale_ne_zero L hp hd0 _)
    (hd _) (hd0 _)

end Stress

/-! ## The normalized overlap -/

section Overlap

open Cert.ReferenceIdeal Cert.ReferenceIdeal.Gen Cert.ReferenceIdeal.Value

set_option maxRecDepth 8192

variable (L : Valuation τ sig (Elt Ideal))

/-- The sizes of the edge's start node. -/
theorem size_start_apply (e : Fin 8388608) (c : Fin 2) :
    res_main_v86 L (ix2 e c) = size L (ix2 (startNode L e) c) := by
  unfold res_main_v86
  rw [gather_nodes_rows]
  rfl

/-- The sizes of the edge's end node. -/
theorem size_end_apply (e : Fin 8388608) (c : Fin 2) :
    res_main_v93 L (ix2 e c) = size L (ix2 (endNode L e) c) := by
  unfold res_main_v93
  rw [gather_nodes_rows]
  rfl

/-- The position of the edge's start node. -/
theorem pos_start_apply (e : Fin 8388608) (c : Fin 2) :
    res_main_v100 L (ix2 e c) = pos L (ix2 (startNode L e) c) := by
  unfold res_main_v100
  rw [gather_nodes_rows]
  rfl

/-- The position of the edge's end node. -/
theorem pos_end_apply (e : Fin 8388608) (c : Fin 2) :
    res_main_v107 L (ix2 e c) = pos L (ix2 (endNode L e) c) := by
  unfold res_main_v107
  rw [gather_nodes_rows]
  rfl

/-- Column 0 of an [m, 2] array, as a vector, reads at e the array at (e, 0). -/
theorem column0_apply {α : Type} {m : ℕ} (x : (⟨2, ![m, 2]⟩ : Shape).Idx → α)
    (h : (⟨2, ![m, 2]⟩ : Shape).Slices ![0, 0] ⟨2, ![m, 1]⟩)
    (h' : (⟨2, ![m, 1]⟩ : Shape).ShapeCasts ⟨1, ![m]⟩) (e : Fin m) :
    shapeCast ⟨1, ![m]⟩ (extractStridedSlice ⟨2, ![m, 1]⟩ ![0, 0] x h) h' (ix1 e) = x (ix2 e 0) :=
  (column_to_vector_apply _ h' e).trans (slice_column_apply 0 x h e)

/-- Column 1 of an [m, 2] array, as a vector, reads at e the array at (e, 1). -/
theorem column1_apply {α : Type} {m : ℕ} (x : (⟨2, ![m, 2]⟩ : Shape).Idx → α)
    (h : (⟨2, ![m, 2]⟩ : Shape).Slices ![0, 1] ⟨2, ![m, 1]⟩)
    (h' : (⟨2, ![m, 1]⟩ : Shape).ShapeCasts ⟨1, ![m]⟩) (e : Fin m) :
    shapeCast ⟨1, ![m]⟩ (extractStridedSlice ⟨2, ![m, 1]⟩ ![0, 1] x h) h' (ix1 e) = x (ix2 e 1) :=
  (column_to_vector_apply _ h' e).trans (slice_column_apply 1 x h e)

/-- The single-precision word 0x3F000000 is one half. -/
theorem half_word : Ideal.ofBits .f32 0x3F000000#32 = (((1 : ℝ) / 2 : ℝ) : EReal) := by
  simp [Ideal.ofBits, Ideal.ieee, -EReal.coe_mul]; norm_num

/-- The normalized overlap of edge e, in its endpoints' sizes s, t and positions p, q:
    max(½(s₀+t₀) - |p₀-q₀|, 0) · max(½(s₁+t₁) - |p₁-q₁|, 0) over (s₀+s₁) + (t₀+t₁). -/
theorem novl_apply (e : Fin 8388608) :
    val3 L (Proc.devRef .tc main_v144) (ix1 e)
      = Ideal.div
          (max ((size L (ix2 (startNode L e) 0) + size L (ix2 (endNode L e) 0)) * (((1 : ℝ) / 2 : ℝ) : EReal)
                - max (pos L (ix2 (startNode L e) 0) - pos L (ix2 (endNode L e) 0))
                    (-(pos L (ix2 (startNode L e) 0) - pos L (ix2 (endNode L e) 0)))) 0
            * max ((size L (ix2 (startNode L e) 1) + size L (ix2 (endNode L e) 1)) * (((1 : ℝ) / 2 : ℝ) : EReal)
                - max (pos L (ix2 (startNode L e) 1) - pos L (ix2 (endNode L e) 1))
                    (-(pos L (ix2 (startNode L e) 1) - pos L (ix2 (endNode L e) 1)))) 0)
          ((0 + (size L (ix2 (startNode L e) 0) + size L (ix2 (startNode L e) 1)))
            + (0 + (size L (ix2 (endNode L e) 0) + size L (ix2 (endNode L e) 1)))) := by
  rw [val3_main_v144]
  rw [hostDivf_apply, mulf_apply, maximumf_apply, maximumf_apply, subf_apply, subf_apply, mulf_apply, mulf_apply,
    addf_apply, addf_apply, addf_apply, hostAbsf_apply, hostAbsf_apply, subf_apply, subf_apply]
  rw [column0_apply, column0_apply, column0_apply, column0_apply, column1_apply, column1_apply, column1_apply,
    column1_apply]
  rw [broadcastInDim_scalar_apply, broadcastInDim_scalar_apply, constant_apply, constant_apply, half_word,
    Ideal.ofBits_zero_f32]
  rw [rowsum2_apply, rowsum2_apply]
  rw [size_start_apply, size_start_apply, size_end_apply, size_end_apply, pos_start_apply, pos_start_apply,
    pos_end_apply, pos_end_apply]

variable (hp : ∀ i, IsReal (pos L i)) (hs : ∀ i, IsReal (size L i))

include hp hs in
/-- **The normalized overlap is never +∞**: real where the total size is nonzero, 0/0 where it is zero. -/
theorem novl_ne_top (e : Fin 8388608) : val3 L (Proc.devRef .tc main_v144) (ix1 e) ≠ (⊤ : EReal) := by
  rw [novl_apply]
  obtain ⟨s0, h1⟩ := hs (ix2 (startNode L e) 0)
  obtain ⟨s1, h2⟩ := hs (ix2 (startNode L e) 1)
  obtain ⟨t0, h3⟩ := hs (ix2 (endNode L e) 0)
  obtain ⟨t1, h4⟩ := hs (ix2 (endNode L e) 1)
  obtain ⟨p0, h5⟩ := hp (ix2 (startNode L e) 0)
  obtain ⟨p1, h6⟩ := hp (ix2 (startNode L e) 1)
  obtain ⟨q0, h7⟩ := hp (ix2 (endNode L e) 0)
  obtain ⟨q1, h8⟩ := hp (ix2 (endNode L e) 1)
  rw [h1, h2, h3, h4, h5, h6, h7, h8, ← EReal.coe_sub, ← EReal.coe_sub]
  exact Cert.ScatterLaw.overlap_ne_top (by norm_num)

end Overlap

end Cert.RefReal

end
-- ==== Proof.StressEq.lean ====
/-
  The kernel's edge stress is the reference's.

  The kernel program divides, edge by edge, the position of each end node by the scale of that node's graph and
  subtracts; the reference first divides every node's position by its graph's scale and then gathers the rows of
  the two end nodes.  Both gathers clamp a start word into the node range in the same way, and the graph of a node
  is read through the same wrap of a negative graph id by 64 followed by the same clamp into the 64 graphs, applied
  to the same word: the kernel program wraps the gathered id of the node, the reference wraps every node's id
  before gathering.  So the two differences agree entry by entry, and the relative length error and the stress,
  which apply the same operations to that difference and the edge length, agree too.
-/
import proofs.«159445_j35751307771970_2_alg».proof.Proof.KDefs
import proofs.«159445_j35751307771970_2_alg».proof.Proof.RDefs
import proofs.«159445_j35751307771970_2_alg».proof.Proof.RefReal

noncomputable section

namespace Cert.StressEq

open Idealize.ShloMosaic Idealize.ShloMosaic.ValueIdx Idealize.SL.Sem Cert.RefReads Cert.RefReal
open Cert.ReferenceIdeal.Value

set_option maxRecDepth 8192

variable [Cert.KernelIdeal.Facts] (L : Valuation Cert.ReferenceIdeal.τ Cert.ReferenceIdeal.sig (Elt Ideal))

/-- The wrap of a negative graph id by 64 is the same scalar function of the word on the two sides: equal words
    wrap to equal words. -/
theorem wrap_congr (gid : IVec Cert.KernelIdeal.S8388608 32) (b : IVec Cert.ReferenceIdeal.S131072 32)
    (i : Cert.KernelIdeal.S8388608.Idx) (p : Cert.ReferenceIdeal.S131072.Idx) (h : gid i = b p) :
    Cert.KernelIdeal.KD.wrap64 gid i = wrapGraph b p := by
  show Scalar.select (IntOp.cmpi .slt (gid i) 0#32) (IntOp.addi (gid i) 64#32) (gid i)
    = Scalar.select (IntOp.cmpi .slt (b p) 0#32) (IntOp.addi (b p) 64#32) (b p)
  rw [h]

/-- The scale spread over an edge's two coordinates reads, at (e, j), the table at the clamped wrapped graph id of e. -/
theorem scaleAt_apply (sc : FVec Ideal Cert.KernelIdeal.S64 .f32) (gid : IVec Cert.KernelIdeal.S8388608 32)
    (e : Fin 8388608) (j : Fin 2) :
    Cert.KernelIdeal.KD.scaleAt sc gid (ix2 e j) = sc (ix1 (clampIdx 64 (Cert.KernelIdeal.KD.wrap64 gid (ix1 e)))) := by
  unfold Cert.KernelIdeal.KD.scaleAt
  rw [column_repeat_apply, column_apply, kgather_table_edges]

/-- The gathered position of an edge's start node. -/
theorem pos_start (e : Fin 8388608) (j : Fin 2) : res_main_v100 L (ix2 e j) = pos L (ix2 (startNode L e) j) := by
  unfold res_main_v100
  rw [gather_nodes_rows]
  rfl

/-- The gathered position of an edge's end node. -/
theorem pos_end (e : Fin 8388608) (j : Fin 2) : res_main_v107 L (ix2 e j) = pos L (ix2 (endNode L e) j) := by
  unfold res_main_v107
  rw [gather_nodes_rows]
  rfl

/-- The gathered graph id of an edge's start node. -/
theorem gid_start (e : Fin 8388608) :
    res_main_v10 L (ix1 e) = L (Proc.devRef .tc Cert.ReferenceIdeal.main_arg4) (ix1 (startNode L e)) := by
  unfold res_main_v10
  rw [gather_nodes_vec]
  rfl

/-- The gathered graph id of an edge's end node. -/
theorem gid_end (e : Fin 8388608) :
    Cert.RD.gidEnd L (ix1 e) = L (Proc.devRef .tc Cert.ReferenceIdeal.main_arg4) (ix1 (endNode L e)) := by
  unfold Cert.RD.gidEnd
  rw [gather_nodes_vec]
  rfl

/-- The reference's difference of the scaled positions of an edge's two end nodes, read at (e, j). -/
theorem v63_apply (e : Fin 8388608) (j : Fin 2) :
    res_main_v63 L (ix2 e j)
      = Ideal.div (pos L (ix2 (startNode L e) j)) (scaleTable L (ix1 (nodeGraph L (startNode L e))))
        - Ideal.div (pos L (ix2 (endNode L e) j)) (scaleTable L (ix1 (nodeGraph L (endNode L e)))) := by
  unfold res_main_v63
  rw [subf_apply, gather_nodes_rows, gather_nodes_rows, scaled_apply, scaled_apply]
  rfl

/-- **The difference of the rescaled end positions is the reference's.** -/
theorem diff2_eq :
    Cert.KernelIdeal.KD.diff2 (F := Ideal) (Cert.RD.scaleR L) (res_main_v10 L) (Cert.RD.gidEnd L) (res_main_v100 L)
      (res_main_v107 L) = res_main_v63 L := by
  funext i
  obtain ⟨e, j, rfl⟩ : ∃ (e : Fin 8388608) (j : Fin 2), i = ix2 e j := ⟨_, _, eq_ix2 i⟩
  rw [v63_apply]
  unfold Cert.KernelIdeal.KD.diff2
  rw [subf_apply, hostDivf_apply, hostDivf_apply, scaleAt_apply, scaleAt_apply, pos_start, pos_end,
    wrap_congr _ _ _ _ (gid_start L e), wrap_congr _ _ _ _ (gid_end L e)]
  rfl

/-- **The relative length error after rescaling is the reference's.** -/
theorem relErr_eq :
    Cert.KernelIdeal.KD.relErr (F := Ideal) (Cert.RD.scaleR L) (res_main_v10 L) (Cert.RD.gidEnd L) (res_main_v100 L)
      (res_main_v107 L) (res_main_v11 L) = res_main_v69 L := by
  unfold Cert.KernelIdeal.KD.relErr res_main_v69
  rw [diff2_eq]

/-- **The edge stress is the square of the reference's relative length error.** -/
theorem stress_eq :
    Cert.KernelIdeal.KD.stress (F := Ideal) (Cert.RD.scaleR L) (res_main_v10 L) (Cert.RD.gidEnd L) (res_main_v100 L)
      (res_main_v107 L) (res_main_v11 L) = mulf (res_main_v69 L) (res_main_v69 L) := by
  unfold Cert.KernelIdeal.KD.stress
  rw [relErr_eq]

end Cert.StressEq

end
-- ==== Proof.TailEq.lean ====
/-
  The two programs' last lines agree.

  Both programs end with the mean over the 64 graphs of a per-graph loss: the graph's stress over its squared size, plus
  its mean overlap. The reference multiplies each of the two terms by a weight vector whose every entry is the f32 pattern
  of 1.0 before adding them. That pattern denotes the extended real 1, and 1 * x = x at every extended real, so the
  weighted sum is the plain sum; what remains on the two sides is the same sum over the 64 entries divided by the same
  constant 64.
-/
import proofs.«159445_j35751307771970_2_alg».proof.Proof.KDefs
import proofs.«159445_j35751307771970_2_alg».proof.Proof.Gen.ReferenceIdeal
import Idealize.ShloMosaic.Lib.ValueIdx
import Idealize.ShloMosaic.PureOps.Ideal.Laws

noncomputable section

namespace Cert.TailEq

open Idealize.ShloMosaic Idealize.ShloMosaic.ValueIdx

/-- The f32 pattern of 1.0 — sign 0, exponent field 127, fraction 0 — denotes 2^23 * 2^(127 - 127 - 23) = 1. -/
theorem ofBits_one_f32 : Ideal.ofBits .f32 0x3F800000#32 = (1 : EReal) := by
  simp [Ideal.ofBits, Ideal.ieee, -EReal.coe_mul]
  norm_num

/-- The all-ones weight vector times `x` is `x`: every entry of the weight is the constant 1, and `1 * x i = x i`. -/
theorem ones_mul (x : Cert.ReferenceIdeal.S64.Idx → EReal) :
    mulf (F := Ideal) (broadcastInDim Cert.ReferenceIdeal.S64 ![] Cert.ReferenceIdeal.Gen.bcast_S_S64
      (constant (F := Ideal) Cert.ReferenceIdeal.S_ .f32 0x3F800000#32)) x = x := by
  funext i
  show Ideal.ofBits .f32 0x3F800000#32 * x i = x i
  rw [ofBits_one_f32, one_mul]

/-- The kernel program's mean of the per-graph loss is the reference's mean of the weighted per-graph loss. -/
theorem result_eq [Cert.KernelIdeal.Facts] (gs sz ov : Cert.KernelIdeal.S64.Idx → EReal) :
    Cert.KernelIdeal.KD.result (F := Ideal) (Cert.KernelIdeal.KD.combined (F := Ideal) gs sz ov)
      = Host.divf (F := Ideal)
          (Host.reduceAdd (F := Ideal)
            (addf
              (mulf (broadcastInDim Cert.ReferenceIdeal.S64 ![] Cert.ReferenceIdeal.Gen.bcast_S_S64
                (constant (F := Ideal) Cert.ReferenceIdeal.S_ .f32 0x3F800000#32)) (Host.divf gs (mulf sz sz)))
              (mulf (broadcastInDim Cert.ReferenceIdeal.S64 ![] Cert.ReferenceIdeal.Gen.bcast_S_S64
                (constant (F := Ideal) Cert.ReferenceIdeal.S_ .f32 0x3F800000#32)) ov))
            (constant (F := Ideal) Cert.ReferenceIdeal.S_ .f32 0x00000000#32)
            Cert.ReferenceIdeal.Gen.reducesTo_S64_S_d0 Cert.ReferenceIdeal.Gen.h_S_)
          (constant (F := Ideal) Cert.ReferenceIdeal.S_ .f32 0x42800000#32) := by
  rw [ones_mul, ones_mul]
  rfl

end Cert.TailEq

end
-- ==== Proof.HostK1.lean ====
/-
  The kernel program's first stretch of host operations computes, from the five arguments, the same per-edge
  quantities as the reference program does, by the same operations in the same order: the graph id of an edge's
  start and end node, the edge's rest length, the positions and sizes of its two end nodes, the ratio of its
  length to its rest length and that ratio's square, the normalized overlap of the two nodes' boxes, and the
  all-ones vector.  Each statement below reads one buffer after the stretch as the composed term of the
  arguments and identifies it with the reference's term over the same arguments.  The two programs name their
  shapes and dimension records separately; the names unfold to the same values.
-/
import proofs.«159445_j35751307771970_2_alg».proof.Proof.Gen.ReferenceIdeal.Run
import proofs.«159445_j35751307771970_2_alg».proof.Proof.Gen.KernelIdeal.Launch
import Idealize.ShloMosaic.Lib.StableHlo.Run

noncomputable section

namespace Cert.HostK1

open Idealize.ShloMosaic Idealize.ShloMosaic.TcCoe Idealize.SL.Sem Idealize.ShloMosaic.StableHlo

variable {F : FTy → Type} [FloatOps F]
variable {V : Valuation Cert.KernelIdeal.τ Cert.KernelIdeal.sig (Elt F)}
variable {L : Valuation Cert.ReferenceIdeal.τ Cert.ReferenceIdeal.sig (Elt F)}
variable (h0 : V (Proc.devRef .tc Cert.KernelIdeal.main_arg0) = L (Proc.devRef .tc Cert.ReferenceIdeal.main_arg0))
variable (h1 : V (Proc.devRef .tc Cert.KernelIdeal.main_arg1) = L (Proc.devRef .tc Cert.ReferenceIdeal.main_arg1))
variable (h2 : V (Proc.devRef .tc Cert.KernelIdeal.main_arg2) = L (Proc.devRef .tc Cert.ReferenceIdeal.main_arg2))
variable (h3 : V (Proc.devRef .tc Cert.KernelIdeal.main_arg3) = L (Proc.devRef .tc Cert.ReferenceIdeal.main_arg3))
variable (h4 : V (Proc.devRef .tc Cert.KernelIdeal.main_arg4) = L (Proc.devRef .tc Cert.ReferenceIdeal.main_arg4))
include h0 h1 h2 h3 h4

set_option maxRecDepth 8192 in
set_option maxHeartbeats 2000000 in
/-- The graph id of each edge's start node. -/
theorem k_v10 :
    StableHlo.after Cert.KernelIdeal.Gen.hostOps0 V (Proc.devRef .tc Cert.KernelIdeal.main_v10) = Cert.ReferenceIdeal.Value.res_main_v10 L := by
  simp only [Cert.KernelIdeal.Gen.hostOps0]
  after_results_simp
  simp only [h3, h4] <;> rfl

set_option maxRecDepth 8192 in
set_option maxHeartbeats 2000000 in
/-- The ratio of each edge's length to its rest length. -/
theorem k_v51 :
    StableHlo.after Cert.KernelIdeal.Gen.hostOps0 V (Proc.devRef .tc Cert.KernelIdeal.main_v51) = Cert.ReferenceIdeal.Value.res_main_v30 L := by
  simp only [Cert.KernelIdeal.Gen.hostOps0]
  after_results_simp
  simp only [h0, h2, h3] <;> rfl

set_option maxRecDepth 8192 in
set_option maxHeartbeats 2000000 in
/-- The square of that ratio. -/
theorem k_v52 :
    StableHlo.after Cert.KernelIdeal.Gen.hostOps0 V (Proc.devRef .tc Cert.KernelIdeal.main_v52) = mulf (Cert.ReferenceIdeal.Value.res_main_v30 L) (Cert.ReferenceIdeal.Value.res_main_v30 L) := by
  simp only [Cert.KernelIdeal.Gen.hostOps0]
  after_results_simp
  simp only [h0, h2, h3] <;> rfl

set_option maxRecDepth 8192 in
set_option maxHeartbeats 2000000 in
/-- Each edge's rest length. -/
theorem k_v18 :
    StableHlo.after Cert.KernelIdeal.Gen.hostOps0 V (Proc.devRef .tc Cert.KernelIdeal.main_v18) = Cert.ReferenceIdeal.Value.res_main_v11 L := by
  simp only [Cert.KernelIdeal.Gen.hostOps0]
  after_results_simp
  simp only [h2] <;> rfl

set_option maxRecDepth 8192 in
set_option maxHeartbeats 2000000 in
/-- The normalized overlap of the boxes of each edge's two end nodes. -/
theorem k_v82 :
    StableHlo.after Cert.KernelIdeal.Gen.hostOps0 V (Proc.devRef .tc Cert.KernelIdeal.main_v82) = Cert.ReferenceIdeal.Value.val3 L (Proc.devRef .tc Cert.ReferenceIdeal.main_v144) := by
  rw [show Cert.ReferenceIdeal.Value.val3 L (Proc.devRef .tc Cert.ReferenceIdeal.main_v144) = _ from Cert.ReferenceIdeal.Value.val3_main_v144 L]
  simp only [Cert.KernelIdeal.Gen.hostOps0]
  after_results_simp
  simp only [h0, h1, h3] <;> rfl

set_option maxRecDepth 8192 in
set_option maxHeartbeats 2000000 in
/-- The all-ones vector. -/
theorem k_v83 :
    StableHlo.after Cert.KernelIdeal.Gen.hostOps0 V (Proc.devRef .tc Cert.KernelIdeal.main_v83) = broadcastInDim Cert.ReferenceIdeal.S8388608 ![] Cert.ReferenceIdeal.Gen.bcast_S_S8388608 (constant Cert.ReferenceIdeal.S_ .f32 0x3F800000#32) := by
  simp only [Cert.KernelIdeal.Gen.hostOps0]
  after_results_simp
  all_goals rfl

set_option maxRecDepth 8192 in
set_option maxHeartbeats 2000000 in
/-- The position of each edge's start node. -/
theorem k_v25 :
    StableHlo.after Cert.KernelIdeal.Gen.hostOps0 V (Proc.devRef .tc Cert.KernelIdeal.main_v25) = Cert.ReferenceIdeal.Value.res_main_v100 L := by
  simp only [Cert.KernelIdeal.Gen.hostOps0]
  after_results_simp
  simp only [h0, h3] <;> rfl

set_option maxRecDepth 8192 in
set_option maxHeartbeats 2000000 in
/-- The position of each edge's end node. -/
theorem k_v32 :
    StableHlo.after Cert.KernelIdeal.Gen.hostOps0 V (Proc.devRef .tc Cert.KernelIdeal.main_v32) = Cert.ReferenceIdeal.Value.res_main_v107 L := by
  simp only [Cert.KernelIdeal.Gen.hostOps0]
  after_results_simp
  simp only [h0, h3] <;> rfl

set_option maxRecDepth 8192 in
set_option maxHeartbeats 2000000 in
/-- The graph id of each edge's end node. -/
theorem k_v17 :
    StableHlo.after Cert.KernelIdeal.Gen.hostOps0 V (Proc.devRef .tc Cert.KernelIdeal.main_v17) = Host.gather Cert.ReferenceIdeal.gather_S131072_S8388608x1_S8388608_n_0_n_n_0_1_1 (L (Proc.devRef .tc Cert.ReferenceIdeal.main_arg4)) (broadcastInDim Cert.ReferenceIdeal.S8388608x1 ![0] Cert.ReferenceIdeal.Gen.bcast_S8388608_S8388608x1_0 (select (cmpi .slt (Cert.ReferenceIdeal.Value.res_main_v3 L) (broadcastInDim Cert.ReferenceIdeal.S8388608 ![] Cert.ReferenceIdeal.Gen.bcast_S_S8388608 (constantI Cert.ReferenceIdeal.S_ 32 0#32))) (addi (Cert.ReferenceIdeal.Value.res_main_v3 L) (broadcastInDim Cert.ReferenceIdeal.S8388608 ![] Cert.ReferenceIdeal.Gen.bcast_S_S8388608 (constantI Cert.ReferenceIdeal.S_ 32 131072#32))) (Cert.ReferenceIdeal.Value.res_main_v3 L))) := by
  simp only [Cert.KernelIdeal.Gen.hostOps0]
  after_results_simp
  simp only [h3, h4] <;> rfl

set_option maxRecDepth 8192 in
set_option maxHeartbeats 2000000 in
/-- The size of each edge's start node. -/
theorem k_v39 :
    StableHlo.after Cert.KernelIdeal.Gen.hostOps0 V (Proc.devRef .tc Cert.KernelIdeal.main_v39) = Cert.ReferenceIdeal.Value.res_main_v86 L := by
  simp only [Cert.KernelIdeal.Gen.hostOps0]
  after_results_simp
  simp only [h1, h3] <;> rfl

set_option maxRecDepth 8192 in
set_option maxHeartbeats 2000000 in
/-- The size of each edge's end node. -/
theorem k_v46 :
    StableHlo.after Cert.KernelIdeal.Gen.hostOps0 V (Proc.devRef .tc Cert.KernelIdeal.main_v46) = Cert.ReferenceIdeal.Value.res_main_v93 L := by
  simp only [Cert.KernelIdeal.Gen.hostOps0]
  after_results_simp
  simp only [h1, h3] <;> rfl

end Cert.HostK1

end
-- ==== Proof.PreFacts.lean ====
/-
  The precondition, read pointwise.

  The precondition is the conjunction of four "for all indices" tests of the float inputs:
  |a0| < +∞, |a1| < +∞, |a2| < +∞ everywhere, and a2 ≠ 0 everywhere.  At the extended reals the absolute value is
  max x (-x), the constant 0x7F800000 denotes +∞ and the constant 0x00000000 denotes 0.  An extended real whose
  absolute value is below +∞ is neither +∞ nor -∞, hence a real number.  So the precondition says that every
  element of a0, a1, a2 is a real number and that no element of a2 is zero.
-/
import proofs.«159445_j35751307771970_2_alg».proof.Pre_finite_inputs
import proofs.«159445_j35751307771970_2_alg».proof.Proof.LibIdealReal
import Idealize.ShloMosaic.Lib.ReduceAll
import Idealize.ShloMosaic.PureOps.Ideal.Laws

noncomputable section

namespace Cert.PreFacts

open Idealize.ShloMosaic Cert.Lib.IdealReal

/-- The shape of rank 0 has exactly one index. -/
instance : Subsingleton Cert.Pre_finite_inputs.S_.Idx := ⟨fun a b => funext fun d => d.elim0⟩

/-- The f32 pattern 0x7F800000 denotes +∞. -/
theorem ofBits_inf_f32 : Ideal.ofBits .f32 0x7F800000#32 = (⊤ : EReal) := by simp [Ideal.ofBits, Ideal.ieee]

/-- An extended real whose absolute value max x (-x) is below +∞ is a real number. -/
theorem isReal_of_abs_lt_top {x : EReal} (h : max x (-x) < ⊤) : IsReal x := by
  refine isReal_of_ne ?_ ?_
  · rintro rfl; simp at h
  · rintro rfl; simp at h

/-- The element test |x| < +∞, passed, says x is a real number. -/
theorem isReal_of_test (x : Ideal .f32)
    (h : FloatOps.cmpf .olt (FloatOps.hostAbsf x) (FloatOps.ofBits (F := Ideal) .f32 0x7F800000#32) = 1#1) : IsReal x := by
  rw [Ideal.hostAbsf_def, Ideal.absf_def, Ideal.ofBits_def, ofBits_inf_f32, Ideal.cmpf_def] at h
  apply isReal_of_abs_lt_top
  by_contra hn
  simp [Ideal.cmp, hn] at h

/-- The element test x ≠ 0, passed, says x is not zero. -/
theorem ne_zero_of_test (x : Ideal .f32)
    (h : FloatOps.cmpf .une x (FloatOps.ofBits (F := Ideal) .f32 0x00000000#32) = 1#1) : x ≠ 0 := by
  rw [Ideal.ofBits_def, Ideal.ofBits_zero_f32, Ideal.cmpf_def] at h
  intro hn
  simp [Ideal.cmp, hn] at h

theorem of_pre [Cert.Pre_finite_inputs.Facts]
    (a0 a1 : FVec Ideal Cert.Pre_finite_inputs.S131072x2 .f32) (a2 : FVec Ideal Cert.Pre_finite_inputs.S8388608x1 .f32)
    (a3 : IVec Cert.Pre_finite_inputs.S2x8388608 32) (a4 : IVec Cert.Pre_finite_inputs.S131072 32)
    (h : Cert.Pre_finite_inputs.fn (F := Ideal) a0 a1 a2 a3 a4 = fun _ => 1#1) :
    (∀ i, IsReal (a0 i)) ∧ (∀ i, IsReal (a1 i)) ∧ (∀ i, IsReal (a2 i)) ∧ (∀ i, a2 i ≠ 0) := by
  have h0 := congrFun h (fun d => d.elim0 : Cert.Pre_finite_inputs.S_.Idx)
  dsimp only [Cert.Pre_finite_inputs.fn, Cert.Pre_finite_inputs.fn_part1, andi] at h0
  obtain ⟨h012, h3⟩ := IntOp.andi_eq_one.1 h0
  obtain ⟨h01, h2⟩ := IntOp.andi_eq_one.1 h012
  obtain ⟨h0', h1⟩ := IntOp.andi_eq_one.1 h01
  refine ⟨fun i => ?_, fun i => ?_, fun i => ?_, fun i => ?_⟩
  · exact isReal_of_test _ (Host.reduce_andi_all _ _ _ _ _ h0' i)
  · exact isReal_of_test _ (Host.reduce_andi_all _ _ _ _ _ h1 i)
  · exact isReal_of_test _ (Host.reduce_andi_all _ _ _ _ _ h2 i)
  · exact ne_zero_of_test _ (Host.reduce_andi_all _ _ _ _ _ h3 i)

end Cert.PreFacts

end
-- ==== Proof.Alg.lean ====
/-
  The two idealized programs end with the same extended real.

  From memories that agree on the five arguments, the kernel program's buffers before its first region hold the reference's
  own intermediate terms (ratio, normalized overlap, graph ids, positions, lengths).  Each region's output is the blocked,
  split accumulation of a feature column, which is the segment sum of that column because, every length being nonzero, no
  scattered value is +∞.  So the kernel's per-graph scale is the reference's, hence its edge stress is the reference's, hence
  the second region's output is the reference's stress sum, and the last lines agree once the reference's weights 1.0 are
  multiplied out.
-/
import proofs.«159445_j35751307771970_2_alg».proof.Defs
import proofs.«159445_j35751307771970_2_alg».proof.Proof.KernelIdealFr.KHost
import proofs.«159445_j35751307771970_2_alg».proof.Proof.KernelIdealFr.Val0
import proofs.«159445_j35751307771970_2_alg».proof.Proof.KernelIdealFr.Val1
import proofs.«159445_j35751307771970_2_alg».proof.Proof.RegionSum
import proofs.«159445_j35751307771970_2_alg».proof.Proof.BucketSum
import proofs.«159445_j35751307771970_2_alg».proof.Proof.StressEq
import proofs.«159445_j35751307771970_2_alg».proof.Proof.RefReal
import proofs.«159445_j35751307771970_2_alg».proof.Proof.RefReads
import proofs.«159445_j35751307771970_2_alg».proof.Proof.TailEq
import proofs.«159445_j35751307771970_2_alg».proof.Proof.HostK1
import proofs.«159445_j35751307771970_2_alg».proof.Proof.PreFacts
import proofs.«159445_j35751307771970_2_alg».proof.Proof.RDefs
import proofs.«159445_j35751307771970_2_alg».proof.Proof.Gen.ReferenceIdeal.Run
import proofs.«159445_j35751307771970_2_alg».proof.Proof.Gen.Pre_finite_inputs

set_option maxRecDepth 16384

noncomputable section

namespace Cert.Proof.Alg

open Idealize.ShloMosaic Idealize.ShloMosaic.TcCoe Idealize.SL.Sem Idealize.ShloMosaic.StableHlo Idealize.ShloMosaic.ValueIdx
open Cert.KernelIdeal.Fr Cert.Lib.IdealReal
open Cert.ReferenceIdeal.Value (res_main_v10 res_main_v11 res_main_v30 res_main_v69 res_main_v77 res_main_v100 res_main_v107 val3)

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ)
variable (c : Dev Cert.KernelIdeal.nD)

/-- The reference's launch contents on the core. -/
abbrev L : Valuation Cert.ReferenceIdeal.τ Cert.ReferenceIdeal.sig (Elt Ideal) := launchContents m' c

/-- The two memories agree on the five arguments, on this core. -/
structure Agree : Prop where
  a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  a4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)

variable {m m' c}

theorem h0 (h : Agree m m' c) : W0 m ρ c (Proc.devRef .tc Cert.KernelIdeal.main_arg0) = L m' c (Proc.devRef .tc Cert.ReferenceIdeal.main_arg0) := h.a0.symm
theorem h1 (h : Agree m m' c) : W0 m ρ c (Proc.devRef .tc Cert.KernelIdeal.main_arg1) = L m' c (Proc.devRef .tc Cert.ReferenceIdeal.main_arg1) := h.a1.symm
theorem h2 (h : Agree m m' c) : W0 m ρ c (Proc.devRef .tc Cert.KernelIdeal.main_arg2) = L m' c (Proc.devRef .tc Cert.ReferenceIdeal.main_arg2) := h.a2.symm
theorem h3 (h : Agree m m' c) : W0 m ρ c (Proc.devRef .tc Cert.KernelIdeal.main_arg3) = L m' c (Proc.devRef .tc Cert.ReferenceIdeal.main_arg3) := h.a3.symm
theorem h4 (h : Agree m m' c) : W0 m ρ c (Proc.devRef .tc Cert.KernelIdeal.main_arg4) = L m' c (Proc.devRef .tc Cert.ReferenceIdeal.main_arg4) := h.a4.symm

/-! ## The buffers before region 0 hold the reference's terms -/

theorem w1_v10 (h : Agree m m' c) : W1 m ρ c (Proc.devRef .tc Cert.KernelIdeal.main_v10) = res_main_v10 (L m' c) :=
  Cert.HostK1.k_v10 (h0 ρ h) (h1 ρ h) (h2 ρ h) (h3 ρ h) (h4 ρ h)
theorem w1_v17 (h : Agree m m' c) : W1 m ρ c (Proc.devRef .tc Cert.KernelIdeal.main_v17) = Cert.RD.gidEnd (L m' c) :=
  Cert.HostK1.k_v17 (h0 ρ h) (h1 ρ h) (h2 ρ h) (h3 ρ h) (h4 ρ h)
theorem w1_v18 (h : Agree m m' c) : W1 m ρ c (Proc.devRef .tc Cert.KernelIdeal.main_v18) = res_main_v11 (L m' c) :=
  Cert.HostK1.k_v18 (h0 ρ h) (h1 ρ h) (h2 ρ h) (h3 ρ h) (h4 ρ h)
theorem w1_v25 (h : Agree m m' c) : W1 m ρ c (Proc.devRef .tc Cert.KernelIdeal.main_v25) = res_main_v100 (L m' c) :=
  Cert.HostK1.k_v25 (h0 ρ h) (h1 ρ h) (h2 ρ h) (h3 ρ h) (h4 ρ h)
theorem w1_v32 (h : Agree m m' c) : W1 m ρ c (Proc.devRef .tc Cert.KernelIdeal.main_v32) = res_main_v107 (L m' c) :=
  Cert.HostK1.k_v32 (h0 ρ h) (h1 ρ h) (h2 ρ h) (h3 ρ h) (h4 ρ h)
theorem w1_v51 (h : Agree m m' c) : W1 m ρ c (Proc.devRef .tc Cert.KernelIdeal.main_v51) = res_main_v30 (L m' c) :=
  Cert.HostK1.k_v51 (h0 ρ h) (h1 ρ h) (h2 ρ h) (h3 ρ h) (h4 ρ h)
theorem w1_v52 (h : Agree m m' c) : W1 m ρ c (Proc.devRef .tc Cert.KernelIdeal.main_v52) = mulf (res_main_v30 (L m' c)) (res_main_v30 (L m' c)) :=
  Cert.HostK1.k_v52 (h0 ρ h) (h1 ρ h) (h2 ρ h) (h3 ρ h) (h4 ρ h)
theorem w1_v82 (h : Agree m m' c) : W1 m ρ c (Proc.devRef .tc Cert.KernelIdeal.main_v82) = val3 (L m' c) (Proc.devRef .tc Cert.ReferenceIdeal.main_v144) :=
  Cert.HostK1.k_v82 (h0 ρ h) (h1 ρ h) (h2 ρ h) (h3 ρ h) (h4 ρ h)

theorem w1_v83 (h : Agree m m' c) : W1 m ρ c (Proc.devRef .tc Cert.KernelIdeal.main_v83)
    = broadcastInDim Cert.ReferenceIdeal.S8388608 ![] Cert.ReferenceIdeal.Gen.bcast_S_S8388608 (constant (F := Ideal) Cert.ReferenceIdeal.S_ .f32 0x3F800000#32) :=
  Cert.HostK1.k_v83 (h0 ρ h) (h1 ρ h) (h2 ρ h) (h3 ρ h) (h4 ρ h)

/-- The reference's per-edge normalized overlap and the all-ones vector. -/
abbrev novl (L : Valuation Cert.ReferenceIdeal.τ Cert.ReferenceIdeal.sig (Elt Ideal)) : Cert.ReferenceIdeal.S8388608.Idx → EReal :=
  val3 L (Proc.devRef .tc Cert.ReferenceIdeal.main_v144)
abbrev onesE : Cert.ReferenceIdeal.S8388608.Idx → EReal :=
  broadcastInDim Cert.ReferenceIdeal.S8388608 ![] Cert.ReferenceIdeal.Gen.bcast_S_S8388608 (constant (F := Ideal) Cert.ReferenceIdeal.S_ .f32 0x3F800000#32)
abbrev ratio (L : Valuation Cert.ReferenceIdeal.τ Cert.ReferenceIdeal.sig (Elt Ideal)) : Cert.ReferenceIdeal.S8388608.Idx → EReal := res_main_v30 L
abbrev ratio2 (L : Valuation Cert.ReferenceIdeal.τ Cert.ReferenceIdeal.sig (Elt Ideal)) : Cert.ReferenceIdeal.S8388608.Idx → EReal :=
  mulf (res_main_v30 L) (res_main_v30 L)
abbrev stressR (L : Valuation Cert.ReferenceIdeal.τ Cert.ReferenceIdeal.sig (Elt Ideal)) : Cert.ReferenceIdeal.S8388608.Idx → EReal :=
  mulf (res_main_v69 L) (res_main_v69 L)
abbrev gidR (L : Valuation Cert.ReferenceIdeal.τ Cert.ReferenceIdeal.sig (Elt Ideal)) : IVec Cert.ReferenceIdeal.S8388608 32 := res_main_v10 L

/-- The first feature array holds the reference's four value columns and the graph id. -/
theorem feat0_eq (h : Agree m m' c) :
    Cert.KernelIdeal.Fr.feat0 (V1 m ρ) c
      = Cert.FeatRead.feat1 (ratio2 (L m' c)) (ratio (L m' c)) (novl (L m' c)) onesE (sitofp (F := Ideal) .f32 (gidR (L m' c))) := by
  show W1 m ρ c (Proc.devRef .tc Cert.KernelIdeal.main_v91) = _
  rw [W1_v91, w1_v52 ρ h, w1_v51 ρ h, w1_v82 ρ h, w1_v83 ρ h, w1_v10 ρ h]

/-- Region 0's output array after the region. -/
theorem w2_v92 : W2 m ρ c (Proc.devRef .tc Cert.KernelIdeal.main_v92) = G0 (V1 m ρ) c :=
  (W2_arr m ρ c 1).trans (final0 (V1 m ρ) c)

/-- Region 1's output array after the region. -/
theorem w4_v136 : W4 m ρ c (Proc.devRef .tc Cert.KernelIdeal.main_v136) = G1 (V3 m ρ) c :=
  (W4_arr m ρ c 1).trans (final1 (V3 m ρ) c)

/-- The mean overlap rides through region 1. -/
theorem w4_v105 : W4 m ρ c (Proc.devRef .tc Cert.KernelIdeal.main_v105) = Cert.KernelIdeal.KD.govl (Cert.KernelIdeal.KD.sums1 (G0 (V1 m ρ) c)) := by
  rw [W4_of_ne m ρ c Cert.KernelIdeal.main_v105 (by decide)]
  show W3 m ρ c (Proc.devRef .tc Cert.KernelIdeal.main_v105) = _
  rw [W3_v105, w2_v92]

/-- The batch ids are an argument: as launched. -/
theorem w4_arg4 : W4 m ρ c (Proc.devRef .tc Cert.KernelIdeal.main_arg4) = m ((c : Thread Cert.KernelIdeal.nD Cert.KernelIdeal.τ).loc Cert.KernelIdeal.main_arg4) := by
  have h5 := W5_main_arg4 m ρ c
  rw [← h5]
  symm
  exact StableHlo.after_of_forall_not_mem (b := Proc.devRef .tc Cert.KernelIdeal.main_arg4) _ _ (by not_written Cert.KernelIdeal.Gen.hostOps2 0)

/-- The inputs are real and every length is nonzero, read at the reference's launch contents. -/
theorem pre_facts [Cert.Pre_finite_inputs.Facts] (hpre : Cert.Pre_KernelIdeal m) (h : Agree m m' c) :
    (∀ i, IsReal (Cert.RefReal.pos (L m' c) i)) ∧ (∀ i, IsReal (Cert.RefReal.size (L m' c) i))
      ∧ (∀ i, IsReal (Cert.RefReal.len (L m' c) i)) ∧ (∀ i, Cert.RefReal.len (L m' c) i ≠ 0) := by
  have hf := Cert.PreFacts.of_pre _ _ _ _ _ (hpre c)
  have e0 : Cert.RefReal.pos (L m' c) = m ((c.tc : Thread Cert.KernelIdeal.nD Cert.KernelIdeal.τ).loc Cert.KernelIdeal.main_arg0) := h.a0
  have e1 : Cert.RefReal.size (L m' c) = m ((c.tc : Thread Cert.KernelIdeal.nD Cert.KernelIdeal.τ).loc Cert.KernelIdeal.main_arg1) := h.a1
  have e2 : Cert.RefReal.len (L m' c) = m ((c.tc : Thread Cert.KernelIdeal.nD Cert.KernelIdeal.τ).loc Cert.KernelIdeal.main_arg2) := h.a2
  rw [e0, e1, e2]
  exact hf

/-! ## The buckets are the reference's segment sums -/

/-- The host's quotient and maximum are entrywise. -/
theorem hostDivf_apply {s : Shape} {φ : FTy} (x y : FVec Ideal s φ) (i : s.Idx) : Host.divf (F := Ideal) x y i = Ideal.div (x i) (y i) := rfl
theorem maximumf_apply {s : Shape} {φ : FTy} (x y : FVec Ideal s φ) (i : s.Idx) : maximumf (F := Ideal) x y i = max (x i) (y i) := rfl

/-- The reference's segment sum read at a graph: the sum over the edges whose start node lies in the graph. -/
theorem segsum_apply (L : Valuation Cert.ReferenceIdeal.τ Cert.ReferenceIdeal.sig (Elt Ideal)) (v : Cert.ReferenceIdeal.S8388608.Idx → EReal) (g : Fin 64) :
    Cert.RD.segsum L v (ix1 g)
      = ∑ e ∈ (Finset.univ : Finset (Fin 8388608)).filter (fun e => gidR L (ix1 e) = BitVec.ofNat 32 g.val), v (ix1 e) :=
  Cert.RefReads.segsum_edges (gidR L) v g

section Buckets

variable [Cert.Pre_finite_inputs.Facts] (hpre : Cert.Pre_KernelIdeal m) (h : Agree m m' c)
include hpre h

theorem col0_eq (g : Fin 64) : Cert.KernelIdeal.KD.col0 (F := Ideal) (Cert.KernelIdeal.KD.sums1 (F := Ideal) (G0 (F := Ideal) (V1 m ρ) c)) (ix1 g)
    = Cert.RD.segsum (L m' c) (ratio2 (L m' c)) (ix1 g) := by
  obtain ⟨hp, hs, hd, hd0⟩ := pre_facts hpre h
  rw [segsum_apply]
  exact col0_bucket (V1 m ρ) c _ _ _ _ _ g (feat0_eq ρ h) fun e _ => (Cert.RefReal.ratio2_real (L m' c) hp hd0 e).ne_top

theorem col1_eq (g : Fin 64) : Cert.KernelIdeal.KD.col1 (F := Ideal) (Cert.KernelIdeal.KD.sums1 (F := Ideal) (G0 (F := Ideal) (V1 m ρ) c)) (ix1 g)
    = Cert.RD.segsum (L m' c) (ratio (L m' c)) (ix1 g) := by
  obtain ⟨hp, hs, hd, hd0⟩ := pre_facts hpre h
  rw [segsum_apply]
  exact col1_bucket (V1 m ρ) c _ _ _ _ _ g (feat0_eq ρ h) fun e _ => (Cert.RefReal.ratio_real (L m' c) hp hd0 e).ne_top

theorem col3_eq (g : Fin 64) : Cert.KernelIdeal.KD.col3 (F := Ideal) (Cert.KernelIdeal.KD.sums1 (F := Ideal) (G0 (F := Ideal) (V1 m ρ) c)) (ix1 g)
    = Cert.RD.segsum (L m' c) onesE (ix1 g) := by
  rw [segsum_apply]
  refine col3_bucket (V1 m ρ) c _ _ _ _ _ g (feat0_eq ρ h) fun e _ => ?_
  show Ideal.ofBits .f32 0x3F800000#32 ≠ ⊤
  rw [Cert.TailEq.ofBits_one_f32]
  exact EReal.coe_ne_top 1

/-- The kernel's per-graph scale is the reference's. -/
theorem scale_eq : Cert.KernelIdeal.KD.scale (F := Ideal) (Cert.KernelIdeal.KD.sums1 (F := Ideal) (G0 (F := Ideal) (V1 m ρ) c)) = Cert.RD.scaleR (L m' c) := by
  funext i
  obtain ⟨g, rfl⟩ : ∃ g : Fin 64, i = ix1 g := ⟨i 0, eq_ix1 i⟩
  unfold Cert.KernelIdeal.KD.scale Cert.RD.scaleR
  rw [hostDivf_apply, hostDivf_apply, col0_eq ρ hpre h g, col1_eq ρ hpre h g]

/-- The second feature array holds the reference's edge stress and the graph id. -/
theorem feat1_eq : Cert.KernelIdeal.Fr.feat1 (V3 m ρ) c
    = Cert.FeatRead.feat2 (stressR (L m' c)) (sitofp (F := Ideal) .f32 (gidR (L m' c))) := by
  show W3 m ρ c (Proc.devRef .tc Cert.KernelIdeal.main_v135) = _
  rw [W3_v135, w2_v92, scale_eq ρ hpre h,
    W2_keep m ρ c Cert.KernelIdeal.main_v10 (by decide), W2_keep m ρ c Cert.KernelIdeal.main_v17 (by decide),
    W2_keep m ρ c Cert.KernelIdeal.main_v25 (by decide), W2_keep m ρ c Cert.KernelIdeal.main_v32 (by decide),
    W2_keep m ρ c Cert.KernelIdeal.main_v18 (by decide),
    w1_v10 ρ h, w1_v17 ρ h, w1_v25 ρ h, w1_v32 ρ h, w1_v18 ρ h, Cert.StressEq.stress_eq]

/-- Region 1's output added over the cores is the reference's stress sum. -/
theorem gstress_eq : Cert.KernelIdeal.KD.gstress (F := Ideal) (G1 (F := Ideal) (V3 m ρ) c) = Cert.RD.segsum (L m' c) (stressR (L m' c)) := by
  obtain ⟨hp, hs, hd, hd0⟩ := pre_facts hpre h
  funext i
  obtain ⟨g, rfl⟩ : ∃ g : Fin 64, i = ix1 g := ⟨i 0, eq_ix1 i⟩
  rw [segsum_apply]
  exact gstress_bucket (V3 m ρ) c _ _ g (feat1_eq ρ hpre h) fun e _ => (Cert.RefReal.stress_real (L m' c) hp hd hd0 e).ne_top

end Buckets

section Final

variable [Cert.Pre_finite_inputs.Facts] (hpre : Cert.Pre_KernelIdeal m) (h : Agree m m' c)
include hpre h

theorem col2_eq (g : Fin 64) : Cert.KernelIdeal.KD.col2 (F := Ideal) (Cert.KernelIdeal.KD.sums1 (F := Ideal) (G0 (F := Ideal) (V1 m ρ) c)) (ix1 g)
    = Cert.RD.segsum (L m' c) (novl (L m' c)) (ix1 g) := by
  obtain ⟨hp, hs, hd, hd0⟩ := pre_facts hpre h
  rw [segsum_apply]
  exact col2_bucket (V1 m ρ) c _ _ _ _ _ g (feat0_eq ρ h) fun e _ => Cert.RefReal.novl_ne_top (L m' c) hp hs e

/-- The reference's mean overlap per graph. -/
abbrev ovR (L : Valuation Cert.ReferenceIdeal.τ Cert.ReferenceIdeal.sig (Elt Ideal)) : Cert.ReferenceIdeal.S64.Idx → EReal :=
  Host.divf (F := Ideal) (Cert.RD.segsum L (novl L))
    (maximumf (F := Ideal) (Cert.RD.segsum L onesE)
      (broadcastInDim Cert.ReferenceIdeal.S64 ![] Cert.ReferenceIdeal.Gen.bcast_S_S64 (constant (F := Ideal) Cert.ReferenceIdeal.S_ .f32 0x3F800000#32)))

/-- The kernel's mean overlap per graph is the reference's. -/
theorem govl_eq : Cert.KernelIdeal.KD.govl (F := Ideal) (Cert.KernelIdeal.KD.sums1 (F := Ideal) (G0 (F := Ideal) (V1 m ρ) c)) = ovR (L m' c) := by
  funext i
  obtain ⟨g, rfl⟩ : ∃ g : Fin 64, i = ix1 g := ⟨i 0, eq_ix1 i⟩
  unfold Cert.KernelIdeal.KD.govl ovR
  rw [hostDivf_apply, hostDivf_apply, maximumf_apply, maximumf_apply, col2_eq ρ hpre h g, col3_eq ρ hpre h g]

/-- The node counts are computed by the same scatter-add from the same batch ids. -/
theorem gsizes_eq : Cert.KernelIdeal.KD.gsizes (F := Ideal) (W4 m ρ c (Proc.devRef .tc Cert.KernelIdeal.main_arg4)) = res_main_v77 (L m' c) := by
  rw [w4_arg4, ← h.a4]
  rfl

/-- **The kernel program's result is the reference's last line over the reference's terms.** -/
theorem main_eq : W5 m ρ c (Proc.devRef .tc Cert.KernelIdeal.main_v147)
    = Host.divf (F := Ideal) (Host.reduceAdd (F := Ideal)
        (addf (mulf (broadcastInDim Cert.ReferenceIdeal.S64 ![] Cert.ReferenceIdeal.Gen.bcast_S_S64 (constant (F := Ideal) Cert.ReferenceIdeal.S_ .f32 0x3F800000#32))
                (Host.divf (Cert.RD.segsum (L m' c) (stressR (L m' c))) (mulf (res_main_v77 (L m' c)) (res_main_v77 (L m' c)))))
              (mulf (broadcastInDim Cert.ReferenceIdeal.S64 ![] Cert.ReferenceIdeal.Gen.bcast_S_S64 (constant (F := Ideal) Cert.ReferenceIdeal.S_ .f32 0x3F800000#32))
                (ovR (L m' c))))
        (constant (F := Ideal) Cert.ReferenceIdeal.S_ .f32 0x00000000#32) Cert.ReferenceIdeal.Gen.reducesTo_S64_S_d0 Cert.ReferenceIdeal.Gen.h_S_)
      (constant (F := Ideal) Cert.ReferenceIdeal.S_ .f32 0x42800000#32) := by
  rw [W5_v147, w4_v136, w4_v105, gsizes_eq ρ hpre h, gstress_eq ρ hpre h, govl_eq ρ hpre h]
  exact Cert.TailEq.result_eq _ _ _

end Final

end Cert.Proof.Alg

end
-- ==== Proof.lean ====
/-
  The certificate of a graph-layout loss: per-graph normalized stress plus normalized overlap, averaged over 64 graphs.

  Both programs gather, for each of the 8388608 edges, the endpoints' positions and sizes, form per edge
  ratio = ‖p - q‖ / d and the normalized overlap, sum ratio², ratio, overlap and 1 into the 64 graphs by the start node's
  graph, form scale = Σratio² / Σratio per graph, rescale the endpoints by their graphs' scales, form the edge stress
  (|‖p/y - q/z‖ - d| / d)², sum it into the graphs, and average stress/size² + overlap/max(count, 1) over the graphs.
  The reference sums into graphs with a scatter-add.  The kernel packs the value columns beside the graph id as a float
  column and, block by block of 8192 edges on each of two cores, multiplies the transposed 0/1 matrix [graph id = g]
  against the columns on the matrix unit, once for the columns and once for their remainders v - v (the bf16 low part,
  which at the extended reals is v - v), adds the two products and accumulates over the blocks; the host adds the two cores.

  Under the precondition every input is finite and every d is nonzero.  Then every scattered value is real except the
  overlap, which may be the junk 0/0 = ⊥ but never ⊤ (Proof/ScatterLaw.lean, Proof/RefReal.lean), and for values that are
  never ⊤ the accumulated split sums are the segment sums (Proof/LibHiLoSplit.lean, Proof/BucketBridge.lean,
  Proof/BucketSum.lean).  So the kernel's per-graph scale is the reference's; the reference divides every node's position
  by its graph's scale before gathering rows, the kernel gathers first and divides by the gathered scale, and the two agree
  entry by entry (Proof/StressEq.lean); so the stress sums agree, and the last lines agree once the reference's weights 1.0
  are multiplied out (Proof/TailEq.lean).  The frames: each kernel program is host operations, a region, host operations, a
  region, host operations; each region's body resets its output block at a core's first point and accumulates at the later
  ones, and is run once per case (Proof/KernelFr, Proof/KernelIdealFr); the reference's frame is its generated run.
-/
import proofs.«159445_j35751307771970_2_alg».proof.Defs
import proofs.«159445_j35751307771970_2_alg».proof.Proof.Gen.Kernel
import proofs.«159445_j35751307771970_2_alg».proof.Proof.Gen.Kernel.Skeleton
import proofs.«159445_j35751307771970_2_alg».proof.Proof.Gen.Kernel.Launch
import proofs.«159445_j35751307771970_2_alg».proof.Proof.Gen.Kernel.Regions
import proofs.«159445_j35751307771970_2_alg».proof.Proof.Gen.Kernel.Points
import proofs.«159445_j35751307771970_2_alg».proof.Proof.Gen.KernelIdeal
import proofs.«159445_j35751307771970_2_alg».proof.Proof.Gen.KernelIdeal.Skeleton
import proofs.«159445_j35751307771970_2_alg».proof.Proof.Gen.KernelIdeal.Launch
import proofs.«159445_j35751307771970_2_alg».proof.Proof.Gen.KernelIdeal.Regions
import proofs.«159445_j35751307771970_2_alg».proof.Proof.Gen.KernelIdeal.Points
import proofs.«159445_j35751307771970_2_alg».proof.Proof.Gen.ReferenceIdeal
import proofs.«159445_j35751307771970_2_alg».proof.Proof.Gen.Pre_finite_inputs
import proofs.«159445_j35751307771970_2_alg».proof.Proof.Gen.ReferenceIdeal.Run
import proofs.«159445_j35751307771970_2_alg».proof.Proof.Claims
import proofs.«159445_j35751307771970_2_alg».proof.Proof.KernelFr.Run
import proofs.«159445_j35751307771970_2_alg».proof.Proof.KernelIdealFr.Run
import proofs.«159445_j35751307771970_2_alg».proof.Proof.Alg
import proofs.«159445_j35751307771970_2_alg».proof.Proof.ScatterLaw
import Idealize.ShloMosaic.Adequacy
import Idealize.ShloMosaic.Init

noncomputable section

namespace Cert.Proof

open Idealize.ShloMosaic Idealize.SL.Sem Cert.Kernel

/-- The word-level kernel program runs to the end from any memory satisfying the precondition, and keeps its arguments. -/
theorem frame_p : Cert.frame_Kernel :=
  fun m ρ _ => Cert.Kernel.Fr.frame (F := Bits) m ρ

/-- The idealized kernel program runs to the end from any memory satisfying the precondition, and keeps its arguments. -/
theorem frame_pi : Cert.frame_KernelIdeal :=
  fun m ρ _ => Cert.KernelIdeal.Fr.frame (F := Ideal) m ρ

/-- The idealized kernel program and the idealized reference end with the same extended real. -/
theorem algebraic : Cert.algebraic_KernelIdeal_ReferenceIdeal := by
  intro m ρ m' ρ' hpre hagree
  refine ⟨fun c => Cert.KernelIdeal.Fr.W5 m ρ c (Proc.devRef .tc Cert.KernelIdeal.main_v147), Cert.KernelIdeal.Fr.run_val (F := Ideal) m ρ, ?_⟩
  refine (θ_run Cert.ReferenceIdeal.defs _ _).mono (fun _ h c => ⟨(h c).1.trans ?_, (h c).2⟩)
    (Cert.ReferenceIdeal.Value.run (F := Ideal) m' ρ')
  have hag : Cert.Proof.Alg.Agree m m' c :=
    ⟨(hagree c).1, (hagree c).2.1, (hagree c).2.2.1, (hagree c).2.2.2.1, (hagree c).2.2.2.2⟩
  refine Eq.trans ?_ (Cert.Proof.Alg.main_eq ρ hpre hag).symm
  unfold Cert.Proof.Alg.ovR Cert.Proof.Alg.novl Cert.Proof.Alg.stressR Cert.Proof.Alg.onesE Cert.Proof.Alg.L Cert.RD.segsum
  rw [Cert.ReferenceIdeal.Value.val3_main_v144]

theorem claim : Cert.Claim :=
  ⟨Cert.Kernel.Gen.facts, Cert.KernelIdeal.Gen.facts, Cert.ReferenceIdeal.Gen.facts, Cert.Pre_finite_inputs.Gen.facts,
    frame_p, frame_pi, Cert.Proof.Claims.frame_ri, Cert.Proof.Claims.preserves, algebraic⟩

end Cert.Proof

end
